-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v6_2)) (v2 : (c : Dev Cert.KernelIdeal.nD) → Buf (Elt Ideal) ((c.tc : Thread Cert.KernelIdeal.nD Cert.KernelIdeal.τ).loc Cert.KernelIdeal.main_v6_0)) (v3 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v6_2) = v1 c
          ∧ r.2.mem ((c.tc : Thread Cert.KernelIdeal.nD Cert.KernelIdeal.τ).loc Cert.KernelIdeal.main_v6_0) = v2 c
          ∧ r.2.mem ((c.tc : Thread Cert.KernelIdeal.nD Cert.KernelIdeal.τ).loc Cert.KernelIdeal.main_v6_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000 : Shape := ⟨1, ![10000]⟩
abbrev S320000x16 : Shape := ⟨2, ![320000, 16]⟩
abbrev S100x128 : Shape := ⟨2, ![100, 128]⟩
abbrev S16x384 : Shape := ⟨2, ![16, 384]⟩
abbrev S384 : Shape := ⟨1, ![384]⟩
abbrev S_ : Shape := ⟨0, ![]⟩

class Facts : Prop where
  bcast_S_S320000x16 : S_.BroadcastsInDim S320000x16 (![] : Fin 0 → Fin S320000x16.rank)
  reducesTo_S320000x16_S_d0_1 : S320000x16.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S16x384 : S_.BroadcastsInDim S16x384 (![] : Fin 0 → Fin S16x384.rank)
  reducesTo_S16x384_S_d0_1 : S16x384.ReducesTo [0, 1] S_
  bcast_S_S384 : S_.BroadcastsInDim S384 (![] : Fin 0 → Fin S384.rank)
  reducesTo_S384_S_d0 : S384.ReducesTo [0] S_
  bcast_S_S10000 : S_.BroadcastsInDim S10000 (![] : Fin 0 → Fin S10000.rank)
  reducesTo_S10000_S_d0 : S10000.ReducesTo [0] S_

variable [Facts]

def fn_part1 {F : FTy → Type} [FloatOps F] (main_arg0 : IVec S10000 32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_c_6 : IVec S_ 32 := constantI S_ 32 1#32
  let main_v19 : IVec S10000 32 := broadcastInDim S10000 ![] bcast_S_S10000 main_c_6
  let main_v20 : IVec S10000 1 := cmpi .sge main_arg0 main_v19
  let main_c_7 : IVec S_ 32 := constantI S_ 32 99#32
  let main_v21 : IVec S10000 32 := broadcastInDim S10000 ![] bcast_S_S10000 main_c_7
  let main_v22 : IVec S10000 1 := cmpi .sle main_arg0 main_v21
  let main_v23 : IVec S10000 1 := andi main_v20 main_v22
  let main_c_8 : IVec S_ 1 := constantI S_ 1 1#1
  let main_v24 : IVec S_ 1 := (fun x v => Host.reduce IntOp.andi x v reducesTo_S10000_S_d0 h_S_) main_v23 main_c_8
  let main_v25 : IVec S_ 1 := andi main_v18 main_v24
  main_v25

def fn {F : FTy → Type} [FloatOps F] (main_arg0 : IVec S10000 32) (main_arg1 : FVec F S320000x16 .f32) (main_arg2 : FVec F S100x128 .f32) (main_arg3 : FVec F S16x384 .f32) (main_arg4 : FVec F S384 .f32) : IVec S_ 1 :=
  let main_v0 : FVec F S320000x16 .f32 := Host.absf main_arg1
  let main_cst : FVec F S_ .f32 := constant S_ .f32 0x7F800000#32
  let main_v1 : FVec F S320000x16 .f32 := broadcastInDim S320000x16 ![] bcast_S_S320000x16 main_cst
  let main_v2 : IVec S320000x16 1 := cmpf .olt main_v0 main_v1
  let main_c : IVec S_ 1 := constantI S_ 1 1#1
  let main_v3 : IVec S_ 1 := (fun x v => Host.reduce IntOp.andi x v reducesTo_S320000x16_S_d0_1 h_S_) main_v2 main_c
  let main_v4 : FVec F S100x128 .f32 := Host.absf main_arg2
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S16x384 .f32 := Host.absf main_arg3
  let main_cst_2 : FVec F S_ .f32 := constant S_ .f32 0x7F800000#32
  let main_v10 : FVec F S16x384 .f32 := broadcastInDim S16x384 ![] bcast_S_S16x384 main_cst_2
  let main_v11 : IVec S16x384 1 := cmpf .olt main_v9 main_v10
  let main_c_3 : IVec S_ 1 := constantI S_ 1 1#1
  let main_v12 : IVec S_ 1 := (fun x v => Host.reduce IntOp.andi x v reducesTo_S16x384_S_d0_1 h_S_) main_v11 main_c_3
  let main_v13 : IVec S_ 1 := andi main_v8 main_v12
  let main_v14 : FVec F S384 .f32 := Host.absf main_arg4
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg0 main_v13 main_v16
-- ==== Kernel.lean ====
abbrev S10000 : Shape := ⟨1, ![10000]⟩
abbrev S320000x16 : Shape := ⟨2, ![320000, 16]⟩
abbrev S100x128 : Shape := ⟨2, ![100, 128]⟩
abbrev S16x384 : Shape := ⟨2, ![16, 384]⟩
abbrev S384 : Shape := ⟨1, ![384]⟩
abbrev S_ : Shape := ⟨0, ![]⟩
abbrev S10000x128 : Shape := ⟨2, ![10000, 128]⟩
abbrev S80 : Shape := ⟨1, ![80]⟩
abbrev S80x128 : Shape := ⟨2, ![80, 128]⟩
abbrev S1x384 : Shape := ⟨2, ![1, 384]⟩
abbrev S320000x128 : Shape := ⟨2, ![320000, 128]⟩
abbrev S16000x16 : Shape := ⟨2, ![16000, 16]⟩
abbrev S16000x128 : Shape := ⟨2, ![16000, 128]⟩
abbrev S16x128 : Shape := ⟨2, ![16, 128]⟩
abbrev S1x128 : Shape := ⟨2, ![1, 128]⟩

abbrev nBuf : Table → Nat
  | .hbm => 15
  | .local .tc .vmem => 10
  | .local .scVector .vmem => 2
  | _ => 0

abbrev bufTy : (tb : Table) → Fin (nBuf tb) → BufTy
  | .hbm, ⟨0, _⟩ => ⟨S10000, .i32⟩
  | .hbm, ⟨1, _⟩ => ⟨S320000x16, .f32⟩
  | .hbm, ⟨2, _⟩ => ⟨S100x128, .f32⟩
  | .hbm, ⟨3, _⟩ => ⟨S16x384, .f32⟩
  | .hbm, ⟨4, _⟩ => ⟨S384, .f32⟩
  | .hbm, ⟨5, _⟩ => ⟨S_, .i32⟩
  | .hbm, ⟨6, _⟩ => ⟨S10000, .i32⟩
  | .hbm, ⟨7, _⟩ => ⟨S10000, .i32⟩
  | .hbm, ⟨8, _⟩ => ⟨S10000x128, .f32⟩
  | .hbm, ⟨9, _⟩ => ⟨S320000x16, .bf16⟩
  | .hbm, ⟨10, _⟩ => ⟨S16x384, .bf16⟩
  | .hbm, ⟨11, _⟩ => ⟨S1x384, .f32⟩
  | .hbm, ⟨12, _⟩ => ⟨S320000x128, .f32⟩
  | .hbm, ⟨13, _⟩ => ⟨S320000x128, .f32⟩
  | .hbm, ⟨14, _⟩ => ⟨S320000x128, .f32⟩
  | .local .tc .vmem, ⟨0, _⟩ => ⟨S16000x16, .bf16⟩
  | .local .tc .vmem, ⟨1, _⟩ => ⟨S16000x16, .bf16⟩
  | .local .tc .vmem, ⟨2, _⟩ => ⟨S16x384, .bf16⟩
  | .local .tc .vmem, ⟨3, _⟩ => ⟨S1x384, .f32⟩
  | .local .tc .vmem, ⟨4, _⟩ => ⟨S16000x128, .f32⟩
  | .local .tc .vmem, ⟨5, _⟩ => ⟨S16000x128, .f32⟩
  | .local .tc .vmem, ⟨6, _⟩ => ⟨S16000x128, .f32⟩
  | .local .tc .vmem, ⟨7, _⟩ => ⟨S16000x128, .f32⟩
  | .local .tc .vmem, ⟨8, _⟩ => ⟨S16000x128, .f32⟩
  | .local .tc .vmem, ⟨9, _⟩ => ⟨S16000x128, .f32⟩
  | .local .scVector .vmem, ⟨0, _⟩ => ⟨S80, .i32⟩
  | .local .scVector .vmem, ⟨1, _⟩ => ⟨S80x128, .f32⟩
  | _, _ => ⟨S10000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v1_scv : Ref sig .scVector := ⟨.hbm, 7, rfl⟩
abbrev main_arg2_scv : Ref sig .scVector := ⟨.hbm, 2, rfl⟩
abbrev main_v2_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg5_0 : Ref sig .tc := ⟨.vmem, 8, rfl⟩
abbrev cc1_stg5_1 : Ref sig .tc := ⟨.vmem, 9, rfl⟩
abbrev cc0_scratch0 : Ref sig .scVector := ⟨.vmem, 0, rfl⟩
abbrev cc0_scratch1 : Ref sig .scVector := ⟨.vmem, 1, rfl⟩
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c125_i32 : BitVec 32 := 125#32
  let v3 : BitVec 1 := Scalar.cmpi .slt v2 c125_i32
  let v4 : BitVec 32 := Scalar.extui v3
  let c0_i32_0 : BitVec 32 := 0#32
  let v5 : BitVec 1 := Scalar.cmpi .ne v4 c0_i32_0
  v5

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c80_i32 : BitVec 32 := 80#32
  let v18 : BitVec 32 := Scalar.muli v2 c80_i32
  ![v18.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c80_i32 : BitVec 32 := 80#32
  let v18 : BitVec 32 := Scalar.muli v2 c80_i32
  let c0_i32_11_r1 : BitVec 32 := 0#32
  ![v18.toNat, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.addi v1 c32_i32
  let c125_i32_1 : BitVec 32 := 125#32
  let v7 : BitVec 1 := Scalar.cmpi .slt v6 c125_i32_1
  let v8 : BitVec 32 := Scalar.extui v7
  let c0_i32_2 : BitVec 32 := 0#32
  let v9 : BitVec 1 := Scalar.cmpi .ne v8 c0_i32_2
  v9

def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.addi v1 c32_i32
  let c80_i32 : BitVec 32 := 80#32
  let v18 : BitVec 32 := Scalar.muli v6 c80_i32
  ![v18.toNat]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.addi v1 c32_i32
  let c80_i32 : BitVec 32 := 80#32
  let v18 : BitVec 32 := Scalar.muli v6 c80_i32
  let c0_i32_11_r3 : BitVec 32 := 0#32
  ![v18.toNat, 0]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v10 : BitVec 32 := Scalar.addi v1 c64_i32
  let c125_i32_3 : BitVec 32 := 125#32
  let v11 : BitVec 1 := Scalar.cmpi .slt v10 c125_i32_3
  let v12 : BitVec 32 := Scalar.extui v11
  let c0_i32_4 : BitVec 32 := 0#32
  let v13 : BitVec 1 := Scalar.cmpi .ne v12 c0_i32_4
  v13

def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v10 : BitVec 32 := Scalar.addi v1 c64_i32
  let c80_i32 : BitVec 32 := 80#32
  let v18 : BitVec 32 := Scalar.muli v10 c80_i32
  ![v18.toNat]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v10 : BitVec 32 := Scalar.addi v1 c64_i32
  let c80_i32 : BitVec 32 := 80#32
  let v18 : BitVec 32 := Scalar.muli v10 c80_i32
  let c0_i32_11_r5 : BitVec 32 := 0#32
  ![v18.toNat, 0]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v14 : BitVec 32 := Scalar.addi v1 c96_i32
  let c125_i32_5 : BitVec 32 := 125#32
  let v15 : BitVec 1 := Scalar.cmpi .slt v14 c125_i32_5
  let v16 : BitVec 32 := Scalar.extui v15
  let c0_i32_6 : BitVec 32 := 0#32
  let v17 : BitVec 1 := Scalar.cmpi .ne v16 c0_i32_6
  v17

def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v14 : BitVec 32 := Scalar.addi v1 c96_i32
  let c80_i32 : BitVec 32 := 80#32
  let v18 : BitVec 32 := Scalar.muli v14 c80_i32
  ![v18.toNat]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v14 : BitVec 32 := Scalar.addi v1 c96_i32
  let c80_i32 : BitVec 32 := 80#32
  let v18 : BitVec 32 := Scalar.muli v14 c80_i32
  let c0_i32_11_r7 : BitVec 32 := 0#32
  ![v18.toNat, 0]
abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x16 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S10000 : S_.BroadcastsInDim S10000 (![] : Fin 0 → Fin S10000.rank)
  inb_S100x128_S100x128_0_0 : ∀ a, (![0, 0] : Fin 2 → Nat) a + S100x128.size a ≤ S100x128.size a
  gathers_S100x128_S80x128 : S100x128.Gathers 0 S80x128
  bitsLt_bf16_f32 : FTy.bits .bf16 < FTy.bits .f32
  shapeCasts_S384_S1x384 : S384.ShapeCasts S1x384
  inb_S16000x16_S16000x16_0_0 : ∀ a, (![0, 0] : Fin 2 → Nat) a + S16000x16.size a ≤ S16000x16.size a
  h_S16000x16 : 0 < S16000x16.numel
  shapeCasts_S16000x16_S16000x16 : S16000x16.ShapeCasts S16000x16
  inb_S16x384_S16x128_0_0 : ∀ a, (![0, 0] : Fin 2 → Nat) a + S16x128.size a ≤ S16x384.size a
  h_S16x128 : 0 < S16x128.numel
  shapeCasts_S16x128_S16x128 : S16x128.ShapeCasts S16x128
  inb_S1x384_S1x128_0_0 : ∀ a, (![0, 0] : Fin 2 → Nat) a + S1x128.size a ≤ S1x384.size a
  h_S1x128 : 0 < S1x128.numel
  shapeCasts_S1x128_S1x128 : S1x128.ShapeCasts S1x128
  broadcasts_S1x128_S16000x128 : S1x128.Broadcasts S16000x128
  inb_S16000x128_S16000x128_0_0 : ∀ a, (![0, 0] : Fin 2 → Nat) a + S16000x128.size a ≤ S16000x128.size a
  h_S16000x128 : 0 < S16000x128.numel
  inb_S16x384_S16x128_0_128 : ∀ a, (![0, 128] : Fin 2 → Nat) a + S16x128.size a ≤ S16x384.size a
  inb_S1x384_S1x128_0_128 : ∀ a, (![0, 128] : Fin 2 → Nat) a + S1x128.size a ≤ S1x384.size a
  inb_S16x384_S16x128_0_256 : ∀ a, (![0, 256] : Fin 2 → Nat) a + S16x128.size a ≤ S16x384.size a
  inb_S1x384_S1x128_0_256 : ∀ a, (![0, 256] : Fin 2 → Nat) a + S1x128.size a ≤ S1x384.size a
  dot_S16000x16_S16x128_S16000x128_1_0_0_1_n_n_wf : DotDims.WF S16000x16 S16x128 S16000x128 [1] [0] [0] [1] [] []
  hcc0_scratch2 : 0 + S_.numel ≤ 19
  hcc0_scoped0 : 1 + S_.numel ≤ 19
  hcc0_scoped1 : 2 + S_.numel ≤ 19
  hcc0_scoped2 : 3 + S_.numel ≤ 19
  hcc0_scoped3 : 4 + S_.numel ≤ 19
  hcc0_scoped4 : 5 + S_.numel ≤ 19
  hcc0_scoped5 : 6 + S_.numel ≤ 19
  hcc0_scoped6 : 7 + S_.numel ≤ 19
  hcc0_scoped7 : 8 + S_.numel ≤ 19
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S80.size a ≤ S10000.size a
  k0_off2_inb : ∀ i : grid0.Coords, ∀ (k0_h1 : k0_cond1 i = 1#1), ∀ a, (k0_off2 i) a + S80x128.size a ≤ S10000x128.size a
  k0_off3_inb : ∀ i : grid0.Coords, ∀ (k0_h2 : k0_cond2 i = 1#1), ∀ a, (k0_off3 i) a + S80.size a ≤ S10000.size a
  k0_off4_inb : ∀ i : grid0.Coords, ∀ (k0_h2 : k0_cond2 i = 1#1), ∀ a, (k0_off4 i) a + S80x128.size a ≤ S10000x128.size a
  k0_off5_inb : ∀ i : grid0.Coords, ∀ (k0_h3 : k0_cond3 i = 1#1), ∀ a, (k0_off5 i) a + S80.size a ≤ S10000.size a
  k0_off6_inb : ∀ i : grid0.Coords, ∀ (k0_h3 : k0_cond3 i = 1#1), ∀ a, (k0_off6 i) a + S80x128.size a ≤ S10000x128.size a
  k0_off7_inb : ∀ i : grid0.Coords, ∀ (k0_h4 : k0_cond4 i = 1#1), ∀ a, (k0_off7 i) a + S80.size a ≤ S10000.size a
  k0_off8_inb : ∀ i : grid0.Coords, ∀ (k0_h4 : k0_cond4 i = 1#1), ∀ a, (k0_off8 i) a + S80x128.size a ≤ S10000x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x16.size a ≤ S320000x16.size a
  hwx1_0 : ∀ i : grid1.Coords, EltTy.bits .bf16 = 32 ∨ (Rect.block (s := S320000x16) S16000x16.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x384.size a ≤ S16x384.size a
  hwx1_1 : ∀ i : grid1.Coords, EltTy.bits .bf16 = 32 ∨ (Rect.block (s := S16x384) S16x384.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .f32 = 32 ∨ (Rect.block (s := S1x384) S1x384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x128.size a ≤ S320000x128.size a
  hwx1_3 : ∀ i : grid1.Coords, EltTy.bits .f32 = 32 ∨ (Rect.block (s := S320000x128) S16000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16000x128.size a ≤ S320000x128.size a
  hwx1_4 : ∀ i : grid1.Coords, EltTy.bits .f32 = 32 ∨ (Rect.block (s := S320000x128) S16000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16000x128.size a ≤ S320000x128.size a
  hwx1_5 : ∀ i : grid1.Coords, EltTy.bits .f32 = 32 ∨ (Rect.block (s := S320000x128) S16000x128.size (cc1_transform_5 i) (hinb1_5 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
abbrev cc0_scoped4 : DmaSems sig S_ := SemArray.consecutive 5 S_ hcc0_scoped4
abbrev cc0_scoped5 : DmaSems sig S_ := SemArray.consecutive 6 S_ hcc0_scoped5
abbrev cc0_scoped6 : DmaSems sig S_ := SemArray.consecutive 7 S_ hcc0_scoped6
abbrev cc0_scoped7 : DmaSems sig S_ := SemArray.consecutive 8 S_ hcc0_scoped7
def dot_S16000x16_S16x128_S16000x128_1_0_0_1_n_n : DotDims S16000x16 S16x128 S16000x128 where
  lhsContracting := [1]
  rhsContracting := [0]
  lhsNonContracting := [0]
  rhsNonContracting := [1]
  lhsBatch := []
  rhsBatch := []
  wf := dot_S16000x16_S16x128_S16000x128_1_0_0_1_n_n_wf

abbrev win1_0 : Pipeline.Window sig grid1 :=
  Pipeline.Window.ofSpec (Memref.whole main_v3) S16000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S16x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S16000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_1) S16000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6_2) S16000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000 : Shape := ⟨1, ![10000]⟩
abbrev S320000x16 : Shape := ⟨2, ![320000, 16]⟩
abbrev S100x128 : Shape := ⟨2, ![100, 128]⟩
abbrev S16x384 : Shape := ⟨2, ![16, 384]⟩
abbrev S384 : Shape := ⟨1, ![384]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S10000x128 : Shape := ⟨2, ![10000, 128]⟩
abbrev S320000x384 : Shape := ⟨2, ![320000, 384]⟩
abbrev S1x384 : Shape := ⟨2, ![1, 384]⟩
abbrev S320000x128 : Shape := ⟨2, ![320000, 128]⟩

abbrev nBuf : Space → Nat
  | .hbm => 38
  | .vmem => 0
  | .smem => 0
  | _ => 0

abbrev bufTy : (tb : Table) → Fin (tcTables nBuf tb) → BufTy
  | .hbm, ⟨0, _⟩ => ⟨S10000, .i32⟩
  | .hbm, ⟨1, _⟩ => ⟨S320000x16, .f32⟩
  | .hbm, ⟨2, _⟩ => ⟨S100x128, .f32⟩
  | .hbm, ⟨3, _⟩ => ⟨S16x384, .f32⟩
  | .hbm, ⟨4, _⟩ => ⟨S384, .f32⟩
  | .hbm, ⟨5, _⟩ => ⟨S_, .i32⟩
  | .hbm, ⟨6, _⟩ => ⟨S10000, .i32⟩
  | .hbm, ⟨7, _⟩ => ⟨S10000, .i32⟩
  | .hbm, ⟨8, _⟩ => ⟨S_, .i32⟩
  | .hbm, ⟨9, _⟩ => ⟨S10000, .i32⟩
  | .hbm, ⟨10, _⟩ => ⟨S10000, .i1⟩
  | .hbm, ⟨11, _⟩ => ⟨S_, .i32⟩
  | .hbm, ⟨12, _⟩ => ⟨S10000, .i32⟩
  | .hbm, ⟨13, _⟩ => ⟨S10000, .i32⟩
  | .hbm, ⟨14, _⟩ => ⟨S10000, .i32⟩
  | .hbm, ⟨15, _⟩ => ⟨S10000x1, .i32⟩
  | .hbm, ⟨16, _⟩ => ⟨S1, .i32⟩
  | .hbm, ⟨17, _⟩ => ⟨S_, .i32⟩
  | .hbm, ⟨18, _⟩ => ⟨S10000x1, .i32⟩
  | .hbm, ⟨19, _⟩ => ⟨S10000x1, .i1⟩
  | .hbm, ⟨20, _⟩ => ⟨S1x1, .i32⟩
  | .hbm, ⟨21, _⟩ => ⟨S10000x1, .i32⟩
  | .hbm, ⟨22, _⟩ => ⟨S10000x1, .i1⟩
  | .hbm, ⟨23, _⟩ => ⟨S10000x1, .i1⟩
  | .hbm, ⟨24, _⟩ => ⟨S_, .i1⟩
  | .hbm, ⟨25, _⟩ => ⟨S10000, .i1⟩
  | .hbm, ⟨26, _⟩ => ⟨S10000x128, .f32⟩
  | .hbm, ⟨27, _⟩ => ⟨S10000x128, .i1⟩
  | .hbm, ⟨28, _⟩ => ⟨S_, .f32⟩
  | .hbm, ⟨29, _⟩ => ⟨S10000x128, .f32⟩
  | .hbm, ⟨30, _⟩ => ⟨S10000x128, .f32⟩
  | .hbm, ⟨31, _⟩ => ⟨S320000x384, .f32⟩
  | .hbm, ⟨32, _⟩ => ⟨S1x384, .f32⟩
  | .hbm, ⟨33, _⟩ => ⟨S320000x384, .f32⟩
  | .hbm, ⟨34, _⟩ => ⟨S320000x384, .f32⟩
  | .hbm, ⟨35, _⟩ => ⟨S320000x128, .f32⟩
  | .hbm, ⟨36, _⟩ => ⟨S320000x128, .f32⟩
  | .hbm, ⟨37, _⟩ => ⟨S320000x128, .f32⟩
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  reducesTo_S10000x1_S10000_d1 : S10000x1.ReducesTo [1] S10000
  h_S_ : 0 < S_.numel
  bcast_S10000_S10000x128_0 : S10000.BroadcastsInDim S10000x128 (![0] : Fin 1 → Fin S10000x128.rank)
  bcast_S_S10000x128 : S_.BroadcastsInDim S10000x128 (![] : Fin 0 → Fin S10000x128.rank)
  bcast_S384_S1x384_1 : S384.BroadcastsInDim S1x384 (![1] : Fin 1 → Fin S1x384.rank)
  bcast_S1x384_S320000x384_0_1 : S1x384.BroadcastsInDim S320000x384 (![0, 1] : Fin 2 → Fin S320000x384.rank)
  slices_S320000x384_S320000x128_0_0 : S320000x384.Slices ![0, 0] S320000x128
  slices_S320000x384_S320000x128_0_128 : S320000x384.Slices ![0, 128] S320000x128
  slices_S320000x384_S320000x128_0_256 : S320000x384.Slices ![0, 256] S320000x128
  gather_S100x128_S10000x1_S10000x128_1_0_n_n_0_1_1128_wf : GatherDims.WF S100x128 S10000x1 S10000x128 [1] [0] [] [0] [] 1 ![1, 128]
  dot_S320000x16_S16x384_S320000x384_1_0_0_1_n_n_wf : DotDims.WF S320000x16 S16x384 S320000x384 [1] [0] [0] [1] [] []

variable [Facts₀]

def gather_S100x128_S10000x1_S10000x128_1_0_n_n_0_1_1128 : GatherDims S100x128 S10000x1 S10000x128 where
  offsetDims := [1]
  collapsedSliceDims := [0]
  operandBatchingDims := []
  startIndicesBatchingDims := []
  startIndexMap := [0]
  indexVectorDim := 1
  sliceSizes := ![1, 128]
  wf := gather_S100x128_S10000x1_S10000x128_1_0_n_n_0_1_1128_wf
def dot_S320000x16_S16x384_S320000x384_1_0_0_1_n_n : DotDims S320000x16 S16x384 S320000x384 where
  lhsContracting := [1]
  rhsContracting := [0]
  lhsNonContracting := [0]
  rhsNonContracting := [1]
  lhsBatch := []
  rhsBatch := []
  wf := dot_S320000x16_S16x384_S320000x384_1_0_0_1_n_n_wf

class Facts : Prop extends Facts₀ where

variable [Facts]
-- ==== Proof.KI.Setup.lean ====
/-
  The kernel's program as the SparseCore launch theorem sees it, and the ghost state its proof runs on:
  the handshakes' rounds, the TensorCore pipeline's staging cells' rounds, and the transfers' counters,
  side by side.
-/
import proofs.«206544_g7275674599721_cont_sun_c4_423_43_alg».proof.KernelIdeal
import proofs.«206544_g7275674599721_cont_sun_c4_423_43_alg».proof.Proof.Gen.KernelIdeal
import Idealize.ShloMosaic.Lib.SparseCore.Launch
import Idealize.ShloMosaic.Lib.Pipeline.Kit
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL

/-- The pipeline's staging cells' rounds: the left factor of the right factor. -/
def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

/-- The launch element splits into the handshakes' part, the pipeline's and the counters'. -/
theorem ownU_triple (a : UH) (b : UP) (c : Counters) :
    (ownU ((a, (b, c)) : UU) : sProp (MT nD τ sig (HIx 1) (Elt F) ℕ UU ℕ))
      ⊢ iprop(BI.own (EH (F := F) a) ∗ BI.own (EP (F := F) b)) := by
  iintro Hu
  ihave H := (ownU_pair _ _) $$ Hu
  icases H with ⟨HH, HR⟩
  isplitl [HH]; · iexact HH
  ihave H2 := (own_pair_emb (embR (A := UH) (B := UP × Counters)) b c) $$ HR
  icases H2 with ⟨HP, -⟩
  iexact HP

end Cert.KernelIdeal.Run

end
-- ==== Proof.KI.Round.lean ====
/-
  One round of the lookup on one vector subcore: copy 80 atom indices from the index array into the
  subcore's index scratch, gather the 80 table rows they name into its row scratch, copy those rows to
  the same 80 rows of the output.  After the round those 80 rows of the output hold, at (n, l), the
  table at (index word of atom n read unsigned, l): the gather as ONE function of the whole arrays.
-/
import proofs.«206544_g7275674599721_cont_sun_c4_423_43_alg».proof.Proof.KI.Setup
import proofs.«206544_g7275674599721_cont_sun_c4_423_43_alg».proof.Proof.Gen.KernelIdeal.Skeleton
import Idealize.ShloMosaic.Lib.ValueIdx

noncomputable section

namespace Cert.KernelIdeal.Run

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays and scratch buffers as a vector subcore names them -/

abbrev idxW : Memref sig .scVector .hbm S10000 .i32 := Memref.whole main_v1_scv
abbrev tabW : Memref sig .scVector .hbm S100x128 .f32 := Memref.whole main_arg2_scv
abbrev outW : Memref sig .scVector .hbm S10000x128 .f32 := Memref.whole main_v2_scv
abbrev sIdx : Memref sig .scVector .vmem S80 .i32 := Memref.whole cc0_scratch0
abbrev sRows : Memref sig .scVector .vmem S80x128 .f32 := Memref.whole cc0_scratch1

/-- 80 consecutive entries of the index array, from entry `o1 0`. -/
abbrev idxSl (o1 : Fin 1 → Nat) (h1 : ∀ a, o1 a + S80.size a ≤ S10000.size a) : Memref sig .scVector .hbm S80 .i32 :=
  idxW.slice (Rect.unit (s := S10000) o1 S80.size h1) (fun _ => rfl)
/-- 80 consecutive rows of the output, from row `o2 0`. -/
abbrev outSl (o2 : Fin 2 → Nat) (h2 : ∀ a, o2 a + S80x128.size a ≤ S10000x128.size a) : Memref sig .scVector .hbm S80x128 .f32 :=
  outW.slice (Rect.unit (s := S10000x128) o2 S80x128.size h2) (fun _ => rfl)
/-- The whole table, as the gather names it. -/
abbrev tabSl : Memref sig .scVector .hbm S100x128 .f32 :=
  tabW.slice (Rect.unit (s := S100x128) ![0, 0] S100x128.size inb_S100x128_S100x128_0_0) (fun _ => rfl)

/-! ## The gather as one function of the whole arrays -/

/-- Entry (n, l) is the table at (index word of atom n, read unsigned and reduced into the 100 rows; l). -/
def G (ft : S100x128.Idx → Elt F .f32) (fi : S10000.Idx → Elt F .i32) : S10000x128.Idx → Elt F .f32 :=
  fun j => ft (ix2 (⟨(fi (ix1 (j 0 : Fin 10000))).toNat % 100, Nat.mod_lt _ (by decide)⟩ : Fin 100) (j 1 : Fin 128))

/-! ## Where the slices send an index -/

/-- The table slice is the whole table: the gather's source index is (named row, own lane). -/
theorem tab_emb_idx (rws : Fin (S80x128.size gathers_S100x128_S80x128.axis') → Fin (S100x128.size gathers_S100x128_S80x128.axis))
    (x : S80x128.Idx) (a : Fin 2) :
    ((tabSl.view.emb (gathers_S100x128_S80x128.idx rws x)) a : Nat) = if a.val = 0 then (rws (x 0)).val else (x 1).val := by
  match a with
  | ⟨0, _⟩ =>
    show 0 + 1 * ((gathers_S100x128_S80x128.idx rws x (0 : Fin 2) : Fin _) : Nat) = _
    rw [Nat.zero_add, Nat.one_mul]
    exact congrArg Fin.val (Shape.Gathers.idx_axis gathers_S100x128_S80x128 rws x)
  | ⟨1, _⟩ =>
    show 0 + 1 * ((gathers_S100x128_S80x128.idx rws x (1 : Fin 2) : Fin _) : Nat) = _
    rw [Nat.zero_add, Nat.one_mul]
    exact Shape.Gathers.idx_of_ne gathers_S100x128_S80x128 rws x (1 : Fin 2) (by decide)

/-- Row `r`, lane `l` of an output chunk is row `o2 0 + r`, lane `o2 1 + l` of the output. -/
theorem out_emb_val (o2 : Fin 2 → Nat) (h2 : ∀ a, o2 a + S80x128.size a ≤ S10000x128.size a) (x : S80x128.Idx) (a : Fin 2) :
    (((outSl o2 h2).view.emb x) a : Nat) = o2 a + (x a).val := by
  show o2 a + 1 * (x a).val = _
  rw [Nat.one_mul]

/-- Entry `k` of an index chunk is entry `o1 0 + k` of the index array. -/
theorem idx_emb_val (o1 : Fin 1 → Nat) (h1 : ∀ a, o1 a + S80.size a ≤ S10000.size a) (y : S80.Idx) (a : Fin 1) :
    (((idxSl o1 h1).view.emb y) a : Nat) = o1 a + (y a).val := by
  show o1 a + 1 * (y a).val = _
  rw [Nat.one_mul]

/-- Entry `k` of the rows an index list names is the list's `k`-th word in row-major order, read unsigned. -/
theorem rows_val {si : Shape} {o z : ℕ} (idx : si.Idx → Elt F .i32) (hn : si.numel = o) (h : ∀ x, (idx x).toNat < z) (k : Fin o) :
    (SparseCore.rows (F := F) idx hn h k).val = (idx (si.rowMajor.symm (k.cast hn.symm))).toNat := rfl

/-- In a one-axis shape the `k`-th index in row-major order has coordinate `k`. -/
theorem rowMajor_symm_one_val {dd : Fin 1 → Nat} (k : Fin (⟨1, dd⟩ : Shape).numel) :
    ((((⟨1, dd⟩ : Shape).rowMajor.symm k) 0 : Fin _) : Nat) = k.val := by
  have := Shape.rowMajor_val_one ((⟨1, dd⟩ : Shape).rowMajor.symm k)
  rw [Equiv.apply_symm_apply] at this
  exact this.symm

/-! ## The round -/

/-- One round of the lookup on one vector subcore, over the two copies' semaphores. -/
def round (i : grid0.Coords) (o1 : Fin 1 → Nat) (h1 : ∀ a, o1 a + S80.size a ≤ S10000.size a)
    (o2 : Fin 2 → Nat) (h2 : ∀ a, o2 a + S80x128.size a ≤ S10000x128.size a) (sA sB : DmaSems sig S_) :
    Prog (TpuEff nD τ sig (Elt F) Λ₀ (.scVector ((i 0).castLE hcore0) ((i 1).castLE hsub0))) PUnit := do
  Prog.lift (.enqueueDma (idxSl o1 h1) (.here sIdx) (.dma sA.sem) (View.wordExact_bits rfl) (Memref.isWhole_whole _).wordExact ⟨Or.inl rfl, trivial⟩)
  Prog.lift (.waitDma2 sA.sem (idxSl o1 h1) sIdx (View.wordExact_bits rfl) (Memref.isWhole_whole _).wordExact)
  SparseCore.enqueueIndirectGather rfl tabSl sRows gathers_S100x128_S80x128 sIdx rfl cc0_scratch2.sem (View.wordExact_bits rfl) rfl (Or.inl rfl)
  SparseCore.waitIndirectGather cc0_scratch2.sem tabSl sRows (View.wordExact_bits rfl) (Memref.isWhole_whole _).wordExact
  Prog.lift (.enqueueDma sRows (.here (outSl o2 h2)) (.dma sB.sem) (Memref.isWhole_whole _).wordExact (View.wordExact_bits rfl) ⟨Or.inl rfl, trivial⟩)
  Prog.lift (.waitDma2 sB.sem sRows (outSl o2 h2) (Memref.isWhole_whole _).wordExact (View.wordExact_bits rfl))
  pure ⟨⟩

/-- The vector subcore at grid point `i` of device `d`. -/
abbrev tile (d : Dev nD) (i : grid0.Coords) : Thread nD τ := V d ((i 0).castLE hcore0) ((i 1).castLE hsub0)

theorem round_wp (d : Dev nD) (i : grid0.Coords) (o1 : Fin 1 → Nat) (h1 : ∀ a, o1 a + S80.size a ≤ S10000.size a)
    (o2 : Fin 2 → Nat) (h2 : ∀ a, o2 a + S80x128.size a ≤ S10000x128.size a) (ho0 : o2 0 = o1 0) (ho1 : o2 1 = 0)
    (sA sB : DmaSems sig S_)
    (O : CellTallies nD τ sig (HIx 1)) (W : Waits sig (HIx 1)) (q : PosShare TreeShare)
    (fi : Buf (Elt F) ((idxW).view.loc (tile d i))) (ft : Buf (Elt F) ((tabW).view.loc (tile d i)))
    (fo : Buf (Elt F) ((outW).view.loc (tile d i)))
    (s0 : Buf (Elt F) ((sIdx).view.loc (tile d i))) (s1 : Buf (Elt F) ((sRows).view.loc (tile d i)))
    (hin : ∀ n : S10000.Idx, (fi n).toNat < 100) :
    (iprop(Transfers.MayWaits (tile d i) (none : HIx 1) O
        ∗ ((idxSl o1 h1).view.loc (tile d i) ↦[(idxSl o1 h1).view.set]{fullShare} fi)
        ∗ ((tabSl).view.loc (tile d i) ↦[(tabSl).view.set]{q} ft)
        ∗ ((outSl o2 h2).view.loc (tile d i) ↦[(outSl o2 h2).view.set]{fullShare} fo)
        ∗ ((sIdx).view.loc (tile d i) ↦{fullShare} s0)
        ∗ ((sRows).view.loc (tile d i) ↦{fullShare} s1)
        ∗ semVal (tile d i, SemLoc.dma sA.sem) 0
        ∗ semVal (tile d i, SemLoc.dma sB.sem) 0
        ∗ semVal (tile d i, SemLoc.dma cc0_scratch2.sem) 0
        ∗ owes (tile d i) O W) : sProp 𝕄)
      ⊢ wp frame (wpE (defs₀ (F := F)) 𝒱₀ (tile d i) none) Set.univ
          (round (F := F) i o1 h1 o2 h2 sA sB) (fun _ => (iprop(
            ((idxSl o1 h1).view.loc (tile d i) ↦[(idxSl o1 h1).view.set]{fullShare} fi)
            ∗ ((tabSl).view.loc (tile d i) ↦[(tabSl).view.set]{q} ft)
            ∗ ((outSl o2 h2).view.loc (tile d i) ↦[(outSl o2 h2).view.set]{fullShare} G ft fi)
            ∗ (∃ s0', (sIdx).view.loc (tile d i) ↦{fullShare} s0')
            ∗ (∃ s1', (sRows).view.loc (tile d i) ↦{fullShare} s1')
            ∗ semVal (tile d i, SemLoc.dma sA.sem) 0
            ∗ semVal (tile d i, SemLoc.dma sB.sem) 0
            ∗ semVal (tile d i, SemLoc.dma cc0_scratch2.sem) 0
            ∗ ∃ W', ⌜∀ p ∈ W', p ∈ W ∨ p.2 = none⌝ ∗ owes (tile d i) O W') : sProp 𝕄)) := by
  iintro ⟨#Hmw, Hi, Ht, Ho, Hs0, Hs1, HA, HB, HC, HO⟩
  unfold round
  sl_exec
  have hin2 : ∀ x, ((sIdx).view.read (Elt F) (View.write (Elt F) sIdx.view s0 (round_wp.sl.dma0 d i o1 h1 fi) Finset.univ) x).toNat < S100x128.size gathers_S100x128_S80x128.axis := by
    intro x
    rw [View.read_write_univ]
    exact hin _
  sl_exec
  sl_step
  have hval : ∀ y ∈ (outSl o2 h2).view.set,
      ((outSl o2 h2).view.writes (Elt F) fo [⟨Rect.whole S80x128, round_wp.sl.dma0_1 d i o1 h1 fi ft s0 s1 hin2⟩]) y = G ft fi y := by
    intro y hy
    obtain ⟨x, -, rfl⟩ := Finset.mem_map.mp hy
    have e1 : (outSl o2 h2).view.emb x = ((outSl o2 h2).view.slice (Rect.whole S80x128)).emb x := by
      simp only [View.emb_slice, Function.Embedding.trans_apply, Rect.emb_whole_apply]
    rw [View.writes_singleton]
    conv_lhs => rw [e1, View.write_emb_of_mem _ _ (Finset.mem_univ _)]
    have e2 : sRows.view.read (Elt F) (sRows.view.writes (Elt F) s1 [⟨Rect.whole S80x128, round_wp.sl.gather0 d i o1 h1 fi ft s0 hin2⟩]) x
        = round_wp.sl.gather0 d i o1 h1 fi ft s0 hin2 x := by
      have := View.read_writes_cons_emb sRows.view s1 (Rect.whole S80x128) (round_wp.sl.gather0 d i o1 h1 fi ft s0 hin2) [] x
      rwa [Rect.emb_whole_apply] at this
    rw [cast_eq]
    rw [show round_wp.sl.dma0_1 d i o1 h1 fi ft s0 s1 hin2 x = round_wp.sl.gather0 d i o1 h1 fi ft s0 hin2 x from e2]
    have e3 : round_wp.sl.gather0 d i o1 h1 fi ft s0 hin2 x
        = ft (tabSl.view.emb (gathers_S100x128_S80x128.idx (SparseCore.rows ((sIdx).view.read (Elt F)
            (View.write (Elt F) sIdx.view s0 (round_wp.sl.dma0 d i o1 h1 fi) Finset.univ)) rfl hin2) x)) := rfl
    rw [e3]
    unfold G
    congr 1
    funext a
    refine Fin.ext ?_
    match a with
    | ⟨0, _⟩ =>
      refine (tab_emb_idx _ x _).trans ?_
      rw [if_pos rfl]
      refine (rows_val _ _ _ _).trans ?_
      refine (congrArg BitVec.toNat (congrFun (View.read_write_univ (v := sIdx.view) s0 (round_wp.sl.dma0 d i o1 h1 fi)) _)).trans ?_
      show BitVec.toNat (fi ((idxSl o1 h1).view.emb (S80.rowMajor.symm _))) = BitVec.toNat (fi (ix1 ((outSl o2 h2).view.emb x 0))) % 100
      rw [Nat.mod_eq_of_lt (hin _)]
      refine congrArg (fun n => BitVec.toNat (fi n)) ?_
      funext b
      refine Fin.ext ?_
      match b with
      | ⟨0, _⟩ =>
        refine (idx_emb_val o1 h1 _ 0).trans ?_
        refine Eq.trans ?_ (out_emb_val o2 h2 x 0).symm
        rw [ho0, rowMajor_symm_one_val]
        rfl
    | ⟨1, _⟩ =>
      refine (tab_emb_idx _ x _).trans ?_
      rw [if_neg (show ¬ ((1 : Nat) = 0) from Nat.one_ne_zero)]
      refine Eq.trans ?_ (out_emb_val o2 h2 x 1).symm
      rw [ho1, Nat.zero_add]
  ihave Hout := (Entails.of_eq (pointsTo_congr (q := fullShare) hval)) $$ Ho
  isplitl [Hi]; · iexact Hi
  isplitl [Ht]; · iexact Ht
  isplitl [Hout]; · iexact Hout
  isplitl [Hs0]; · iexists _; iexact Hs0
  isplitl [Hs1]; · iexists _; iexact Hs1
  isplitl [HA]; · iexact HA
  isplitl [HB]; · iexact HB
  isplitl [HC]; · iexact HC
  iexists _
  isplitr
  rotate_left
  · iexact HO
  · ipureintro
    intro p hp
    simp only [Finset.mem_insert] at hp
    rcases hp with rfl | rfl | rfl | hp
    · exact Or.inr rfl
    · exact Or.inr rfl
    · exact Or.inr rfl
    · exact Or.inl hp

end Cert.KernelIdeal.Run

end
-- ==== Proof.KI.Pay.lean ====
/-
  What the handshakes carry.  A vector subcore's task is handed exactly what it touches: for each of its
  rounds the 80 index entries it reads and the 80 output rows it writes, held outright, and a read share
  of the whole table; it hands back the same with its output rows holding the gather.  A SparseCore's
  operands are its sixteen subcores' tasks' side by side.
-/
import proofs.«206544_g7275674599721_cont_sun_c4_423_43_alg».proof.Proof.KI.Round

noncomputable section

namespace Cert.KernelIdeal.Run

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The rounds' guards: every subcore runs rounds 0, 1 and 2 (its chunk number is below 96) -/

theorem cond1 : ∀ i : grid0.Coords, k0_cond1 i = 1#1 := by decide +kernel
theorem cond2 : ∀ i : grid0.Coords, k0_cond2 i = 1#1 := by decide +kernel
theorem cond3 : ∀ i : grid0.Coords, k0_cond3 i = 1#1 := by decide +kernel

/-! ## The arrays as the TensorCore names them -/

abbrev idxLoc (d : Dev nD) : Loc nD τ sig := (SparseCore.T d).loc main_v1
abbrev tabLoc (d : Dev nD) : Loc nD τ sig := (SparseCore.T d).loc main_arg2
abbrev outLoc (d : Dev nD) : Loc nD τ sig := (SparseCore.T d).loc main_v2

/-- A subcore's read share of the table: the full share cut in two for the SparseCores, each half in sixteen. -/
def tabShare (L : grid0.Coords) : PosShare TreeShare :=
  pieceOf (pieceOf fullShare 2 (by decide) ⟨(L 0).val, (L 0).isLt⟩) 16 (by decide) ⟨(L 1).val, (L 1).isLt⟩

/-- One round's pieces: 80 index entries and 80 output rows, held outright. -/
def roundRes (d : Dev nD) (L : grid0.Coords) (o1 : Fin 1 → Nat) (h1 : ∀ a, o1 a + S80.size a ≤ S10000.size a)
    (o2 : Fin 2 → Nat) (h2 : ∀ a, o2 a + S80x128.size a ≤ S10000x128.size a)
    (fi : Buf (Elt F) (idxLoc d)) (fo : Buf (Elt F) (outLoc d)) : sProp 𝕄 :=
  iprop(((idxSl o1 h1).view.loc (tile d L) ↦[(idxSl o1 h1).view.set]{fullShare} fi)
    ∗ ((outSl o2 h2).view.loc (tile d L) ↦[(outSl o2 h2).view.set]{fullShare} fo))

/-- What the subcore at grid point `L` holds for its task, its output rows at `fo r` in round `r`. -/
def tileRes (d : Dev nD) (L : grid0.Coords) (fi : Buf (Elt F) (idxLoc d)) (ft : Buf (Elt F) (tabLoc d))
    (fo : Fin 4 → Buf (Elt F) (outLoc d)) : sProp 𝕄 :=
  iprop(((tabSl).view.loc (tile d L) ↦[(tabSl).view.set]{tabShare L} ft)
    ∗ roundRes d L (k0_off1 L) (k0_off1_inb L (cond1 L)) (k0_off2 L) (k0_off2_inb L (cond1 L)) fi (fo 0)
    ∗ roundRes d L (k0_off3 L) (k0_off3_inb L (cond2 L)) (k0_off4 L) (k0_off4_inb L (cond2 L)) fi (fo 1)
    ∗ roundRes d L (k0_off5 L) (k0_off5_inb L (cond3 L)) (k0_off6 L) (k0_off6_inb L (cond3 L)) fi (fo 2)
    ∗ (if h : k0_cond4 L = 1#1 then roundRes d L (k0_off7 L) (k0_off7_inb L h) (k0_off8 L) (k0_off8_inb L h) fi (fo 3) else iprop(emp)))

/-- Before the task: the output rows at whatever they hold. -/
def tileGo (d : Dev nD) (L : grid0.Coords) (fi : Buf (Elt F) (idxLoc d)) (ft : Buf (Elt F) (tabLoc d)) : sProp 𝕄 :=
  iprop(∃ fo, tileRes d L fi ft fo)
/-- After it: the output rows at the gather. -/
def tileTd (d : Dev nD) (L : grid0.Coords) (fi : Buf (Elt F) (idxLoc d)) (ft : Buf (Elt F) (tabLoc d)) : sProp 𝕄 :=
  tileRes d L fi ft (fun _ => G ft fi)

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem nCore_eq (q : Fin 1) : (K (F := F)).nCore q = grid0.bound 0 := by
  match q with
  | ⟨0, _⟩ => rfl
theorem nSub_eq (q : Fin 1) : (K (F := F)).nSub q = grid0.bound 1 := by
  match q with
  | ⟨0, _⟩ => rfl

/-- The grid point of task `s` of SparseCore `c` of the call. -/
def coordsQ (q : Fin 1) (c : Fin ((K (F := F)).nCore q)) (s : Fin ((K (F := F)).nSub q)) : grid0.Coords :=
  coordsV (c.cast (nCore_eq q)) (s.cast (nSub_eq q))

/-- The handshakes' payloads: per task the subcore's pieces; per SparseCore its sixteen tasks'. Here `fi` is the
    index array when the call is made and `ft` the table, both functions of the launch memory alone. -/
def P (fi : (d : Dev nD) → Buf (Elt F) (idxLoc d)) (ft : (d : Dev nD) → Buf (Elt F) (tabLoc d)) :
    (K (F := F)).Pay (nD := nD) (Val := Elt F) (Name := ℕ) (U := UU) where
  st := fun q d c => bigSep Finset.univ fun s : Fin ((K (F := F)).nSub q) => tileGo d (coordsQ q c s) (fi d) (ft d)
  dn := fun q d c => bigSep Finset.univ fun s : Fin ((K (F := F)).nSub q) => tileTd d (coordsQ q c s) (fi d) (ft d)
  go := fun q d c s => tileGo d (coordsQ q c s) (fi d) (ft d)
  td := fun q d c s => tileTd d (coordsQ q c s) (fi d) (ft d)
  x := fun _ _ => iprop(emp)

instance roundRes_storable (d : Dev nD) (L : grid0.Coords) (o1 : Fin 1 → Nat) (h1 : ∀ a, o1 a + S80.size a ≤ S10000.size a)
    (o2 : Fin 2 → Nat) (h2 : ∀ a, o2 a + S80x128.size a ≤ S10000x128.size a)
    (fi : Buf (Elt F) (idxLoc d)) (fo : Buf (Elt F) (outLoc d)) :
    BI.Storable (upEmb : UEmb _ 𝕄) (roundRes d L o1 h1 o2 h2 fi fo) := by
  unfold roundRes; infer_instance

instance tileRes_storable (d : Dev nD) (L : grid0.Coords) (fi : Buf (Elt F) (idxLoc d)) (ft : Buf (Elt F) (tabLoc d))
    (fo : Fin 4 → Buf (Elt F) (outLoc d)) : BI.Storable (upEmb : UEmb _ 𝕄) (tileRes d L fi ft fo) := by
  unfold tileRes
  split <;> infer_instance

instance tileGo_storable (d : Dev nD) (L : grid0.Coords) (fi : Buf (Elt F) (idxLoc d)) (ft : Buf (Elt F) (tabLoc d)) :
    BI.Storable (upEmb : UEmb _ 𝕄) (tileGo d L fi ft) := by
  unfold tileGo; infer_instance

instance tileTd_storable (d : Dev nD) (L : grid0.Coords) (fi : Buf (Elt F) (idxLoc d)) (ft : Buf (Elt F) (tabLoc d)) :
    BI.Storable (upEmb : UEmb _ 𝕄) (tileTd d L fi ft) := by
  unfold tileTd; infer_instance

instance P_storable (fi : (d : Dev nD) → Buf (Elt F) (idxLoc d)) (ft : (d : Dev nD) → Buf (Elt F) (tabLoc d)) :
    (P (F := F) fi ft).IsStorable where
  st _ d c := by unfold P; infer_instance
  dn _ d c := by unfold P; infer_instance
  go _ _ _ _ := by unfold P; infer_instance
  td _ _ _ _ := by unfold P; infer_instance

end Cert.KernelIdeal.Run

end
-- ==== Proof.KI.Tile.lean ====
/-
  One vector subcore's task: its (up to) four rounds, run from the pieces its task is handed, leave its
  output rows holding the gather and everything else as it was.
-/
import proofs.«206544_g7275674599721_cont_sun_c4_423_43_alg».proof.Proof.KI.Pay

noncomputable section

namespace Cert.KernelIdeal.Run

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The printed body is four guarded rounds -/

set_option maxRecDepth 65536 in
theorem body_eq (L : grid0.Coords) :
    cc0__sc_gather (F := F) L idxW (Memref.isWhole_whole _) tabW (Memref.isWhole_whole _) outW (Memref.isWhole_whole _)
        sIdx (Memref.isWhole_whole _) sRows (Memref.isWhole_whole _) cc0_scratch2
        cc0_scoped0 cc0_scoped1 cc0_scoped2 cc0_scoped3 cc0_scoped4 cc0_scoped5 cc0_scoped6 cc0_scoped7
      = (do
          if h : k0_cond1 L = 1#1 then
            round L (k0_off1 L) (k0_off1_inb L h) (k0_off2 L) (k0_off2_inb L h) cc0_scoped0 cc0_scoped1
          else
            pure ⟨⟩
          if h : k0_cond2 L = 1#1 then
            round L (k0_off3 L) (k0_off3_inb L h) (k0_off4 L) (k0_off4_inb L h) cc0_scoped2 cc0_scoped3
          else
            pure ⟨⟩
          if h : k0_cond3 L = 1#1 then
            round L (k0_off5 L) (k0_off5_inb L h) (k0_off6 L) (k0_off6_inb L h) cc0_scoped4 cc0_scoped5
          else
            pure ⟨⟩
          if h : k0_cond4 L = 1#1 then
            round L (k0_off7 L) (k0_off7_inb L h) (k0_off8 L) (k0_off8_inb L h) cc0_scoped6 cc0_scoped7
          else
            pure ⟨⟩
          pure ⟨⟩) := by
  rw [cc0__sc_gather_eq_skeleton]
  rfl

/-! ## A family over a finite set, along a list of its members -/

omit [FloatOps F] in
/-- A family over a finite set splits along any duplicate-free list of its members: those, one by one, and the rest. -/
theorem bigSep_along {I : Type} [DecidableEq I] (s : Finset I) (l : List I) (hl : l.Nodup) (hs : ∀ x ∈ l, x ∈ s) (Φ : I → sProp 𝕄) :
    bigSep s Φ = iprop(bigSepL l Φ ∗ bigSep (s \ l.toFinset) Φ) := by
  rw [SparseCore.bigSep_sdiff_split' (t := l.toFinset) (fun x hx => hs x (List.mem_toFinset.mp hx)), bigSep_eq_bigSepL l hl]

/-! ## The subcore's own storage: nine transfer semaphores and two scratch buffers, and the rest -/

/-- The transfer semaphores the body names: the gather's, then each round's two copies'. -/
def semList : List (DmaSem sig) :=
  [cc0_scratch2.sem, cc0_scoped0.sem, cc0_scoped1.sem, cc0_scoped2.sem, cc0_scoped3.sem, cc0_scoped4.sem, cc0_scoped5.sem,
    cc0_scoped6.sem, cc0_scoped7.sem]

theorem semList_nodup : semList.Nodup := by decide
theorem semList_scoped : ∀ x ∈ semList, (SemLoc.dma x : SemLoc sig).isScoped .scVector = true := by decide

/-- The cell of transfer semaphore `x` on a thread. -/
abbrev cellOn (thr : Thread nD τ) (x : DmaSem sig) : GSem nD τ sig := (thr, SemLoc.dma x)

omit [FloatOps F] in
theorem ownSems0_tile (d : Dev nD) (L : grid0.Coords) :
    (ownSems0 (tile d L) : sProp 𝕄)
      = iprop((semVal (tile d L, SemLoc.dma cc0_scratch2.sem) 0
            ∗ semVal (tile d L, SemLoc.dma cc0_scoped0.sem) 0 ∗ semVal (tile d L, SemLoc.dma cc0_scoped1.sem) 0
            ∗ semVal (tile d L, SemLoc.dma cc0_scoped2.sem) 0 ∗ semVal (tile d L, SemLoc.dma cc0_scoped3.sem) 0
            ∗ semVal (tile d L, SemLoc.dma cc0_scoped4.sem) 0 ∗ semVal (tile d L, SemLoc.dma cc0_scoped5.sem) 0
            ∗ semVal (tile d L, SemLoc.dma cc0_scoped6.sem) 0 ∗ semVal (tile d L, SemLoc.dma cc0_scoped7.sem) 0)
          ∗ bigSep (ownCells (tile d L) \ (semList.map (cellOn (tile d L))).toFinset) fun g => semVal g 0) := by
  unfold SparseCore.Cfg.ownSems0
  have hnd : (semList.map (cellOn (tile d L))).Nodup := semList_nodup.map (fun a b e => by cases e; rfl)
  have hmem : ∀ x ∈ semList.map (cellOn (tile d L)), x ∈ ownCells (tile d L) := fun x hx => by
    obtain ⟨y, hy, rfl⟩ := List.mem_map.mp hx
    exact mem_ownCells.mpr ⟨rfl, semList_scoped y hy⟩
  refine (bigSep_along (ownCells (tile d L)) (semList.map (cellOn (tile d L))) hnd hmem (fun g => semVal g 0)).trans ?_
  congr 1

/-- The two scratch buffers, as references of the subcore's processor. -/
abbrev bufList (L : grid0.Coords) : List (DevRef τ sig) :=
  [(Proc.scVector ((L 0).castLE hcore0) ((L 1).castLE hsub0)).devRef cc0_scratch0,
   (Proc.scVector ((L 0).castLE hcore0) ((L 1).castLE hsub0)).devRef cc0_scratch1]

omit [FloatOps F] in
theorem ownBufs_tile (d : Dev nD) (L : grid0.Coords) :
    (ownBufs (tile d L) : sProp 𝕄)
      = iprop(((∃ f, (tile d L).loc cc0_scratch0 ↦{fullShare} f) ∗ (∃ f, (tile d L).loc cc0_scratch1 ↦{fullShare} f))
          ∗ bigSep (ownRefs (τ := τ) (.scVector ((L 0).castLE hcore0) ((L 1).castLE hsub0)) \ (bufList L).toFinset)
              fun b => iprop(∃ f, ((d, b) : Loc nD τ sig) ↦{fullShare} f)) := by
  unfold SparseCore.Cfg.ownBufs
  have hnd : (bufList L).Nodup :=
    List.nodup_cons.mpr ⟨fun h => absurd (Proc.devRef_injective _ (List.mem_singleton.mp h))
      (show (cc0_scratch0 : Ref sig .scVector) ≠ cc0_scratch1 by decide), List.nodup_singleton _⟩
  have hmem : ∀ x ∈ bufList L, x ∈ ownRefs (τ := τ) (.scVector ((L 0).castLE hcore0) ((L 1).castLE hsub0)) := fun x hx => by
    rcases List.mem_cons.mp hx with rfl | hx
    · exact SparseCore.Cfg.mem_ownRefs_of_owner rfl
    · obtain rfl := List.mem_singleton.mp hx
      exact SparseCore.Cfg.mem_ownRefs_of_owner rfl
  refine (bigSep_along (ownRefs (τ := τ) (.scVector ((L 0).castLE hcore0) ((L 1).castLE hsub0))) (bufList L) hnd hmem
    (fun b => iprop(∃ f, ((d, b) : Loc nD τ sig) ↦{fullShare} f))).trans ?_
  congr 1

/-! ## The task -/

theorem tile_body (hF : (K (F := F)).Facts) (d : Dev nD) (L : grid0.Coords)
    (fi : Buf (Elt F) (idxLoc d)) (ft : Buf (Elt F) (tabLoc d)) (hin : ∀ n : S10000.Idx, (fi n).toNat < 100)
    (O : CellTallies nD τ sig (HIx 1)) (W : Waits sig (HIx 1)) (hO : ∀ g, O g none = 0) :
    (iprop(levAts (K (F := F)).L (K (F := F)).lev ∗ emp ∗ tileGo d L fi ft
        ∗ scopedBufs (tile d L) ∗ scopedSems0 (tile d L) ∗ owes (tile d L) O W) : sProp 𝕄)
      ⊢ wp frame (wpE (defs₀ (F := F)) 𝒱₀ (tile d L) none) Set.univ
          (cc0__sc_gather (F := F) L idxW (Memref.isWhole_whole _) tabW (Memref.isWhole_whole _) outW (Memref.isWhole_whole _)
            sIdx (Memref.isWhole_whole _) sRows (Memref.isWhole_whole _) cc0_scratch2
            cc0_scoped0 cc0_scoped1 cc0_scoped2 cc0_scoped3 cc0_scoped4 cc0_scoped5 cc0_scoped6 cc0_scoped7)
          fun _ => iprop(tileTd d L fi ft ∗ scopedBufs (tile d L) ∗ scopedSems0 (tile d L)
            ∗ ∃ W', ⌜∀ p ∈ W', p ∈ W ∨ p.2 = none⌝ ∗ owes (tile d L) O W') := by
  rw [body_eq]
  rw [(K (F := F)).scopedBufs_V hF d _ _, SparseCore.Cfg.scopedSems0_V (Val := Elt F) d _ _, ownSems0_tile, ownBufs_tile]
  unfold tileGo tileTd tileRes
  unfold roundRes
  iintro ⟨#Hlv, -, ⟨%fo, Htab, ⟨Hi0, Ho0⟩, ⟨Hi1, Ho1⟩, ⟨Hi2, Ho2⟩, Hr3⟩, ⟨⟨⟨%s0, Hs0⟩, ⟨%s1, Hs1⟩⟩, Hbrest⟩,
    ⟨⟨HC, HA0, HB0, HA1, HB1, HA2, HB2, HA3, HB3⟩, Hsrest⟩, HO⟩
  ihave Hmw := ((K (F := F)).mayWaits_none (thr := tile d L) hO) $$ Hlv
  simp only [dif_pos (cond1 L), dif_pos (cond2 L), dif_pos (cond3 L), wp_bind]
  -- round 0
  iapply (wp_wand_r frame _ Set.univ)
  isplitl [Hi0 Htab Ho0 Hs0 Hs1 HA0 HB0 HC HO]
  · iapply (round_wp d L (k0_off1 L) (k0_off1_inb L (cond1 L)) (k0_off2 L) (k0_off2_inb L (cond1 L))
        (by rw [k0_off2_eq, k0_off1_eq]; rfl) (by rw [k0_off2_eq]; rfl) cc0_scoped0 cc0_scoped1 O W (tabShare L) fi ft (fo 0) _ _ hin)
    isplitr; · iexact Hmw
    isplitl [Hi0]; · iexact Hi0
    isplitl [Htab]; · iexact Htab
    isplitl [Ho0]; · iexact Ho0
    isplitl [Hs0]; · iexact Hs0
    isplitl [Hs1]; · iexact Hs1
    isplitl [HA0]; · iexact HA0
    isplitl [HB0]; · iexact HB0
    isplitl [HC]; · iexact HC
    iexact HO
  iintro %_ ⟨Hi0, Htab, Ho0, ⟨%s0_0, Hs0⟩, ⟨%s1_0, Hs1⟩, HA0, HB0, HC, %W0, %hW0, HO⟩
  -- round 1
  iapply (wp_wand_r frame _ Set.univ)
  isplitl [Hi1 Htab Ho1 Hs0 Hs1 HA1 HB1 HC HO]
  · iapply (round_wp d L (k0_off3 L) (k0_off3_inb L (cond2 L)) (k0_off4 L) (k0_off4_inb L (cond2 L))
        (by rw [k0_off4_eq, k0_off3_eq]; rfl) (by rw [k0_off4_eq]; rfl) cc0_scoped2 cc0_scoped3 O W0 (tabShare L) fi ft (fo 1) _ _ hin)
    isplitr; · iexact Hmw
    isplitl [Hi1]; · iexact Hi1
    isplitl [Htab]; · iexact Htab
    isplitl [Ho1]; · iexact Ho1
    isplitl [Hs0]; · iexact Hs0
    isplitl [Hs1]; · iexact Hs1
    isplitl [HA1]; · iexact HA1
    isplitl [HB1]; · iexact HB1
    isplitl [HC]; · iexact HC
    iexact HO
  iintro %_ ⟨Hi1, Htab, Ho1, ⟨%s0_1, Hs0⟩, ⟨%s1_1, Hs1⟩, HA1, HB1, HC, %W1, %hW1, HO⟩
  -- round 2
  iapply (wp_wand_r frame _ Set.univ)
  isplitl [Hi2 Htab Ho2 Hs0 Hs1 HA2 HB2 HC HO]
  · iapply (round_wp d L (k0_off5 L) (k0_off5_inb L (cond3 L)) (k0_off6 L) (k0_off6_inb L (cond3 L))
        (by rw [k0_off6_eq, k0_off5_eq]; rfl) (by rw [k0_off6_eq]; rfl) cc0_scoped4 cc0_scoped5 O W1 (tabShare L) fi ft (fo 2) _ _ hin)
    isplitr; · iexact Hmw
    isplitl [Hi2]; · iexact Hi2
    isplitl [Htab]; · iexact Htab
    isplitl [Ho2]; · iexact Ho2
    isplitl [Hs0]; · iexact Hs0
    isplitl [Hs1]; · iexact Hs1
    isplitl [HA2]; · iexact HA2
    isplitl [HB2]; · iexact HB2
    isplitl [HC]; · iexact HC
    iexact HO
  iintro %_ ⟨Hi2, Htab, Ho2, ⟨%s0_2, Hs0⟩, ⟨%s1_2, Hs1⟩, HA2, HB2, HC, %W2, %hW2, HO⟩
  by_cases h4 : k0_cond4 L = 1#1
  · simp only [dif_pos h4, wp_bind]
    icases Hr3 with ⟨Hi3, Ho3⟩
    iapply (wp_wand_r frame _ Set.univ)
    isplitl [Hi3 Htab Ho3 Hs0 Hs1 HA3 HB3 HC HO]
    · iapply (round_wp d L (k0_off7 L) (k0_off7_inb L h4) (k0_off8 L) (k0_off8_inb L h4)
          (by rw [k0_off8_eq, k0_off7_eq]; rfl) (by rw [k0_off8_eq]; rfl) cc0_scoped6 cc0_scoped7 O W2 (tabShare L) fi ft (fo 3) _ _ hin)
      isplitr; · iexact Hmw
      isplitl [Hi3]; · iexact Hi3
      isplitl [Htab]; · iexact Htab
      isplitl [Ho3]; · iexact Ho3
      isplitl [Hs0]; · iexact Hs0
      isplitl [Hs1]; · iexact Hs1
      isplitl [HA3]; · iexact HA3
      isplitl [HB3]; · iexact HB3
      isplitl [HC]; · iexact HC
      iexact HO
    iintro %_ ⟨Hi3, Htab, Ho3, ⟨%s0_3, Hs0⟩, ⟨%s1_3, Hs1⟩, HA3, HB3, HC, %W3, %hW3, HO⟩
    rw [wp_pure]
    imodintro
    isplitl [Htab Hi0 Ho0 Hi1 Ho1 Hi2 Ho2 Hi3 Ho3]
    · isplitl [Htab]; · iexact Htab
      isplitl [Hi0 Ho0]; · isplitl [Hi0] <;> iassumption
      isplitl [Hi1 Ho1]; · isplitl [Hi1] <;> iassumption
      isplitl [Hi2 Ho2]; · isplitl [Hi2] <;> iassumption
      isplitl [Hi3] <;> iassumption
    isplitl [Hs0 Hs1 Hbrest]
    · isplitr [Hbrest]
      · isplitl [Hs0]
        · iexists _; iexact Hs0
        · iexists _; iexact Hs1
      · iexact Hbrest
    isplitl [HC HA0 HB0 HA1 HB1 HA2 HB2 HA3 HB3 Hsrest]
    · isplitr [Hsrest]
      · isplitl [HC]; · iexact HC
        isplitl [HA0]; · iexact HA0
        isplitl [HB0]; · iexact HB0
        isplitl [HA1]; · iexact HA1
        isplitl [HB1]; · iexact HB1
        isplitl [HA2]; · iexact HA2
        isplitl [HB2]; · iexact HB2
        isplitl [HA3]; · iexact HA3
        iexact HB3
      · iexact Hsrest
    iexists W3
    isplitr
    · ipureintro
      intro p hp
      rcases hW3 p hp with h | h
      · rcases hW2 p h with h | h
        · rcases hW1 p h with h | h
          · exact hW0 p h
          · exact Or.inr h
        · exact Or.inr h
      · exact Or.inr h
    · iexact HO
  · simp only [dif_neg h4]
    rw [wp_pure]
    imodintro
    isplitl [Htab Hi0 Ho0 Hi1 Ho1 Hi2 Ho2]
    · isplitl [Htab]; · iexact Htab
      isplitl [Hi0 Ho0]; · isplitl [Hi0] <;> iassumption
      isplitl [Hi1 Ho1]; · isplitl [Hi1] <;> iassumption
      isplitl [Hi2 Ho2]; · isplitl [Hi2] <;> iassumption
      iempintro
    isplitl [Hs0 Hs1 Hbrest]
    · isplitr [Hbrest]
      · isplitl [Hs0]
        · iexists _; iexact Hs0
        · iexists _; iexact Hs1
      · iexact Hbrest
    isplitl [HC HA0 HB0 HA1 HB1 HA2 HB2 HA3 HB3 Hsrest]
    · isplitr [Hsrest]
      · isplitl [HC]; · iexact HC
        isplitl [HA0]; · iexact HA0
        isplitl [HB0]; · iexact HB0
        isplitl [HA1]; · iexact HA1
        isplitl [HB1]; · iexact HB1
        isplitl [HA2]; · iexact HA2
        isplitl [HB2]; · iexact HB2
        isplitl [HA3]; · iexact HA3
        iexact HB3
      · iexact Hsrest
    iexists W2
    isplitr
    · ipureintro
      intro p hp
      rcases hW2 p hp with h | h
      · rcases hW1 p h with h | h
        · exact hW0 p h
        · exact Or.inr h
      · exact Or.inr h
    · iexact HO

end Cert.KernelIdeal.Run

end
-- ==== Proof.ProjBody.lean ====
/-
  The projection kernel's body, run once on whole staging buffers.

  The body reads a block x of 16000 rows of the radial basis, the whole 16 × 384 weight matrix w and the whole 1 × 384
  bias b, and fills three output buffers of 16000 × 128: output j (j = 0, 1, 2) receives, by ONE store of the whole
  buffer, x times the band of 128 columns of w that starts at column 128 j, plus that band of b on every row. Before
  each store it also reads the output buffer and drops what it read. So after the body each input buffer is as it
  was, and each output buffer holds a function of the three input buffers alone, whatever it held before: the
  payload of its one store, laid over the whole buffer.
-/
import proofs.«206544_g7275674599721_cont_sun_c4_423_43_alg».proof.Proof.Gen.KernelIdeal.Launch
import proofs.«206544_g7275674599721_cont_sun_c4_423_43_alg».proof.Proof.Gen.KernelIdeal.Skeleton
import proofs.«206544_g7275674599721_cont_sun_c4_423_43_alg».proof.Proof.Gen.KernelIdeal.Points
import Idealize.ShloMosaic.Lib.Pipeline.FrameBody
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body reads and writes through -/

/-- The whole block of the radial basis. -/
abbrev rX : Rect S16000x16 := Rect.unit (s := S16000x16) ![0, 0] S16000x16.size inb_S16000x16_S16000x16_0_0
/-- The three bands of 128 columns of the weights, -/
abbrev rW0 : Rect S16x384 := Rect.unit (s := S16x384) ![0, 0] S16x128.size inb_S16x384_S16x128_0_0
abbrev rW1 : Rect S16x384 := Rect.unit (s := S16x384) ![0, 128] S16x128.size inb_S16x384_S16x128_0_128
abbrev rW2 : Rect S16x384 := Rect.unit (s := S16x384) ![0, 256] S16x128.size inb_S16x384_S16x128_0_256
/-- and of the bias. -/
abbrev rB0 : Rect S1x384 := Rect.unit (s := S1x384) ![0, 0] S1x128.size inb_S1x384_S1x128_0_0
abbrev rB1 : Rect S1x384 := Rect.unit (s := S1x384) ![0, 128] S1x128.size inb_S1x384_S1x128_0_128
abbrev rB2 : Rect S1x384 := Rect.unit (s := S1x384) ![0, 256] S1x128.size inb_S1x384_S1x128_0_256
/-- A whole output buffer. -/
abbrev rO : Rect S16000x128 := Rect.unit (s := S16000x128) ![0, 0] S16000x128.size inb_S16000x128_S16000x128_0_0

/-! ## What the body leaves in each output buffer -/

/-- Output 0 after the body: x times the first band of w, plus the first band of b. -/
def out3 (x : Vec F S16000x16 .bf16) (w : Vec F S16x384 .bf16) (b : Vec F S1x384 .f32) : Vec F S16000x128 .f32 :=
  View.canon [⟨rO, k1_pay2 (View.ld x rX) (View.ld w rW0) (View.ld b rB0)⟩]
/-- Output 1: the second bands. -/
def out4 (x : Vec F S16000x16 .bf16) (w : Vec F S16x384 .bf16) (b : Vec F S1x384 .f32) : Vec F S16000x128 .f32 :=
  View.canon [⟨rO, k1_pay3 (View.ld x rX) (View.ld w rW1) (View.ld b rB1)⟩]
/-- Output 2: the third bands. -/
def out5 (x : Vec F S16000x16 .bf16) (w : Vec F S16x384 .bf16) (b : Vec F S1x384 .f32) : Vec F S16000x128 .f32 :=
  View.canon [⟨rO, k1_pay4 (View.ld x rX) (View.ld w rW2) (View.ld b rB2)⟩]

/-- The one store of an output covers its buffer. -/
theorem coverO (p0 : Vec F S16000x128 .f32) (y : S16000x128.Idx) :
    ∃ pc ∈ ([⟨rO, p0⟩] : List (View.Piece (Elt F) S16000x128 .f32)), y ∈ pc.1.set :=
  View.cover_of_tiled [⟨rO, p0⟩] S16000x128.size (by rfl) y

/-! ## The body's triple -/

set_option maxHeartbeats 1000000 in
/-- The body on whole staging buffers: the inputs' at contents x, w, b and the outputs' at anything. It runs to the
    continuation with the inputs' as they were and output j's at `out(3+j) x w b`. -/
theorem sound_kernel (𝒱₀ : Variants) (c : Dev nD) (E : Set Name) (i : grid1.Coords)
    (arg1 : Memref sig .tc .vmem S16000x16 .bf16) (harg1 : arg1.IsWhole)
    (arg2 : Memref sig .tc .vmem S16x384 .bf16) (harg2 : arg2.IsWhole)
    (arg3 : Memref sig .tc .vmem S1x384 .f32) (harg3 : arg3.IsWhole)
    (arg4 : Memref sig .tc .vmem S16000x128 .f32) (harg4 : arg4.IsWhole)
    (arg5 : Memref sig .tc .vmem S16000x128 .f32) (harg5 : arg5.IsWhole)
    (arg6 : Memref sig .tc .vmem S16000x128 .f32) (harg6 : arg6.IsWhole)
    (x : Vec F S16000x16 .bf16) (w : Vec F S16x384 .bf16) (b : Vec F S1x384 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (out3 x w b) ∗ owns (c : Thread nD τ) arg5 fullShare (out4 x w b)
            ∗ owns (c : Thread nD τ) arg6 fullShare (out5 x w b)) -∗ K ⟨⟩))
      ⊢ wp frame (wpE (defs₀ (F := F)) 𝒱₀ c none) E (cc1__proj_kernel i arg1 harg1 arg2 harg2 arg3 harg3 arg4 harg4 arg5 harg5 arg6 harg6) K := by
  simp only [cc1__proj_kernel_eq_skeleton]; unfold cc1__proj_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  isplitl [H5]
  · iexists _; isplitr
    swap; · iexact H5
    ipureintro
    exact View.read_writes_eq_canon _ _ _ (coverO _)
  iexists _; isplitr
  swap; · iexact H6
  ipureintro
  exact View.read_writes_eq_canon _ _ _ (coverO _)

/-! ## The windows' blocks, and the proof data -/

section Data

variable (c : Dev nD) (V : (b : Ref sig .tc) → Buf (Elt F) ((c : Thread nD τ).loc b))

/-- Window w's block at grid point t, read off its array as the region finds it. For the radial basis this is the
    t-th run of 16000 rows; the weights and the bias are one block each, the same at every point. -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-- The proof data of the projection pipeline on core c. The arrays are as the region finds them (V). After the body
    at point t every input buffer still holds its block, and output j's buffer holds `out(3+j)` of the three input
    blocks. Between points the body keeps nothing of its own: the invariant is the scoped buffers that stage no
    window (there are none). The core owes nothing; the pairs its waits have recorded before the region lie in B. -/
def dats (B : Set (SemLoc sig × Ix)) : Dat τ (Elt F) Ix Name U Lvl cfg1 c where
  A w := V (Pipeline.arrRef spec1 w)
  after w t := match w with
    | ⟨0, _⟩ => iblk c V 0 t
    | ⟨1, _⟩ => iblk c V 1 t
    | ⟨2, _⟩ => iblk c V 2 t
    | ⟨3, _⟩ => out3 (iblk c V 0 t) (iblk c V 1 t) (iblk c V 2 t)
    | ⟨4, _⟩ => out4 (iblk c V 0 t) (iblk c V 1 t) (iblk c V 2 t)
    | ⟨5, _⟩ => out5 (iblk c V 0 t) (iblk c V 1 t) (iblk c V 2 t)
  Φ _ := Pipeline.scopedRest (Ix := Ix) (Name := Name) (U := U) (Lvl := Lvl) (Val := Elt F) spec1 c
  q _ := fullShare
  owed _ := 0
  recorded _ := B

variable (B : Set (SemLoc sig × Ix))

local notation "𝔡" => dats (Name := Name) (U := U) (Lvl := Lvl) c V B

/-- The proof data's arrays are the region-entry contents. -/
theorem A_eq (w : Fin cfg1.W) : (dats (Name := Name) (U := U) (Lvl := Lvl) c V B).A w = V (Pipeline.arrRef spec1 w) := by
  dsimp only [dats]

/-- What the body leaves, window by window. -/
theorem after0 (t : Fin cfg1.N) : (dats (Name := Name) (U := U) (Lvl := Lvl) c V B).after 0 t = iblk c V 0 t := by dsimp only [dats]
theorem after1 (t : Fin cfg1.N) : (dats (Name := Name) (U := U) (Lvl := Lvl) c V B).after 1 t = iblk c V 1 t := by dsimp only [dats]
theorem after2 (t : Fin cfg1.N) : (dats (Name := Name) (U := U) (Lvl := Lvl) c V B).after 2 t = iblk c V 2 t := by dsimp only [dats]
theorem after3 (t : Fin cfg1.N) : (dats (Name := Name) (U := U) (Lvl := Lvl) c V B).after 3 t = out3 (iblk c V 0 t) (iblk c V 1 t) (iblk c V 2 t) := by dsimp only [dats]
theorem after4 (t : Fin cfg1.N) : (dats (Name := Name) (U := U) (Lvl := Lvl) c V B).after 4 t = out4 (iblk c V 0 t) (iblk c V 1 t) (iblk c V 2 t) := by dsimp only [dats]
theorem after5 (t : Fin cfg1.N) : (dats (Name := Name) (U := U) (Lvl := Lvl) c V B).after 5 t = out5 (iblk c V 0 t) (iblk c V 1 t) (iblk c V 2 t) := by dsimp only [dats]

/-- An input's current staging buffer holds its block when the body runs, fetched at this point or not: the body
    leaves the block in place, and a window not fetched at a point has not moved since the point before. -/
theorem before0 (t : Fin cfg1.N) (d) : (dats (Name := Name) (U := U) (Lvl := Lvl) c V B).before 0 t d = iblk c V 0 t :=
  ((dats c V B).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (t : Fin cfg1.N) (d) : (dats (Name := Name) (U := U) (Lvl := Lvl) c V B).before 1 t d = iblk c V 1 t :=
  ((dats c V B).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (t : Fin cfg1.N) (d) : (dats (Name := Name) (U := U) (Lvl := Lvl) c V B).before 2 t d = iblk c V 2 t :=
  ((dats c V B).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-! ## The body obligation -/

variable (𝒱₀ : Variants) (ι : Ix)

/-- What the body is called with at point t, the windows one by one, -/
def bodyPre (t : Fin cfg1.N) : sProp 𝕄 :=
  iprop((𝔡).Φ t.castSucc ∗ (𝔡).owesAt ι t.castSucc
    ∗ (∃ d, owns (c : Thread nD τ) (st1_0 t) fullShare ((𝔡).before 0 t d))
    ∗ (∃ d, owns (c : Thread nD τ) (st1_1 t) fullShare ((𝔡).before 1 t d))
    ∗ (∃ d, owns (c : Thread nD τ) (st1_2 t) fullShare ((𝔡).before 2 t d))
    ∗ (∃ d, owns (c : Thread nD τ) (st1_3 t) fullShare ((𝔡).before 3 t d))
    ∗ (∃ d, owns (c : Thread nD τ) (st1_4 t) fullShare ((𝔡).before 4 t d))
    ∗ (∃ d, owns (c : Thread nD τ) (st1_5 t) fullShare ((𝔡).before 5 t d)))

/-- and what it returns. -/
def bodyPost (t : Fin cfg1.N) : sProp 𝕄 :=
  iprop((𝔡).Φ t.succ ∗ (𝔡).owesAt ι t.succ
    ∗ owns (c : Thread nD τ) (st1_0 t) fullShare ((𝔡).after 0 t)
    ∗ owns (c : Thread nD τ) (st1_1 t) fullShare ((𝔡).after 1 t)
    ∗ owns (c : Thread nD τ) (st1_2 t) fullShare ((𝔡).after 2 t)
    ∗ owns (c : Thread nD τ) (st1_3 t) fullShare ((𝔡).after 3 t)
    ∗ owns (c : Thread nD τ) (st1_4 t) fullShare ((𝔡).after 4 t)
    ∗ owns (c : Thread nD τ) (st1_5 t) fullShare ((𝔡).after 5 t))

/-- The body at any point: the inputs' buffers hold their blocks, so the body's triple applies; the invariant and
    what the core owes pass through unread. -/
theorem sound_body (t : Fin cfg1.N) :
    bodyPre (Name := Name) (U := U) (Lvl := Lvl) c V B ι t
      ⊢ wp frame (wpE (defs₀ (F := F)) 𝒱₀ c none) Set.univ (bodyAt1 t) (fun _ => bodyPost (Name := Name) (U := U) (Lvl := Lvl) c V B ι t) := by
  unfold bodyPre bodyPost bodyAt1
  simp only [before0, before1, before2]
  rw [show (dats (Name := Name) (U := U) (Lvl := Lvl) c V B).Φ t.succ = (dats c V B).Φ t.castSucc from rfl,
    show (dats (Name := Name) (U := U) (Lvl := Lvl) c V B).owesAt ι t.succ = (dats c V B).owesAt ι t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel 𝒱₀ c Set.univ (grid1.coords t) _ _ _ _ _ _ _ _ _ _ _ _ (iblk c V 0 t) (iblk c V 1 t) (iblk c V 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation : BodyObligation (dats (Name := Name) (U := U) (Lvl := Lvl) c V B) (defs₀ (F := F)) 𝒱₀ ι Set.univ := fun t => by
  rw [bigSep_W1, bigSep_W1]
  exact sound_body (Name := Name) (U := U) (Lvl := Lvl) c V B 𝒱₀ ι t

end Data

end Cert.KernelIdeal.Region

end
-- ==== Proof.ProjRegion.lean ====
/-
  The projection pipeline as one region of the program.

  The region is entered with the TensorCore's unscoped buffers at contents V and the core owing nothing. Its six
  windows' arrays (the radial basis, the weights, the bias, and the three projections) go to the pipeline; the nine
  other unscoped buffers pass by untouched. The kernel has no semaphore of its own and keeps nothing between grid
  points, so nothing enters or leaves the pipeline's invariant. At the exit the six arrays are back at what the
  twenty write-backs left in them, and the core still owes nothing; the pairs its waits have recorded are those it
  came with and the pipeline's own staging semaphores.
-/
import proofs.«206544_g7275674599721_cont_sun_c4_423_43_alg».proof.Proof.ProjBody
import Idealize.ShloMosaic.Lib.Pipeline.Regions

noncomputable section

namespace Cert.KernelIdeal.Region

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (a : (p : Fin 1) → (pcfgs (F := F) p).Adm)
  (V : (c : Dev nD) → (b : Ref sig .tc) → Buf (Elt F) ((c : Thread nD τ).loc b))
  (B : Set (SemLoc sig × Ix)) (ι : Ix) (𝒱₀ : Variants)
  (L : GSem nD τ sig → Finset Ix) (lv : GSem nD τ sig → Ix → Lvl)

/-- The one pipeline's proof data on every core. -/
abbrev pdats : (p : Fin 1) → (c : Dev nD) → Dat τ (Elt F) Ix Name U Lvl (Pipeline.pin (pcfgs (F := F)) a p) c :=
  fun _ c => dats c (V c) B

/-- The thread state the region is entered from: every unscoped buffer of the TensorCore at V, the core owing
    nothing, its recorded pairs within B. -/
abbrev regionPre (c : Dev nD) : sProp 𝕄 :=
  iprop(unscopedBufs c (V c) ∗ Pipeline.owesWithin c 0 B)

/-- The thread state it leaves: the six windows' arrays at what the write-backs left, the other unscoped buffers at
    V, the core owing nothing, its recorded pairs within B and the pipeline's staging semaphores. -/
abbrev regionPost (c : Dev nD) : sProp 𝕄 :=
  iprop((dats (Name := Name) (U := U) (Lvl := Lvl) c (V c) B).arrays ((dats (Name := Name) (U := U) (Lvl := Lvl) c (V c) B).arrAt · cfg1.N)
    ∗ Pipeline.unscopedRest (Ix := Ix) (Name := Name) (U := U) (Lvl := Lvl) spec1 c (V c)
    ∗ Pipeline.owesWithin c 0 (B ∪ cfg1.waitPairs ι))

/-- The core's scoped buffers that stage no window: what the body keeps between points (nothing: there are none). -/
abbrev SR (c : Dev nD) : sProp 𝕄 :=
  Pipeline.scopedRest (Ix := Ix) (Name := Name) (U := U) (Lvl := Lvl) (Val := Elt F) spec1 c

set_option backward.isDefEq.respectTransparency.types false in
/-- The region's record. -/
def seg : Pipeline.RegionSeg (pcfgs (F := F)) a (pdats (Name := Name) (U := U) (Lvl := Lvl) a V B) ι defs₀ 𝒱₀ L lv 0 where
  win := launch1.win.to₀
  block_pos := launch1.block_pos
  stage_whole := launch1.stage_whole
  K := PEmpty
  osem := fun k => k.elim
  ho := Pipeline.OwnSemFacts.none _
  hbody c := (body_obligation c (V c) B 𝒱₀ ι).loose
  hwaits := Pipeline.hwaits_of_owed_zero _ _ _ _ L lv 0 fun _ _ => rfl
  pre := regionPre (Name := Name) (U := U) (Lvl := Lvl) V B
  post := regionPost (Name := Name) (U := U) (Lvl := Lvl) V B ι
  X _ := BI.emp
  Y _ := BI.emp
  Z c := Pipeline.unscopedRest spec1 c (V c)
  hentry c := by
    have hsplit := Pipeline.arrays_of_unscopedBufs (p := (0 : Fin 1)) (pcfgs (F := F)) a (pdats (Name := Name) (U := U) (Lvl := Lvl) a V B) launch1.win launch1.arr_whole c
      ((dats c (V c) B).share_full fun _ => rfl) (V c) fun w => A_eq c (V c) B w
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := by
    show iprop((BI.emp : sProp 𝕄) ∗ Pipeline.prefHeld (pcfgs (F := F) 0).pre c (fun _ => fullShare) (a 0).1 ∗ SR c) ⊢ SR c
    iintro ⟨-, -, Hr⟩
    iexact Hr
  hout c := by
    show SR c ⊢ iprop((BI.emp : sProp 𝕄) ∗ Pipeline.ownSems0 (fun k : PEmpty => k.elim) c ∗ SR c)
    rw [Pipeline.ownSems0_none]
    iintro Hr
    isplitr; · iempintro
    isplitr; · iempintro
    iexact Hr
  hexit c := by
    iintro ⟨Ha, HO, -, HZ⟩
    imodintro
    isplitl [Ha]; · iexact Ha
    isplitl [HZ]; · iexact HZ
    iexact HO

end Cert.KernelIdeal.Region

end
-- ==== Proof.ProjPayload.lean ====
/-
  One entry of a projection block. The body computes, for one block of 16000 rows of the radial basis x, one band of
  128 columns of the weights w and the matching band of the bias b, the matrix x * w with b added to every row. Read at
  the entry (p, q) this is the sum over the 16 radial functions k of x(p, k) * w(k, q), plus b(0, q): on the extended
  reals the product accumulates into zero and no rounding or order of summation is left. The three stores of the body
  carry the same function of their three operands, so one lemma serves all three.
-/
import proofs.«206544_g7275674599721_cont_sun_c4_423_43_alg».proof.Proof.Gen.KernelIdeal.Skeleton
import Idealize.ShloMosaic.PureOps.Ideal.Laws
import Idealize.ShloMosaic.Lib.ValueIdx
import Idealize.ShloMosaic.Lib.ValueLayout

noncomputable section

namespace Cert.KernelIdeal.Region

open Idealize.ShloMosaic Idealize.ShloMosaic.ValueIdx
open Cert.KernelIdeal

/-- The dimension numbers of the body's three products: rows of the left operand against columns of the right, one
    contracted axis of extent 16. -/
abbrev projDot : DotDims S16000x16 S16x128 S16000x128 := dot_S16000x16_S16x128_S16000x128_1_0_0_1_n_n

/-- The left operand's index at the entry (p, q) and contraction position k is (p, k). -/
theorem projDot_lhsIdx (p : Fin 16000) (q : Fin 128) (k : Fin 16) :
    projDot.lhsIdx (ix2 p q) ((contrEquiv1 projDot 16 rfl rfl).symm k) = ix2 p k := by
  have ck := contrEquiv1_symm_val projDot 16 rfl rfl k
  funext ax; apply Fin.ext
  match ax with
  | ⟨0, _⟩ => simp [DotDims.lhsIdx, projDot, dot_S16000x16_S16x128_S16000x128_1_0_0_1_n_n]; rfl
  | ⟨1, _⟩ => exact (projDot.lhsIdx_val_of_single (cl := 1) rfl (ix2 p q) _).trans ck

/-- The right operand's index there is (k, q). -/
theorem projDot_rhsIdx (p : Fin 16000) (q : Fin 128) (k : Fin 16) :
    projDot.rhsIdx (ix2 p q) ((contrEquiv1 projDot 16 rfl rfl).symm k) = ix2 k q := by
  have ck := contrEquiv1_symm_val projDot 16 rfl rfl k
  funext ax; apply Fin.ext
  match ax with
  | ⟨0, _⟩ => exact (projDot.rhsIdx_val_of_single (cr := 0) rfl (ix2 p q) _).trans ck
  | ⟨1, _⟩ => simp [DotDims.rhsIdx, projDot, dot_S16000x16_S16x128_S16000x128_1_0_0_1_n_n]; rfl

/-- The product into a zero accumulator, at the entry (p, q): the sum over k of x(p, k) * w(k, q). -/
theorem projMatmul_apply (x : FVec Ideal S16000x16 .bf16) (w : FVec Ideal S16x128 .bf16) (p : Fin 16000) (q : Fin 128) :
    matmul (F := Ideal) projDot none x w (constant (F := Ideal) S16000x128 .f32 0x00000000#32) (ix2 p q)
      = ∑ k : Fin 16, x (ix2 p k) * w (ix2 k q) := by
  show FloatOps.matmul projDot none x w _ (ix2 p q) = _
  rw [Ideal.matmul_constant_zero_apply, ← Equiv.sum_comp (contrEquiv1 projDot 16 rfl rfl).symm]
  refine Finset.sum_congr rfl fun k _ => ?_
  rw [projDot_lhsIdx, projDot_rhsIdx]

/-- The first store's value at the entry (p, q). -/
theorem pay2_apply (v0 : Vec Ideal S16000x16 .bf16) (w : Vec Ideal S16x128 .bf16) (b : Vec Ideal S1x128 .f32)
    (p : Fin 16000) (q : Fin 128) :
    Gen.k1_pay2 (F := Ideal) v0 w b (ix2 p q)
      = (∑ k : Fin 16, v0 (ix2 p k) * w (ix2 k q)) + b (ix2 (0 : Fin 1) q) := by
  unfold Gen.k1_pay2 Gen.k1_pay1
  rw [addf_apply, shapeCast_self, shapeCast_self, shapeCast_self]
  refine congrArg₂ (· + ·) (projMatmul_apply v0 w p q) ?_
  exact broadcastTo_1b_ab_apply _ _ p q

/-- The second store's value: the same function of its operands. -/
theorem pay3_apply (v0 : Vec Ideal S16000x16 .bf16) (w : Vec Ideal S16x128 .bf16) (b : Vec Ideal S1x128 .f32)
    (p : Fin 16000) (q : Fin 128) :
    Gen.k1_pay3 (F := Ideal) v0 w b (ix2 p q)
      = (∑ k : Fin 16, v0 (ix2 p k) * w (ix2 k q)) + b (ix2 (0 : Fin 1) q) :=
  pay2_apply v0 w b p q

/-- The third store's value: the same function of its operands. -/
theorem pay4_apply (v0 : Vec Ideal S16000x16 .bf16) (w : Vec Ideal S16x128 .bf16) (b : Vec Ideal S1x128 .f32)
    (p : Fin 16000) (q : Fin 128) :
    Gen.k1_pay4 (F := Ideal) v0 w b (ix2 p q)
      = (∑ k : Fin 16, v0 (ix2 p k) * w (ix2 k q)) + b (ix2 (0 : Fin 1) q) :=
  pay2_apply v0 w b p q

end Cert.KernelIdeal.Region

end
-- ==== Proof.Spec.lean ====
/-
  What both programs compute, as functions of the five argument arrays, index by index, on the extended reals.

  * The embedding lookup: row n of the first result is row (a n - 1) of the table, where a n is atom n's number.
    Under the precondition a n lies between 1 and 99, so that row is one of the table's 100 rows.
  * The three projections: entry (e, c) of a projection is  sum over k < 16 of rb(e, k) * W(k, off + c), plus
    b(off + c): the band of 128 columns of the product rb * W + b that starts at column off = 0, 128 or 256.
-/
import Idealize.ShloMosaic.PureOps.Ideal
import Idealize.ShloMosaic.Lib.ValueIdx

noncomputable section

namespace Cert.Spec

open Idealize.ShloMosaic Idealize.ShloMosaic.ValueIdx

/-- The table row an atomic number names: the number less one, reduced into the table's 100 rows. The reduction
    changes nothing for a number between 1 and 100. -/
def rowOf (w : BitVec 32) : Fin 100 := ⟨(w - 1#32).toNat % 100, Nat.mod_lt _ (by decide)⟩

/-- For a number between 1 and 99 the word (number - 1), read unsigned, is the row itself, and is below 100. -/
theorem toNat_pred_of_range {w : BitVec 32} (h1 : 1 ≤ w.toInt) (h2 : w.toInt ≤ 99) :
    (w - 1#32).toNat = (rowOf w).val ∧ (w - 1#32).toNat < 100 := by
  have hw : w.toNat < 2 ^ 32 := w.isLt
  have hlt : w.toNat < 100 ∧ 1 ≤ w.toNat := by
    rw [BitVec.toInt_eq_toNat_cond] at h1 h2
    split at h1 <;> omega
  have hsub : (w - 1#32).toNat = w.toNat - 1 := by
    rw [BitVec.toNat_sub]
    simp only [BitVec.toNat_ofNat]
    omega
  refine ⟨?_, by omega⟩
  show _ = (w - 1#32).toNat % 100
  rw [Nat.mod_eq_of_lt (by omega)]

/-- For a number between 1 and 99 the word (number - 1), read signed and clamped into the table's rows, is the
    row itself. -/
theorem clamp_pred_of_range {w : BitVec 32} (h1 : 1 ≤ w.toInt) (h2 : w.toInt ≤ 99) :
    min (w - 1#32).toInt.toNat 99 = (rowOf w).val := by
  obtain ⟨he, hlt⟩ := toNat_pred_of_range h1 h2
  have : (w - 1#32).toInt = ((w - 1#32).toNat : Int) := by
    rw [BitVec.toInt_eq_toNat_cond]
    split
    · rfl
    · omega
  rw [this, Int.toNat_natCast, ← he]
  omega

/-- A column of one band among the 384 columns of W and b. -/
def col (off : Nat) (hoff : off + 128 ≤ 384) (c : Fin 128) : Fin 384 := ⟨off + c.val, by omega⟩

/-- The embedding lookup: entry (n, l) is the table at (row of atom n's number, l). -/
def H (tab : (⟨2, ![100, 128]⟩ : Shape).Idx → EReal) (an : (⟨1, ![10000]⟩ : Shape).Idx → BitVec 32) :
    (⟨2, ![10000, 128]⟩ : Shape).Idx → EReal :=
  fun j => tab (ix2 (rowOf (an (ix1 (j 0 : Fin 10000)))) (j 1 : Fin 128))

/-- One projection: entry (e, c) is the sum over k of rb(e, k) * W(k, off + c), plus b(off + c). -/
def P (off : Nat) (hoff : off + 128 ≤ 384) (rb : (⟨2, ![320000, 16]⟩ : Shape).Idx → EReal)
    (W : (⟨2, ![16, 384]⟩ : Shape).Idx → EReal) (b : (⟨1, ![384]⟩ : Shape).Idx → EReal) :
    (⟨2, ![320000, 128]⟩ : Shape).Idx → EReal :=
  fun j => (∑ k : Fin 16, rb (ix2 (j 0 : Fin 320000) k) * W (ix2 k (col off hoff (j 1 : Fin 128))))
    + b (ix1 (col off hoff (j 1 : Fin 128)))

end Cert.Spec

end
-- ==== Proof.ProjValue.lean ====
/-
  The three projections as whole arrays.

  Grid point t of the pipeline sees rows 16000 t … 16000 t + 15999 of the radial basis and the whole weights and bias,
  and writes back the same run of rows of each projection. So row r of a projection is written at point r / 16000,
  once, and the twenty write-backs fill the whole array: entry (r, q) of projection j is the sum over the 16 radial
  functions k of rb(r, k) * W(k, 128 j + q), plus b(128 j + q). The three input arrays are never written.
-/
import proofs.«206544_g7275674599721_cont_sun_c4_423_43_alg».proof.Proof.ProjBody
import proofs.«206544_g7275674599721_cont_sun_c4_423_43_alg».proof.Proof.ProjPayload
import proofs.«206544_g7275674599721_cont_sun_c4_423_43_alg».proof.Proof.Spec
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {Ix : Type} [DecidableEq Ix] {Name : Type} [DecidableEq Name] {U : Type} [URA U] {Lvl : Type} [Preorder Lvl]

variable (c : Dev nD) (V : (b : Ref sig .tc) → Buf (Elt Ideal) ((c : Thread nD τ).loc b)) (B : Set (SemLoc sig × Ix))

theorem hz : (![0, 0] : Fin 2 → Nat) = fun _ => 0 := funext fun a => by fin_cases a <;> rfl

/-- The printed index maps, decided once over the grid: at point t the radial basis' block and every projection's
    block is block t along the rows; the weights and the bias are one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Block t of the radial basis is its rows 16000 t … 16000 t + 15999. -/
theorem iblk0_apply (t : Fin cfg1.N) (x : S16000x16.Idx) (k : S320000x16.Idx)
    (hk0 : (k 0).val = 16000 * t.val + (x 0).val) (hk1 : (k 1).val = (x 1).val) :
    (iblk c V 0 t : Vec Ideal S16000x16 .bf16) x = (V main_v3 : S320000x16.Idx → Elt Ideal .bf16) k := by
  obtain ⟨e00, e01, -⟩ := idx_facts t
  unfold iblk
  rw [View.read_apply]
  show V main_v3 _ = V main_v3 _
  congr 1
  funext a; apply Fin.ext
  match a with
  | ⟨0, _⟩ => show win1_0.index t 0 * 16000 + 1 * (x 0).val = (k 0).val; rw [e00, hk0]; omega
  | ⟨1, _⟩ => show win1_0.index t 1 * 16 + 1 * (x 1).val = (k 1).val; rw [e01, hk1]; omega

/-- The weights' one block is the whole array. -/
theorem iblk1_apply (t : Fin cfg1.N) (x : S16x384.Idx) (k : S16x384.Idx)
    (hk0 : (k 0).val = (x 0).val) (hk1 : (k 1).val = (x 1).val) :
    (iblk c V 1 t : Vec Ideal S16x384 .bf16) x = (V main_v4 : S16x384.Idx → Elt Ideal .bf16) k := by
  obtain ⟨-, -, e10, e11, -⟩ := idx_facts t
  unfold iblk
  rw [View.read_apply]
  show V main_v4 _ = V main_v4 _
  congr 1
  funext a; apply Fin.ext
  match a with
  | ⟨0, _⟩ => show win1_1.index t 0 * 16 + 1 * (x 0).val = (k 0).val; rw [e10, hk0]; omega
  | ⟨1, _⟩ => show win1_1.index t 1 * 384 + 1 * (x 1).val = (k 1).val; rw [e11, hk1]; omega

/-- The bias' one block is the whole array. -/
theorem iblk2_apply (t : Fin cfg1.N) (x : S1x384.Idx) (k : S1x384.Idx)
    (hk0 : (k 0).val = (x 0).val) (hk1 : (k 1).val = (x 1).val) :
    (iblk c V 2 t : Vec Ideal S1x384 .f32) x = (V main_v5 : S1x384.Idx → Elt Ideal .f32) k := by
  obtain ⟨-, -, -, -, e20, e21, -⟩ := idx_facts t
  unfold iblk
  rw [View.read_apply]
  show V main_v5 _ = V main_v5 _
  congr 1
  funext a; apply Fin.ext
  match a with
  | ⟨0, _⟩ => show win1_2.index t 0 * 1 + 1 * (x 0).val = (k 0).val; rw [e20, hk0]; omega
  | ⟨1, _⟩ => show win1_2.index t 1 * 384 + 1 * (x 1).val = (k 1).val; rw [e21, hk1]; omega

/-- What projection number off / 128 holds at the end: the band of 128 columns at `off` of rb * W + b. -/
abbrev projG (off : Nat) (hoff : off + 128 ≤ 384) : S320000x128.Idx → Elt Ideal .f32 :=
  Cert.Spec.P off hoff (V main_v3) (V main_v4) (fun i => V main_v5 (ix2 (0 : Fin 1) (i 0 : Fin 384)))

/-- One entry: row p of a block x that is rows 16000 t … of the radial basis, against a band of the weights and of the
    bias, is the entry of the band's projection at row r = 16000 t + p. -/
theorem entry_eq (off : Nat) (hoff : off + 128 ≤ 384) (p : Fin 16000) (r : Fin 320000)
    (x : Vec Ideal S16000x16 .bf16) (w : Vec Ideal S16x128 .bf16) (b : Vec Ideal S1x128 .f32)
    (hx : ∀ k : Fin 16, x (ix2 p k) = (V main_v3 : S320000x16.Idx → Elt Ideal .bf16) (ix2 r k))
    (hw : ∀ (k : Fin 16) (q : Fin 128), w (ix2 k q) = (V main_v4 : S16x384.Idx → Elt Ideal .bf16) (ix2 k (Cert.Spec.col off hoff q)))
    (hb : ∀ q : Fin 128, b (ix2 (0 : Fin 1) q) = (V main_v5 : S1x384.Idx → Elt Ideal .f32) (ix2 (0 : Fin 1) (Cert.Spec.col off hoff q)))
    (q : Fin 128) :
    (∑ k : Fin 16, x (ix2 p k) * w (ix2 k q)) + b (ix2 (0 : Fin 1) q) = projG c V off hoff (ix2 r q) := by
  simp only [hx, hw, hb]
  rfl

/-- What point t writes back of projection 0: block t of the band's projection. -/
theorem flushed3_eq (t : Fin cfg1.N) :
    (dats (Name := Name) (U := U) (Lvl := Lvl) c V B).flushed 3 t
      = ((cfg1.win 3).blk t).view.read (Elt Ideal) (projG c V 0 (by decide)) := by
  show (cfg1.win 3).cut (grid1.coords t) ((dats (Name := Name) (U := U) (Lvl := Lvl) c V B).after 3 t) = _
  rw [after3]
  unfold out3
  rw [View.canon_unit_zero hz]
  obtain ⟨-, -, -, -, -, -, e30, e31, e40, e41, e50, e51⟩ := idx_facts t
  have hN : cfg1.N = 20 := N_1
  funext j
  obtain ⟨p, q, rfl⟩ : ∃ (p : Fin 16000) (q : Fin 128), j = ix2 p q := ⟨j 0, j 1, eq_ix2 j⟩
  have hr : 16000 * t.val + p.val < 320000 := by have := t.isLt; have := p.isLt; omega
  have hemb : ((cfg1.win 3).blk t).view.emb (ix2 p q) = ix2 (⟨16000 * t.val + p.val, hr⟩ : Fin 320000) q := by
    funext a; apply Fin.ext
    match a with
    | ⟨0, _⟩ => show win1_3.index t 0 * 16000 + 1 * p.val = 16000 * t.val + p.val; rw [e30]; omega
    | ⟨1, _⟩ => show win1_3.index t 1 * 128 + 1 * q.val = q.val; rw [e31]; omega
  show k1_pay2 (F := Ideal) (View.ld (iblk c V 0 t) rX) (View.ld (iblk c V 1 t) rW0) (View.ld (iblk c V 2 t) rB0) (ix2 p q)
     = projG c V 0 (by decide) (((cfg1.win 3).blk t).view.emb (ix2 p q))
  rw [hemb]
  refine (pay2_apply _ _ _ p q).trans ?_
  refine entry_eq c V 0 (by decide) p ⟨16000 * t.val + p.val, hr⟩ _ _ _ (fun k => ?_) (fun k q => ?_) (fun q => ?_) q
  · exact iblk0_apply c V t _ _ (by show 16000 * t.val + p.val = 16000 * t.val + (0 + 1 * p.val); omega) (by show k.val = 0 + 1 * k.val; omega)
  · exact iblk1_apply c V t _ _ (by show k.val = 0 + 1 * k.val; omega) (by show 0 + q.val = 0 + 1 * q.val; omega)
  · exact iblk2_apply c V t _ _ (by show (0 : Nat) = 0 + 1 * 0; omega) (by show 0 + q.val = 0 + 1 * q.val; omega)

/-- An index of projection 0 is in point t's block iff its row is in rows 16000 t … 16000 t + 15999. -/
theorem mem_blk3 (t : Fin cfg1.N) (i : S320000x128.Idx) :
    i ∈ ((cfg1.win 3).blk t).view.set ↔ ∀ a : Fin 2, win1_3.index t a * S16000x128.size a ≤ (i a).val ∧ (i a).val < win1_3.index t a * S16000x128.size a + S16000x128.size a := by
  show i ∈ ((View.whole main_v6_0).slice (win1_3.rect t)).set ↔ _
  rw [View.set_slice_whole, Rect.mem_set_unit]
  exact Iff.rfl

/-- Projection 0 after the run: every row is written, by the point that covers it. -/
theorem final3 : (dats (Name := Name) (U := U) (Lvl := Lvl) c V B).arrAt 3 cfg1.N = projG c V 0 (by decide) :=
  (dats (Name := Name) (U := U) (Lvl := Lvl) c V B).arrAt_eq_of_cover 3 (projG c V 0 (by decide)) (fun t _ => flushed3_eq c V B t) fun i => by
    have hN : cfg1.N = 20 := N_1
    have h0 : (i 0).val < 320000 := (i 0).isLt
    have h1 : (i 1).val < 128 := (i 1).isLt
    obtain ⟨-, -, -, -, -, -, e30, e31, e40, e41, e50, e51⟩ := idx_facts ⟨(i 0).val / 16000, by omega⟩
    refine ⟨⟨(i 0).val / 16000, by omega⟩, flush1_3 _, ?_⟩
    rw [mem_blk3]
    intro a
    match a with
    | ⟨0, _⟩ =>
      show win1_3.index ⟨(i 0).val / 16000, _⟩ 0 * 16000 ≤ (i 0).val ∧ (i 0).val < win1_3.index ⟨(i 0).val / 16000, _⟩ 0 * 16000 + 16000
      rw [e30]; show (i 0).val / 16000 * 16000 ≤ (i 0).val ∧ (i 0).val < (i 0).val / 16000 * 16000 + 16000; omega
    | ⟨1, _⟩ =>
      show win1_3.index ⟨(i 0).val / 16000, _⟩ 1 * 128 ≤ (i 1).val ∧ (i 1).val < win1_3.index ⟨(i 0).val / 16000, _⟩ 1 * 128 + 128
      rw [e31]; omega

/-- What point t writes back of projection 1: block t of the band's projection. -/
theorem flushed4_eq (t : Fin cfg1.N) :
    (dats (Name := Name) (U := U) (Lvl := Lvl) c V B).flushed 4 t
      = ((cfg1.win 4).blk t).view.read (Elt Ideal) (projG c V 128 (by decide)) := by
  show (cfg1.win 4).cut (grid1.coords t) ((dats (Name := Name) (U := U) (Lvl := Lvl) c V B).after 4 t) = _
  rw [after4]
  unfold out4
  rw [View.canon_unit_zero hz]
  obtain ⟨-, -, -, -, -, -, e30, e31, e40, e41, e50, e51⟩ := idx_facts t
  have hN : cfg1.N = 20 := N_1
  funext j
  obtain ⟨p, q, rfl⟩ : ∃ (p : Fin 16000) (q : Fin 128), j = ix2 p q := ⟨j 0, j 1, eq_ix2 j⟩
  have hr : 16000 * t.val + p.val < 320000 := by have := t.isLt; have := p.isLt; omega
  have hemb : ((cfg1.win 4).blk t).view.emb (ix2 p q) = ix2 (⟨16000 * t.val + p.val, hr⟩ : Fin 320000) q := by
    funext a; apply Fin.ext
    match a with
    | ⟨0, _⟩ => show win1_4.index t 0 * 16000 + 1 * p.val = 16000 * t.val + p.val; rw [e40]; omega
    | ⟨1, _⟩ => show win1_4.index t 1 * 128 + 1 * q.val = q.val; rw [e41]; omega
  show k1_pay3 (F := Ideal) (View.ld (iblk c V 0 t) rX) (View.ld (iblk c V 1 t) rW1) (View.ld (iblk c V 2 t) rB1) (ix2 p q)
     = projG c V 128 (by decide) (((cfg1.win 4).blk t).view.emb (ix2 p q))
  rw [hemb]
  refine (pay3_apply _ _ _ p q).trans ?_
  refine entry_eq c V 128 (by decide) p ⟨16000 * t.val + p.val, hr⟩ _ _ _ (fun k => ?_) (fun k q => ?_) (fun q => ?_) q
  · exact iblk0_apply c V t _ _ (by show 16000 * t.val + p.val = 16000 * t.val + (0 + 1 * p.val); omega) (by show k.val = 0 + 1 * k.val; omega)
  · exact iblk1_apply c V t _ _ (by show k.val = 0 + 1 * k.val; omega) (by show 128 + q.val = 128 + 1 * q.val; omega)
  · exact iblk2_apply c V t _ _ (by show (0 : Nat) = 0 + 1 * 0; omega) (by show 128 + q.val = 128 + 1 * q.val; omega)

/-- An index of projection 1 is in point t's block iff its row is in rows 16000 t … 16000 t + 15999. -/
theorem mem_blk4 (t : Fin cfg1.N) (i : S320000x128.Idx) :
    i ∈ ((cfg1.win 4).blk t).view.set ↔ ∀ a : Fin 2, win1_4.index t a * S16000x128.size a ≤ (i a).val ∧ (i a).val < win1_4.index t a * S16000x128.size a + S16000x128.size a := by
  show i ∈ ((View.whole main_v6_1).slice (win1_4.rect t)).set ↔ _
  rw [View.set_slice_whole, Rect.mem_set_unit]
  exact Iff.rfl

/-- Projection 1 after the run: every row is written, by the point that covers it. -/
theorem final4 : (dats (Name := Name) (U := U) (Lvl := Lvl) c V B).arrAt 4 cfg1.N = projG c V 128 (by decide) :=
  (dats (Name := Name) (U := U) (Lvl := Lvl) c V B).arrAt_eq_of_cover 4 (projG c V 128 (by decide)) (fun t _ => flushed4_eq c V B t) fun i => by
    have hN : cfg1.N = 20 := N_1
    have h0 : (i 0).val < 320000 := (i 0).isLt
    have h1 : (i 1).val < 128 := (i 1).isLt
    obtain ⟨-, -, -, -, -, -, e30, e31, e40, e41, e50, e51⟩ := idx_facts ⟨(i 0).val / 16000, by omega⟩
    refine ⟨⟨(i 0).val / 16000, by omega⟩, flush1_4 _, ?_⟩
    rw [mem_blk4]
    intro a
    match a with
    | ⟨0, _⟩ =>
      show win1_4.index ⟨(i 0).val / 16000, _⟩ 0 * 16000 ≤ (i 0).val ∧ (i 0).val < win1_4.index ⟨(i 0).val / 16000, _⟩ 0 * 16000 + 16000
      rw [e40]; show (i 0).val / 16000 * 16000 ≤ (i 0).val ∧ (i 0).val < (i 0).val / 16000 * 16000 + 16000; omega
    | ⟨1, _⟩ =>
      show win1_4.index ⟨(i 0).val / 16000, _⟩ 1 * 128 ≤ (i 1).val ∧ (i 1).val < win1_4.index ⟨(i 0).val / 16000, _⟩ 1 * 128 + 128
      rw [e41]; omega

/-- What point t writes back of projection 2: block t of the band's projection. -/
theorem flushed5_eq (t : Fin cfg1.N) :
    (dats (Name := Name) (U := U) (Lvl := Lvl) c V B).flushed 5 t
      = ((cfg1.win 5).blk t).view.read (Elt Ideal) (projG c V 256 (by decide)) := by
  show (cfg1.win 5).cut (grid1.coords t) ((dats (Name := Name) (U := U) (Lvl := Lvl) c V B).after 5 t) = _
  rw [after5]
  unfold out5
  rw [View.canon_unit_zero hz]
  obtain ⟨-, -, -, -, -, -, e30, e31, e40, e41, e50, e51⟩ := idx_facts t
  have hN : cfg1.N = 20 := N_1
  funext j
  obtain ⟨p, q, rfl⟩ : ∃ (p : Fin 16000) (q : Fin 128), j = ix2 p q := ⟨j 0, j 1, eq_ix2 j⟩
  have hr : 16000 * t.val + p.val < 320000 := by have := t.isLt; have := p.isLt; omega
  have hemb : ((cfg1.win 5).blk t).view.emb (ix2 p q) = ix2 (⟨16000 * t.val + p.val, hr⟩ : Fin 320000) q := by
    funext a; apply Fin.ext
    match a with
    | ⟨0, _⟩ => show win1_5.index t 0 * 16000 + 1 * p.val = 16000 * t.val + p.val; rw [e50]; omega
    | ⟨1, _⟩ => show win1_5.index t 1 * 128 + 1 * q.val = q.val; rw [e51]; omega
  show k1_pay4 (F := Ideal) (View.ld (iblk c V 0 t) rX) (View.ld (iblk c V 1 t) rW2) (View.ld (iblk c V 2 t) rB2) (ix2 p q)
     = projG c V 256 (by decide) (((cfg1.win 5).blk t).view.emb (ix2 p q))
  rw [hemb]
  refine (pay4_apply _ _ _ p q).trans ?_
  refine entry_eq c V 256 (by decide) p ⟨16000 * t.val + p.val, hr⟩ _ _ _ (fun k => ?_) (fun k q => ?_) (fun q => ?_) q
  · exact iblk0_apply c V t _ _ (by show 16000 * t.val + p.val = 16000 * t.val + (0 + 1 * p.val); omega) (by show k.val = 0 + 1 * k.val; omega)
  · exact iblk1_apply c V t _ _ (by show k.val = 0 + 1 * k.val; omega) (by show 256 + q.val = 256 + 1 * q.val; omega)
  · exact iblk2_apply c V t _ _ (by show (0 : Nat) = 0 + 1 * 0; omega) (by show 256 + q.val = 256 + 1 * q.val; omega)

/-- An index of projection 2 is in point t's block iff its row is in rows 16000 t … 16000 t + 15999. -/
theorem mem_blk5 (t : Fin cfg1.N) (i : S320000x128.Idx) :
    i ∈ ((cfg1.win 5).blk t).view.set ↔ ∀ a : Fin 2, win1_5.index t a * S16000x128.size a ≤ (i a).val ∧ (i a).val < win1_5.index t a * S16000x128.size a + S16000x128.size a := by
  show i ∈ ((View.whole main_v6_2).slice (win1_5.rect t)).set ↔ _
  rw [View.set_slice_whole, Rect.mem_set_unit]
  exact Iff.rfl

/-- Projection 2 after the run: every row is written, by the point that covers it. -/
theorem final5 : (dats (Name := Name) (U := U) (Lvl := Lvl) c V B).arrAt 5 cfg1.N = projG c V 256 (by decide) :=
  (dats (Name := Name) (U := U) (Lvl := Lvl) c V B).arrAt_eq_of_cover 5 (projG c V 256 (by decide)) (fun t _ => flushed5_eq c V B t) fun i => by
    have hN : cfg1.N = 20 := N_1
    have h0 : (i 0).val < 320000 := (i 0).isLt
    have h1 : (i 1).val < 128 := (i 1).isLt
    obtain ⟨-, -, -, -, -, -, e30, e31, e40, e41, e50, e51⟩ := idx_facts ⟨(i 0).val / 16000, by omega⟩
    refine ⟨⟨(i 0).val / 16000, by omega⟩, flush1_5 _, ?_⟩
    rw [mem_blk5]
    intro a
    match a with
    | ⟨0, _⟩ =>
      show win1_5.index ⟨(i 0).val / 16000, _⟩ 0 * 16000 ≤ (i 0).val ∧ (i 0).val < win1_5.index ⟨(i 0).val / 16000, _⟩ 0 * 16000 + 16000
      rw [e50]; show (i 0).val / 16000 * 16000 ≤ (i 0).val ∧ (i 0).val < (i 0).val / 16000 * 16000 + 16000; omega
    | ⟨1, _⟩ =>
      show win1_5.index ⟨(i 0).val / 16000, _⟩ 1 * 128 ≤ (i 1).val ∧ (i 1).val < win1_5.index ⟨(i 0).val / 16000, _⟩ 1 * 128 + 128
      rw [e51]; omega

/-! ## The six arrays after the run -/

/-- The three input arrays are never written: they end as the region found them. -/
theorem arrAt0_eq : (dats (Name := Name) (U := U) (Lvl := Lvl) c V B).arrAt 0 cfg1.N = V (Pipeline.arrRef spec1 0) :=
  ((dats (Name := Name) (U := U) (Lvl := Lvl) c V B).arrAt_in 0 rfl _).trans (A_eq c V B 0)
theorem arrAt1_eq : (dats (Name := Name) (U := U) (Lvl := Lvl) c V B).arrAt 1 cfg1.N = V (Pipeline.arrRef spec1 1) :=
  ((dats (Name := Name) (U := U) (Lvl := Lvl) c V B).arrAt_in 1 rfl _).trans (A_eq c V B 1)
theorem arrAt2_eq : (dats (Name := Name) (U := U) (Lvl := Lvl) c V B).arrAt 2 cfg1.N = V (Pipeline.arrRef spec1 2) :=
  ((dats (Name := Name) (U := U) (Lvl := Lvl) c V B).arrAt_in 2 rfl _).trans (A_eq c V B 2)

/-- The three projections end as the three bands of rb * W + b. -/
theorem arrAt3_eq : (dats (Name := Name) (U := U) (Lvl := Lvl) c V B).arrAt 3 cfg1.N
    = Cert.Spec.P 0 (by decide) (V main_v3) (V main_v4) (fun i => V main_v5 (ix2 (0 : Fin 1) (i 0 : Fin 384))) := final3 c V B
theorem arrAt4_eq : (dats (Name := Name) (U := U) (Lvl := Lvl) c V B).arrAt 4 cfg1.N
    = Cert.Spec.P 128 (by decide) (V main_v3) (V main_v4) (fun i => V main_v5 (ix2 (0 : Fin 1) (i 0 : Fin 384))) := final4 c V B
theorem arrAt5_eq : (dats (Name := Name) (U := U) (Lvl := Lvl) c V B).arrAt 5 cfg1.N
    = Cert.Spec.P 256 (by decide) (V main_v3) (V main_v4) (fun i => V main_v5 (ix2 (0 : Fin 1) (i 0 : Fin 384))) := final5 c V B

/-- The same with the grid's twenty points written as the number. -/
theorem arrAt3_eq20 : (dats (Name := Name) (U := U) (Lvl := Lvl) c V B).arrAt 3 20
    = Cert.Spec.P 0 (by decide) (V main_v3) (V main_v4) (fun i => V main_v5 (ix2 (0 : Fin 1) (i 0 : Fin 384))) := by
  have h := arrAt3_eq (Name := Name) (U := U) (Lvl := Lvl) c V B
  rwa [show cfg1.N = 20 from N_1] at h
theorem arrAt4_eq20 : (dats (Name := Name) (U := U) (Lvl := Lvl) c V B).arrAt 4 20
    = Cert.Spec.P 128 (by decide) (V main_v3) (V main_v4) (fun i => V main_v5 (ix2 (0 : Fin 1) (i 0 : Fin 384))) := by
  have h := arrAt4_eq (Name := Name) (U := U) (Lvl := Lvl) c V B
  rwa [show cfg1.N = 20 from N_1] at h
theorem arrAt5_eq20 : (dats (Name := Name) (U := U) (Lvl := Lvl) c V B).arrAt 5 20
    = Cert.Spec.P 256 (by decide) (V main_v3) (V main_v4) (fun i => V main_v5 (ix2 (0 : Fin 1) (i 0 : Fin 384))) := by
  have h := arrAt5_eq (Name := Name) (U := U) (Lvl := Lvl) c V B
  rwa [show cfg1.N = 20 from N_1] at h

end Cert.KernelIdeal.Region

end
-- ==== Proof.KI.RegionStep.lean ====
/-
  The projection region as one step of the TensorCore's program.

  In the program the region is one call. From the region boundary, the thread state the region is entered from, the
  level facts and the ghost state of the pipeline's staging cells, the call runs to the region boundary and the
  thread state the region leaves, for whatever follows it.
-/
import proofs.«206544_g7275674599721_cont_sun_c4_423_43_alg».proof.Proof.KI.Setup
import proofs.«206544_g7275674599721_cont_sun_c4_423_43_alg».proof.Proof.ProjRegion
import proofs.«206544_g7275674599721_cont_sun_c4_423_43_alg».proof.Proof.ProjValue

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The pipeline has no prefetched table: its one admissible table contents. -/
abbrev adm : (p : Fin 1) → (pcfgs (F := F) p).Adm := fun p => (cfgs p).toPCfg_adm

/-- The pairs of the TensorCore's own semaphores and handshake indices that sit at level 8 or below. -/
def Btc (d : Dev nD) : Set (SemLoc sig × HIx 1) := {p | (K (F := F)).lev (T d, p.1) p.2 ≤ 8}

set_option backward.isDefEq.respectTransparency.types false in
/-- The region's record is entered from `regionPre` and leaves `regionPost`. -/
theorem seg_pre (V : (c : Dev nD) → (b : Ref sig .tc) → Buf (Elt F) ((c : Thread nD τ).loc b)) (B : Set (SemLoc sig × HIx 1))
    (L : GSem nD τ sig → Finset (HIx 1)) (lv : GSem nD τ sig → HIx 1 → ℕ) :
    (Region.seg (Name := ℕ) (U := UU) (Lvl := ℕ) (adm (F := F)) V B none 𝒱₀ L lv).pre = Region.regionPre V B := rfl
set_option backward.isDefEq.respectTransparency.types false in
theorem seg_post (V : (c : Dev nD) → (b : Ref sig .tc) → Buf (Elt F) ((c : Thread nD τ).loc b)) (B : Set (SemLoc sig × HIx 1))
    (L : GSem nD τ sig → Finset (HIx 1)) (lv : GSem nD τ sig → HIx 1 → ℕ) :
    (Region.seg (Name := ℕ) (U := UU) (Lvl := ℕ) (adm (F := F)) V B none 𝒱₀ L lv).post = Region.regionPost V B none := rfl

set_option backward.isDefEq.respectTransparency.types false in
/-- The region's call in the program: from the boundary, the entry state, the level facts and the staging cells'
    ghost state, to the boundary and the exit state for the continuation. -/
theorem region_step [∀ e, Nonempty (Elt F e)] (d : Dev nD)
    (V : (c : Dev nD) → (b : Ref sig .tc) → Buf (Elt F) ((c : Thread nD τ).loc b)) (Φ : PUnit → sProp 𝕄) :
    iprop(boundary (T d) ∗ Region.regionPre (Name := ℕ) (U := UU) (Lvl := ℕ) V (Btc (F := F) d) d ∗ levAts (K (F := F)).L (K (F := F)).lev
        ∗ Pipeline.cellsGhost (Pipeline.pin (pcfgs (F := F)) adm) EP 0 d ∗ Pipeline.toksInit (Pipeline.pin (pcfgs (F := F)) adm) EP 0 d
        ∗ (iprop(boundary (T d) ∗ Region.regionPost (Name := ℕ) (U := UU) (Lvl := ℕ) V (Btc (F := F) d) none d) -∗ Φ ⟨⟩))
      ⊢ wp frame (wpE ((K (F := F)).defs (D (F := F))) 𝒱 (T d) none) Set.univ
          (Prog.lift (.customCall (SparseCore.inner (Pipeline.entry 0)) ()) : Prog (TpuEff nD τ sig (Elt F) (SparseCore.Sig (ΛP (F := F)) 1) .tc) PUnit) Φ := by
  have h := Pipeline.RegionSeg.wp (pcfgs (F := F)) adm (Region.pdats (Name := ℕ) (U := UU) (Lvl := ℕ) adm V (Btc (F := F) d)) none cellOf_inj EP defs₀ 𝒱₀
    (K (F := F)).L (K (F := F)).lev (Region.seg adm V (Btc (F := F) d) none 𝒱₀ (K (F := F)).L (K (F := F)).lev) d none (fun u hu => nomatch hu)
    (fun _ => .ret ⟨⟩) Φ
  rw [seg_pre, seg_post] at h
  have h2 := (K (F := F)).wp_liftProg (D (F := F)) 𝒱 (T d) Set.univ none (.op (.customCall (Pipeline.entry 0) ()) fun _ => .ret ⟨⟩) Φ
  refine .trans ?_ (h.trans h2)
  iintro ⟨Hb, Hpre, Hlev, Hcg, Htk, Hk⟩
  isplitl [Hk]
  · iintro Hpost
    rw [wp_ret]
    imodintro
    iapply Hk
    iexact Hpost
  isplitl [Hb]; · iexact Hb
  isplitl [Hpre]; · iexact Hpre
  isplitl [Hlev]; · iexact Hlev
  isplitl [Hcg]; · iexact Hcg
  iexact Htk

/-- The pipeline's own waits record pairs at the index it was given. -/
theorem waitPairs_none : ∀ p ∈ cfg1.waitPairs (none : HIx 1), p.2 = none :=
  fun p ⟨w, s, h⟩ => h ▸ rfl

section Open

variable (d : Dev nD) (V : (c : Dev nD) → (b : Ref sig .tc) → Buf (Elt F) ((c : Thread nD τ).loc b)) (B : Set (SemLoc sig × HIx 1))

local notation "𝔡" => Region.dats (Ix := HIx 1) (Name := ℕ) (U := UU) (Lvl := ℕ) d (V d) B

/-- An input window's array is never written: it ends as the region found it. -/
theorem arrAt_in0 : (𝔡).arrAt 0 cfg1.N = V d main_v3 := ((𝔡).arrAt_in 0 rfl _).trans (Region.A_eq d (V d) B 0)
theorem arrAt_in1 : (𝔡).arrAt 1 cfg1.N = V d main_v4 := ((𝔡).arrAt_in 1 rfl _).trans (Region.A_eq d (V d) B 1)
theorem arrAt_in2 : (𝔡).arrAt 2 cfg1.N = V d main_v5 := ((𝔡).arrAt_in 2 rfl _).trans (Region.A_eq d (V d) B 2)

/-- The six windows' arrays after the region, one by one. -/
theorem arrays_open :
    (𝔡).arrays ((𝔡).arrAt · cfg1.N)
      = (iprop(((SparseCore.T d).loc main_v3 ↦{fullShare} V d main_v3) ∗ ((SparseCore.T d).loc main_v4 ↦{fullShare} V d main_v4) ∗ ((SparseCore.T d).loc main_v5 ↦{fullShare} V d main_v5)
        ∗ ((SparseCore.T d).loc main_v6_0 ↦{fullShare} (𝔡).arrAt 3 cfg1.N) ∗ ((SparseCore.T d).loc main_v6_1 ↦{fullShare} (𝔡).arrAt 4 cfg1.N)
        ∗ ((SparseCore.T d).loc main_v6_2 ↦{fullShare} (𝔡).arrAt 5 cfg1.N)) : sProp 𝕄) := by
  rw [Pipeline.arrays_eq (cfgs) (fun _ c => Region.dats (Ix := HIx 1) (Name := ℕ) (U := UU) (Lvl := ℕ) c (V c) B) (0 : Fin 1) d launch1.arr_whole
    ((𝔡).share_full fun _ => rfl), bigSep_W1]
  rw [arrAt_in0, arrAt_in1, arrAt_in2]

/-- The thread state the region leaves, buffer by buffer: the three inputs as found, the three projections at what
    the write-backs left, the nine buffers the region does not touch as found, and the core owing nothing. -/
theorem regionPost_open :
    Region.regionPost (Name := ℕ) (U := UU) (Lvl := ℕ) V B none d
      ⊢ (iprop(((SparseCore.T d).loc main_v3 ↦{fullShare} V d main_v3) ∗ ((SparseCore.T d).loc main_v4 ↦{fullShare} V d main_v4) ∗ ((SparseCore.T d).loc main_v5 ↦{fullShare} V d main_v5)
        ∗ ((SparseCore.T d).loc main_v6_0 ↦{fullShare} (𝔡).arrAt 3 cfg1.N) ∗ ((SparseCore.T d).loc main_v6_1 ↦{fullShare} (𝔡).arrAt 4 cfg1.N)
        ∗ ((SparseCore.T d).loc main_v6_2 ↦{fullShare} (𝔡).arrAt 5 cfg1.N)
        ∗ ((SparseCore.T d).loc main_arg0 ↦{fullShare} V d main_arg0) ∗ ((SparseCore.T d).loc main_arg1 ↦{fullShare} V d main_arg1) ∗ ((SparseCore.T d).loc main_arg2 ↦{fullShare} V d main_arg2)
        ∗ ((SparseCore.T d).loc main_arg3 ↦{fullShare} V d main_arg3) ∗ ((SparseCore.T d).loc main_arg4 ↦{fullShare} V d main_arg4) ∗ ((SparseCore.T d).loc main_c ↦{fullShare} V d main_c)
        ∗ ((SparseCore.T d).loc main_v0 ↦{fullShare} V d main_v0) ∗ ((SparseCore.T d).loc main_v1 ↦{fullShare} V d main_v1) ∗ ((SparseCore.T d).loc main_v2 ↦{fullShare} V d main_v2)
        ∗ Pipeline.owesWithin d 0 (B ∪ cfg1.waitPairs none)) : sProp 𝕄) := by
  show iprop((𝔡).arrays ((𝔡).arrAt · cfg1.N) ∗ Pipeline.unscopedRest spec1 d (V d) ∗ Pipeline.owesWithin d 0 (B ∪ cfg1.waitPairs none)) ⊢ _
  rw [arrays_open, unscopedRest1_eq]
  iintro ⟨⟨H0, H1, H2, H3, H4, H5⟩, ⟨R0, R1, R2, R3, R4, R5, R6, R7, R8⟩, HO⟩
  isplitl [H0]; · iexact H0
  isplitl [H1]; · iexact H1
  isplitl [H2]; · iexact H2
  isplitl [H3]; · iexact H3
  isplitl [H4]; · iexact H4
  isplitl [H5]; · iexact H5
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact HO

end Open

end Cert.KernelIdeal.Run

end
-- ==== Proof.KI.Obl.lean ====
/-
  The launch theorem's obligations for the lookup: a subcore's task (its body run from its pieces), how a
  SparseCore's operands are its sixteen tasks', and the launch element of the ghost state — the handshakes'
  rounds, the pipeline's staging cells' rounds funded for the TensorCore's later region, nothing of the
  lookup's own (it only makes local copies and waits for them).
-/
import proofs.«206544_g7275674599721_cont_sun_c4_423_43_alg».proof.Proof.KI.Tile
import proofs.«206544_g7275674599721_cont_sun_c4_423_43_alg».proof.Proof.KI.RegionStep
import proofs.«206544_g7275674599721_cont_sun_c4_423_43_alg».proof.Proof.Gen.KernelIdeal.Launch

noncomputable section

namespace Cert.KernelIdeal.Run

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A subcore's task -/

theorem defs₀_vector (c : Fin τ.nSC) (s : Fin τ.nSub) :
    defs₀ (F := F) (.scVector c s) 0 ()
      = SparseCore.onTile hcore0 hsub0 (fun c s => cc0__sc_gather (coordsV c s)
          idxW (Memref.isWhole_whole _) tabW (Memref.isWhole_whole _) outW (Memref.isWhole_whole _)
          sIdx (Memref.isWhole_whole _) sRows (Memref.isWhole_whole _) cc0_scratch2
          cc0_scoped0 cc0_scoped1 cc0_scoped2 cc0_scoped3 cc0_scoped4 cc0_scoped5 cc0_scoped6 cc0_scoped7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (fi : (d : Dev nD) → Buf (Elt F) (idxLoc d)) (ft : (d : Dev nD) → Buf (Elt F) (tabLoc d))
    (hin : ∀ (d : Dev nD) (n : S10000.Idx), (fi d n).toNat < 100) :
    (K (F := F)).TileObl (D (F := F)) 𝒱 (P fi ft) v₀ 0 := by
  intro d c i O W hO _ _
  simp only [show (P fi ft).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body hF d (coordsV ⟨_, hc.1⟩ ⟨_, hc.2⟩) (fi d) (ft d) (hin d) O W hO).trans (wp_mono frame _ _ fun _ => obl_post)

/-- A SparseCore's operands are its tasks' side by side, and its results theirs. -/
theorem vecSplit (fi : (d : Dev nD) → Buf (Elt F) (idxLoc d)) (ft : (d : Dev nD) → Buf (Elt F) (tabLoc d)) :
    (K (F := F)).VecSplit' (P fi ft) 0 := by
  intro d c
  show (bigSep Finset.univ fun s : Fin ((K (F := F)).nSub 0) => tileGo d (coordsQ 0 c s) (fi d) (ft d))
    ⊢ |={Set.univ}=> iprop((bigSep Finset.univ fun s : Fin ((K (F := F)).nSub 0) => tileGo d (coordsQ 0 c s) (fi d) (ft d))
      ∗ ((bigSep Finset.univ fun s : Fin ((K (F := F)).nSub 0) => tileTd d (coordsQ 0 c s) (fi d) (ft d))
        -∗ bigSep Finset.univ fun s : Fin ((K (F := F)).nSub 0) => tileTd d (coordsQ 0 c s) (fi d) (ft d)))
  iintro H
  imodintro
  isplitl [H]; · iexact H
  iintro H; iexact H

/-! ## The launch element -/

def u₀ : UU :=
  (initOf (K (F := F)).hsCells (K (F := F)).hsToks,
    (initOf (Pipeline.cells (Pipeline.pin (pcfgs (F := F)) adm) (nD := nD) (τ := τ) cellOf_inj)
        (Pipeline.launchToks (Pipeline.pin (pcfgs (F := F)) adm) (nD := nD) (τ := τ) cellOf_inj), 1))

/-- What @main's proof starts from on device `d`: the pipeline's staging cells' ghost state and duty tokens. -/
def Gd (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

/-- The per-device start of @main's proof, regrouped from the two families the funding gives. -/
theorem Gd_family :
    (bigSep Finset.univ fun d : Dev nD => Gd (F := F) d)
      = iprop((bigSep Finset.univ fun c : Dev nD => bigSep Finset.univ fun p : Fin 1 =>
            Pipeline.cellsGhost (Pipeline.pin (pcfgs (F := F)) adm) EP p c)
          ∗ (bigSep Finset.univ fun c : Dev nD => bigSep Finset.univ fun p : Fin 1 =>
            (Pipeline.toksInit (Pipeline.pin (pcfgs (F := F)) adm) EP p c : sProp 𝕄))) := by
  unfold Gd
  rw [bigSep_sep']
  congr 1
  · exact bigSep_congr fun c _ => (BI.bigSep_univ_of_subsingleton (0 : Fin 1)
      (Φ := fun p : Fin 1 => (Pipeline.cellsGhost (Pipeline.pin (pcfgs (F := F)) adm) EP p c : sProp 𝕄))).symm
  · exact bigSep_congr fun c _ => (BI.bigSep_univ_of_subsingleton (0 : Fin 1)
      (Φ := fun p : Fin 1 => (Pipeline.toksInit (Pipeline.pin (pcfgs (F := F)) adm) EP p c : sProp 𝕄))).symm

theorem hu₀ (fi : (d : Dev nD) → Buf (Elt F) (idxLoc d)) (ft : (d : Dev nD) → Buf (Elt F) (tabLoc d)) :
    (ownU (u₀ (F := F)) : sProp 𝕄)
      ⊢ |={Set.univ}=> iprop(BI.own (EH (initOf (K (F := F)).hsCells (K (F := F)).hsToks))
          ∗ (bigSep Finset.univ fun d : Dev nD => Gd (F := F) d)
          ∗ bigSep Finset.univ fun thr : Thread nD τ => bigSep Finset.univ fun q : Fin 1 => (P fi ft).x q thr) := by
  unfold u₀
  iintro Hu
  ihave H := (ownU_triple _ _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · rw [Gd_family]
    isplitl [Hg] <;> iassumption
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.KernelIdeal.Run

end
-- ==== Proof.KI.HostVals.lean ====
/-
  The TensorCore's program around its two calls: fifteen arrays and six host operations.

  Before the lookup the program makes the index array: the constant 1, spread over 10000 entries, taken from the atomic
  numbers. After the lookup it rounds the radial basis and the weights to bf16 and gives the bias a leading unit axis;
  then the projection region runs. Here are the arrays' contents at the three moments that matter (when the lookup
  is called, when it has returned, when the region is entered), each as a function of the launch contents, and the
  fifteen arrays held together spelt one by one.
-/
import proofs.«206544_g7275674599721_cont_sun_c4_423_43_alg».proof.Proof.KI.Round
import proofs.«206544_g7275674599721_cont_sun_c4_423_43_alg».proof.Proof.Spec
import Idealize.ShloMosaic.Lib.StableHlo.Run

noncomputable section

namespace Cert.KernelIdeal.Run

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

/-! ## The TensorCore's fifteen arrays -/

abbrev rArg0 : DevRef τ sig := Proc.devRef .tc (main_arg0 : Ref sig .tc)
abbrev rArg1 : DevRef τ sig := Proc.devRef .tc (main_arg1 : Ref sig .tc)
abbrev rArg2 : DevRef τ sig := Proc.devRef .tc (main_arg2 : Ref sig .tc)
abbrev rArg3 : DevRef τ sig := Proc.devRef .tc (main_arg3 : Ref sig .tc)
abbrev rArg4 : DevRef τ sig := Proc.devRef .tc (main_arg4 : Ref sig .tc)
abbrev rC : DevRef τ sig := Proc.devRef .tc (main_c : Ref sig .tc)
abbrev rV0 : DevRef τ sig := Proc.devRef .tc (main_v0 : Ref sig .tc)
abbrev rV1 : DevRef τ sig := Proc.devRef .tc (main_v1 : Ref sig .tc)
abbrev rV2 : DevRef τ sig := Proc.devRef .tc (main_v2 : Ref sig .tc)
abbrev rV3 : DevRef τ sig := Proc.devRef .tc (main_v3 : Ref sig .tc)
abbrev rV4 : DevRef τ sig := Proc.devRef .tc (main_v4 : Ref sig .tc)
abbrev rV5 : DevRef τ sig := Proc.devRef .tc (main_v5 : Ref sig .tc)
abbrev rV60 : DevRef τ sig := Proc.devRef .tc (main_v6_0 : Ref sig .tc)
abbrev rV61 : DevRef τ sig := Proc.devRef .tc (main_v6_1 : Ref sig .tc)
abbrev rV62 : DevRef τ sig := Proc.devRef .tc (main_v6_2 : Ref sig .tc)

/-- All of them: the five arguments, the constant and the index array's two precursors, the index array, the lookup's
    result, the three rounded or reshaped operands, the three projections. -/
abbrev S15 : Finset (DevRef τ sig) := {rArg0, rArg1, rArg2, rArg3, rArg4, rC, rV0, rV1, rV2, rV3, rV4, rV5, rV60, rV61, rV62}

/-! ## The six host operations, as the program spells them -/

abbrev opC : HloOp τ sig (Elt F) := StableHlo.nullary main_c (constantI S_ 32 1#32)
abbrev opV0 : HloOp τ sig (Elt F) :=
  StableHlo.unary main_c main_v0 (broadcastInDim S10000 ![] bcast_S_S10000 : (⟨S_, .i32⟩ : BufTy).Contents (Elt F) → (⟨S10000, .i32⟩ : BufTy).Contents (Elt F))
abbrev opV1 : HloOp τ sig (Elt F) :=
  StableHlo.binary main_arg0 main_v0 main_v1 (subi : (⟨S10000, .i32⟩ : BufTy).Contents (Elt F) → (⟨S10000, .i32⟩ : BufTy).Contents (Elt F) → (⟨S10000, .i32⟩ : BufTy).Contents (Elt F))
abbrev opV3 : HloOp τ sig (Elt F) :=
  StableHlo.unary main_arg1 main_v3 ((truncf .bf16 · bitsLt_bf16_f32) : (⟨S320000x16, .f32⟩ : BufTy).Contents (Elt F) → (⟨S320000x16, .bf16⟩ : BufTy).Contents (Elt F))
abbrev opV4 : HloOp τ sig (Elt F) :=
  StableHlo.unary main_arg3 main_v4 ((truncf .bf16 · bitsLt_bf16_f32) : (⟨S16x384, .f32⟩ : BufTy).Contents (Elt F) → (⟨S16x384, .bf16⟩ : BufTy).Contents (Elt F))
abbrev opV5 : HloOp τ sig (Elt F) := StableHlo.reshape main_arg4 main_v5 rfl shapeCasts_S384_S1x384

/-- The program, line by line. -/
theorem main_eq (d : Dev nD) : main (F := F) d = (do
    hlo rfl opC (fun _ => .ret ⟨⟩)
    hlo rfl opV0 (fun _ => .ret ⟨⟩)
    hlo rfl opV1 (fun _ => .ret ⟨⟩)
    sc.run d 0
    hlo rfl opV3 (fun _ => .ret ⟨⟩)
    hlo rfl opV4 (fun _ => .ret ⟨⟩)
    hlo rfl opV5 (fun _ => .ret ⟨⟩)
    Prog.lift (.customCall (SparseCore.inner (Pipeline.entry 0)) ())
    pure ⟨⟩) := rfl

theorem hC : (opC (F := F)).bufs ⊆ S15 := show ({rC} : Finset (DevRef τ sig)) ⊆ S15 by decide
theorem hV0 : (opV0 (F := F)).bufs ⊆ S15 := show ({rC, rV0} : Finset (DevRef τ sig)) ⊆ S15 by decide
theorem hV1 : (opV1 (F := F)).bufs ⊆ S15 := show ({rArg0, rV0, rV1} : Finset (DevRef τ sig)) ⊆ S15 by decide
theorem hV3 : (opV3 (F := F)).bufs ⊆ S15 := show ({rArg1, rV3} : Finset (DevRef τ sig)) ⊆ S15 by decide
theorem hV4 : (opV4 (F := F)).bufs ⊆ S15 := show ({rArg3, rV4} : Finset (DevRef τ sig)) ⊆ S15 by decide
theorem hV5 : (opV5 (F := F)).bufs ⊆ S15 := show ({rArg4, rV5} : Finset (DevRef τ sig)) ⊆ S15 by decide

/-! ## The fifteen arrays held together, one by one -/

omit [FloatOps F] in
theorem held_S15 (d : Dev nD) (W : Valuation τ sig (Elt F)) :
    (held (T d) S15 W : sProp 𝕄)
      = iprop(((SparseCore.T d).loc main_arg0 ↦{fullShare} W rArg0)
        ∗ ((SparseCore.T d).loc main_arg1 ↦{fullShare} W rArg1)
        ∗ ((SparseCore.T d).loc main_arg2 ↦{fullShare} W rArg2)
        ∗ ((SparseCore.T d).loc main_arg3 ↦{fullShare} W rArg3)
        ∗ ((SparseCore.T d).loc main_arg4 ↦{fullShare} W rArg4)
        ∗ ((SparseCore.T d).loc main_c ↦{fullShare} W rC)
        ∗ ((SparseCore.T d).loc main_v0 ↦{fullShare} W rV0)
        ∗ ((SparseCore.T d).loc main_v1 ↦{fullShare} W rV1)
        ∗ ((SparseCore.T d).loc main_v2 ↦{fullShare} W rV2)
        ∗ ((SparseCore.T d).loc main_v3 ↦{fullShare} W rV3)
        ∗ ((SparseCore.T d).loc main_v4 ↦{fullShare} W rV4)
        ∗ ((SparseCore.T d).loc main_v5 ↦{fullShare} W rV5)
        ∗ ((SparseCore.T d).loc main_v6_0 ↦{fullShare} W rV60)
        ∗ ((SparseCore.T d).loc main_v6_1 ↦{fullShare} W rV61)
        ∗ ((SparseCore.T d).loc main_v6_2 ↦{fullShare} W rV62)) := by
  unfold held S15
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0)
        ∗ ((SparseCore.T d).loc main_arg1 ↦{fullShare} W main_arg1)
        ∗ ((SparseCore.T d).loc main_arg2 ↦{fullShare} W main_arg2)
        ∗ ((SparseCore.T d).loc main_arg3 ↦{fullShare} W main_arg3)
        ∗ ((SparseCore.T d).loc main_arg4 ↦{fullShare} W main_arg4)
        ∗ ((SparseCore.T d).loc main_c ↦{fullShare} W main_c)
        ∗ ((SparseCore.T d).loc main_v0 ↦{fullShare} W main_v0)
        ∗ ((SparseCore.T d).loc main_v1 ↦{fullShare} W main_v1)
        ∗ ((SparseCore.T d).loc main_v2 ↦{fullShare} W main_v2)
        ∗ ((SparseCore.T d).loc main_v3 ↦{fullShare} W main_v3)
        ∗ ((SparseCore.T d).loc main_v4 ↦{fullShare} W main_v4)
        ∗ ((SparseCore.T d).loc main_v5 ↦{fullShare} W main_v5)
        ∗ ((SparseCore.T d).loc main_v6_0 ↦{fullShare} W main_v6_0)
        ∗ ((SparseCore.T d).loc main_v6_1 ↦{fullShare} W main_v6_1)
        ∗ ((SparseCore.T d).loc main_v6_2 ↦{fullShare} W main_v6_2)) := by
  unfold unscopedBufs
  rw [show (Finset.univ.filter fun b : Ref sig .tc => ¬ b.isScoped) = {main_arg0, main_arg1, main_arg2, main_arg3, main_arg4, main_c, main_v0, main_v1, main_v2, main_v3, main_v4, main_v5, main_v6_0, main_v6_1, main_v6_2} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The arrays' contents at three moments -/

section Vals

variable (m : (ℓ : Loc nD τ sig) → Buf (Elt F) ℓ) (d : Dev nD)

/-- At launch. -/
def V0 : Valuation τ sig (Elt F) := fun b => m (d, b)
/-- When the lookup is called: the index array is made. -/
def Va : Valuation τ sig (Elt F) := (opV1 (F := F)).result ((opV0 (F := F)).result ((opC (F := F)).result (V0 m d)))
/-- When it has returned: its result holds the gathered rows. -/
def Vb : Valuation τ sig (Elt F) := Function.update (Va m d) rV2 (G (Va m d rArg2) (Va m d rV1))
/-- When the region is entered: the radial basis and the weights rounded, the bias with its leading unit axis. -/
def Vc : Valuation τ sig (Elt F) := (opV5 (F := F)).result ((opV4 (F := F)).result ((opV3 (F := F)).result (Vb m d)))

omit [FloatOps F] in
/-- At launch the unscoped buffers are the fifteen arrays at the launch contents; -/
theorem unscoped_held : (unscopedBufs d (fun b => m ((SparseCore.T d).loc b)) : sProp 𝕄) = held (T d) S15 (V0 m d) := by
  rw [unscopedBufs_eq, held_S15]; rfl

omit [FloatOps F] in
/-- and at any contents the fifteen arrays held are the unscoped buffers. -/
theorem held_unscoped (W : Valuation τ sig (Elt F)) :
    (held (T d) S15 W : sProp 𝕄) = unscopedBufs d (fun b => W (Proc.devRef .tc b)) := by
  rw [unscopedBufs_eq, held_S15]

/-- The three operations before the lookup write the constant and the index array's two stages only. -/
theorem Va_of_ne {b : DevRef τ sig} (h1 : b ≠ rV1) (h0 : b ≠ rV0) (hc : b ≠ rC) : Va m d b = V0 m d b :=
  ((opV1 (F := F)).result_of_not_mem _ (fun h => h1 (Finset.mem_singleton.mp h))).trans
    (((opV0 (F := F)).result_of_not_mem _ (fun h => h0 (Finset.mem_singleton.mp h))).trans
      ((opC (F := F)).result_of_not_mem _ (fun h => hc (Finset.mem_singleton.mp h))))
omit [FloatOps F] in
/-- The lookup writes its result only. -/
theorem Vb_of_ne {b : DevRef τ sig} (h : b ≠ rV2) : Vb m d b = Va m d b := Function.update_of_ne h _ _
/-- The three operations after it write the three operands of the region only. -/
theorem Vc_of_ne {b : DevRef τ sig} (h5 : b ≠ rV5) (h4 : b ≠ rV4) (h3 : b ≠ rV3) : Vc m d b = Vb m d b :=
  ((opV5 (F := F)).result_of_not_mem _ (fun h => h5 (Finset.mem_singleton.mp h))).trans
    (((opV4 (F := F)).result_of_not_mem _ (fun h => h4 (Finset.mem_singleton.mp h))).trans
      ((opV3 (F := F)).result_of_not_mem _ (fun h => h3 (Finset.mem_singleton.mp h))))

/-- The five arguments are never written. -/
theorem Va_arg0 : Va m d rArg0 = m ((SparseCore.T d).loc main_arg0) := Va_of_ne m d (by decide) (by decide) (by decide)
theorem Va_arg1 : Va m d rArg1 = m ((SparseCore.T d).loc main_arg1) := Va_of_ne m d (by decide) (by decide) (by decide)
theorem Va_arg2 : Va m d rArg2 = m ((SparseCore.T d).loc main_arg2) := Va_of_ne m d (by decide) (by decide) (by decide)
theorem Va_arg3 : Va m d rArg3 = m ((SparseCore.T d).loc main_arg3) := Va_of_ne m d (by decide) (by decide) (by decide)
theorem Va_arg4 : Va m d rArg4 = m ((SparseCore.T d).loc main_arg4) := Va_of_ne m d (by decide) (by decide) (by decide)
theorem Vb_arg0 : Vb m d rArg0 = m ((SparseCore.T d).loc main_arg0) := (Vb_of_ne m d (by decide)).trans (Va_arg0 m d)
theorem Vb_arg1 : Vb m d rArg1 = m ((SparseCore.T d).loc main_arg1) := (Vb_of_ne m d (by decide)).trans (Va_arg1 m d)
theorem Vb_arg2 : Vb m d rArg2 = m ((SparseCore.T d).loc main_arg2) := (Vb_of_ne m d (by decide)).trans (Va_arg2 m d)
theorem Vb_arg3 : Vb m d rArg3 = m ((SparseCore.T d).loc main_arg3) := (Vb_of_ne m d (by decide)).trans (Va_arg3 m d)
theorem Vb_arg4 : Vb m d rArg4 = m ((SparseCore.T d).loc main_arg4) := (Vb_of_ne m d (by decide)).trans (Va_arg4 m d)
theorem Vc_arg0 : Vc m d rArg0 = m ((SparseCore.T d).loc main_arg0) := (Vc_of_ne m d (by decide) (by decide) (by decide)).trans (Vb_arg0 m d)
theorem Vc_arg1 : Vc m d rArg1 = m ((SparseCore.T d).loc main_arg1) := (Vc_of_ne m d (by decide) (by decide) (by decide)).trans (Vb_arg1 m d)
theorem Vc_arg2 : Vc m d rArg2 = m ((SparseCore.T d).loc main_arg2) := (Vc_of_ne m d (by decide) (by decide) (by decide)).trans (Vb_arg2 m d)
theorem Vc_arg3 : Vc m d rArg3 = m ((SparseCore.T d).loc main_arg3) := (Vc_of_ne m d (by decide) (by decide) (by decide)).trans (Vb_arg3 m d)
theorem Vc_arg4 : Vc m d rArg4 = m ((SparseCore.T d).loc main_arg4) := (Vc_of_ne m d (by decide) (by decide) (by decide)).trans (Vb_arg4 m d)

/-- The atomic numbers at launch, as 32-bit words. -/
abbrev atomNo : IVec S10000 32 := m ((SparseCore.T d).loc main_arg0)
/-- The index array when the lookup is called, as 32-bit words. -/
abbrev idxArr : IVec S10000 32 := Va m d rV1

/-- The index array: each atomic number less one. -/
theorem Va_v1 (n : S10000.Idx) : idxArr m d n = atomNo m d n - 1#32 := by
  show (Va m d rV1 : IVec S10000 32) n = _
  have hA : ((opV0 (F := F)).result ((opC (F := F)).result (V0 m d))) rArg0 = m ((SparseCore.T d).loc main_arg0) :=
    ((opV0 (F := F)).result_of_not_mem _ (show rArg0 ∉ ({rV0} : Finset (DevRef τ sig)) by decide)).trans
      ((opC (F := F)).result_of_not_mem _ (show rArg0 ∉ ({rC} : Finset (DevRef τ sig)) by decide))
  have hB : ((opV0 (F := F)).result ((opC (F := F)).result (V0 m d))) rV0
      = broadcastInDim S10000 ![] bcast_S_S10000 (constantI S_ 32 1#32) := by
    rw [StableHlo.unary_result, StableHlo.nullary_result]
  have hV : Va m d rV1 = subi (((opV0 (F := F)).result ((opC (F := F)).result (V0 m d))) rArg0) (((opV0 (F := F)).result ((opC (F := F)).result (V0 m d))) rV0) :=
    StableHlo.binary_result _ _ _ _ _ _ _ _
  rw [hV, hA, hB]
  rfl

/-- The lookup's result when the region is entered: the gather of the table at the index array. -/
theorem Vc_v2 : Vc m d rV2 = G (m ((SparseCore.T d).loc main_arg2)) (Va m d rV1) := by
  rw [Vc_of_ne m d (by decide) (by decide) (by decide)]
  unfold Vb
  rw [Function.update_self, Va_arg2]

/-- The radial basis, rounded to bf16. -/
theorem Vc_v3 : Vc m d rV3 = truncf .bf16 (m ((SparseCore.T d).loc main_arg1) : (⟨S320000x16, .f32⟩ : BufTy).Contents (Elt F)) bitsLt_bf16_f32 := by
  have h1 : Vc m d rV3 = (opV3 (F := F)).result (Vb m d) rV3 :=
    ((opV5 (F := F)).result_of_not_mem _ (show rV3 ∉ ({rV5} : Finset (DevRef τ sig)) by decide)).trans
      ((opV4 (F := F)).result_of_not_mem _ (show rV3 ∉ ({rV4} : Finset (DevRef τ sig)) by decide))
  rw [h1, StableHlo.unary_result, Vb_arg1]

/-- The weights, rounded to bf16. -/
theorem Vc_v4 : Vc m d rV4 = truncf .bf16 (m ((SparseCore.T d).loc main_arg3) : (⟨S16x384, .f32⟩ : BufTy).Contents (Elt F)) bitsLt_bf16_f32 := by
  have h1 : Vc m d rV4 = (opV4 (F := F)).result ((opV3 (F := F)).result (Vb m d)) rV4 :=
    (opV5 (F := F)).result_of_not_mem _ (show rV4 ∉ ({rV5} : Finset (DevRef τ sig)) by decide)
  have h2 : ((opV3 (F := F)).result (Vb m d)) rArg3 = m ((SparseCore.T d).loc main_arg3) :=
    ((opV3 (F := F)).result_of_not_mem _ (show rArg3 ∉ ({rV3} : Finset (DevRef τ sig)) by decide)).trans (Vb_arg3 m d)
  rw [h1, StableHlo.unary_result, h2]

/-- The bias, with a leading unit axis. -/
theorem Vc_v5 : Vc m d rV5 = shapeCast S1x384 (m ((SparseCore.T d).loc main_arg4) : S384.Idx → Elt F .f32) shapeCasts_S384_S1x384 := by
  have h2 : ((opV4 (F := F)).result ((opV3 (F := F)).result (Vb m d))) rArg4 = m ((SparseCore.T d).loc main_arg4) :=
    ((opV4 (F := F)).result_of_not_mem _ (show rArg4 ∉ ({rV4} : Finset (DevRef τ sig)) by decide)).trans
      (((opV3 (F := F)).result_of_not_mem _ (show rArg4 ∉ ({rV3} : Finset (DevRef τ sig)) by decide)).trans (Vb_arg4 m d))
  unfold Vc
  rw [StableHlo.reshape_result, h2]
  rfl

/-- With every atomic number between 1 and 99, every entry of the index array names one of the table's 100 rows. -/
theorem hin_of_range (hr : ∀ n : S10000.Idx, 1 ≤ (atomNo m d n).toInt ∧ (atomNo m d n).toInt ≤ 99) :
    ∀ n : S10000.Idx, (idxArr m d n).toNat < 100 := fun n => by
  rw [Va_v1]
  exact (Cert.Spec.toNat_pred_of_range (hr n).1 (hr n).2).2

end Vals

end Cert.KernelIdeal.Run

end
-- ==== Proof.KI.Post.lean ====
/-
  What the kernel's run ends with, as a function of the launch memory: the five arguments unchanged, the
  lookup's result at the gather of the table through the index array (atomic number less one), the three
  projections at what the projection's windows hold after its last point.
-/
import proofs.«206544_g7275674599721_cont_sun_c4_423_43_alg».proof.Proof.KI.Obl
import proofs.«206544_g7275674599721_cont_sun_c4_423_43_alg».proof.Proof.KI.HostVals

noncomputable section

namespace Cert.KernelIdeal.Run

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-- The index array when the lookup is called, and the table: functions of the launch memory. -/
abbrev fiOf : (d : Dev nD) → Buf (Elt F) (idxLoc d) := fun d => Va m d rV1
abbrev ftOf : (d : Dev nD) → Buf (Elt F) (tabLoc d) := fun d => Va m d rArg2

/-- What the handshakes carry, at those. -/
abbrev PP : (K (F := F)).Pay (nD := nD) (Val := Elt F) (Name := ℕ) (U := UU) := P (fiOf m) (ftOf m)

/-- The TensorCore's arrays when the projection's region is entered. -/
abbrev Vreg : (c : Dev nD) → (b : Ref sig .tc) → Buf (Elt F) ((c.tc : Thread nD τ).loc b) :=
  fun c b => Vc m c (Proc.devRef .tc b)

/-- The projection's proof data on device `d`. -/
abbrev pd (d : Dev nD) := Region.dats (Ix := HIx 1) (Name := ℕ) (U := UU) (Lvl := ℕ) d (Vreg m d) (Btc (F := F) d)

/-- What @main leaves for the claim: the five arguments at their launch contents, the lookup's result at the gather,
    the three projections at what the region's windows end with. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4))
    ∗ ((SparseCore.T d).loc main_v2 ↦{fullShare} G (m ((SparseCore.T d).loc main_arg2)) (Va m d rV1))
    ∗ ((SparseCore.T d).loc main_v6_0 ↦{fullShare} (pd m d).arrAt 3 cfg1.N)
    ∗ ((SparseCore.T d).loc main_v6_1 ↦{fullShare} (pd m d).arrAt 4 cfg1.N)
    ∗ ((SparseCore.T d).loc main_v6_2 ↦{fullShare} (pd m d).arrAt 5 cfg1.N))

/-- The same, read off a final memory. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_v2) = G (m ((SparseCore.T d).loc main_arg2)) (Va m d rV1)
  ∧ s'.mem.mem ((SparseCore.T d).loc main_v6_0) = (pd m d).arrAt 3 cfg1.N
  ∧ s'.mem.mem ((SparseCore.T d).loc main_v6_1) = (pd m d).arrAt 4 cfg1.N
  ∧ s'.mem.mem ((SparseCore.T d).loc main_v6_2) = (pd m d).arrAt 5 cfg1.N

/-- The run's post: on every device, the nine arrays' final contents. -/
def QC : PUnit × MemSt nD τ sig (Elt F) → Prop := fun r => ∀ c : Dev nD,
  r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_v2) = G (m ((SparseCore.T c).loc main_arg2)) (Va m c rV1)
  ∧ r.2.mem ((SparseCore.T c).loc main_v6_0) = (pd m c).arrAt 3 cfg1.N
  ∧ r.2.mem ((SparseCore.T c).loc main_v6_1) = (pd m c).arrAt 4 cfg1.N
  ∧ r.2.mem ((SparseCore.T c).loc main_v6_2) = (pd m c).arrAt 5 cfg1.N

end Cert.KernelIdeal.Run

end
-- ==== Proof.KI.Split.lean ====
/-
  The call's two handshakes' ends.  Before the call the TensorCore holds the index array, the table and the output
  outright; these are, side by side, what the thirty-two vector subcores' tasks are handed: each subcore's rounds'
  80 index entries and 80 output rows, and a read share of the whole table.  After the call the subcores' results,
  side by side, are the three arrays again, the output holding the gather.

  The index entries and the output rows go by chunk: entry (or row) n lies in chunk n / 80, below 125; the subcore
  at grid point (c, s) handles in round r the chunk 2 s + c + 32 r when that is below 125.  A chunk number k below 125
  is of that form for exactly one (c, s, r): c = k mod 2, s = (k mod 32) / 2, r = k / 32.  So the subcores' rounds'
  sets partition each array.  The table is shared out by cutting the full share in two and each half in sixteen.
-/
import proofs.«206544_g7275674599721_cont_sun_c4_423_43_alg».proof.Proof.KI.Pay
import Idealize.ShloMosaic.Rules.PointsTo
import Idealize.ShloMosaic.Lib.SparseCore.Stream

noncomputable section

namespace Cert.KernelIdeal.Run

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The locations: an HBM buffer's location does not depend on the thread that names it -/

theorem idx_loc (d : Dev nD) (L : grid0.Coords) (o1 : Fin 1 → Nat) (h1 : ∀ a, o1 a + S80.size a ≤ S10000.size a) :
    (idxSl o1 h1).view.loc (tile d L) = idxLoc d := rfl
theorem out_loc (d : Dev nD) (L : grid0.Coords) (o2 : Fin 2 → Nat) (h2 : ∀ a, o2 a + S80x128.size a ≤ S10000x128.size a) :
    (outSl o2 h2).view.loc (tile d L) = outLoc d := rfl
theorem tab_loc (d : Dev nD) (L : grid0.Coords) : (tabSl).view.loc (tile d L) = tabLoc d := rfl

/-! ## The slices' element sets -/

theorem mem_idx_set (o1 : Fin 1 → Nat) (h1 : ∀ a, o1 a + S80.size a ≤ S10000.size a) (n : S10000.Idx) :
    n ∈ (idxSl o1 h1).view.set ↔ o1 0 ≤ (n 0).val ∧ (n 0).val < o1 0 + 80 := by
  rw [show (idxSl o1 h1).view.set = (Rect.unit (s := S10000) o1 S80.size h1).set from View.set_slice_whole main_v1_scv _,
    Rect.mem_set_unit]
  constructor
  · intro h; exact h 0
  · intro h a
    match a with
    | ⟨0, _⟩ => exact h

theorem mem_out_set (o2 : Fin 2 → Nat) (h2 : ∀ a, o2 a + S80x128.size a ≤ S10000x128.size a) (ho : o2 1 = 0) (y : S10000x128.Idx) :
    y ∈ (outSl o2 h2).view.set ↔ o2 0 ≤ (y 0).val ∧ (y 0).val < o2 0 + 80 := by
  rw [show (outSl o2 h2).view.set = (Rect.unit (s := S10000x128) o2 S80x128.size h2).set from View.set_slice_whole main_v2_scv _,
    Rect.mem_set_unit]
  constructor
  · intro h; exact h 0
  · intro h a
    match a with
    | ⟨0, _⟩ => exact h
    | ⟨1, _⟩ =>
      show o2 (1 : Fin 2) ≤ (y (1 : Fin 2)).val ∧ (y (1 : Fin 2)).val < o2 (1 : Fin 2) + 128
      rw [ho, Nat.zero_add]
      exact ⟨Nat.zero_le _, (y 1).isLt⟩

theorem tab_set : (tabSl).view.set = Finset.univ := by
  rw [show (tabSl).view.set = (Rect.unit (s := S100x128) ![0, 0] S100x128.size inb_S100x128_S100x128_0_0).set from View.set_slice_whole main_arg2_scv _]
  ext i
  simp only [Rect.mem_set_unit, Finset.mem_univ, iff_true]
  intro a
  match a with
  | ⟨0, _⟩ => exact ⟨Nat.zero_le _, by rw [show (![0, 0] : Fin 2 → Nat) ⟨0, by decide⟩ = 0 from rfl, Nat.zero_add]; exact (i 0).isLt⟩
  | ⟨1, _⟩ => exact ⟨Nat.zero_le _, by rw [show (![0, 0] : Fin 2 → Nat) ⟨1, by decide⟩ = 0 from rfl, Nat.zero_add]; exact (i 1).isLt⟩

/-- The fourth round's guard in closed form: the chunk 2 s + c + 96 is below 125. -/
theorem cond4_iff : ∀ L : grid0.Coords, k0_cond4 L = 1#1 ↔ 2 * (L 1).val + (L 0).val < 29 := by decide +kernel

/-! ## One array cut into the subcores' chunks

An array whose every element has a chunk number below 125, and for each subcore and round the set of elements whose
chunk number is 2 s + c + 32 r: the sets partition the array, so its points-to is the subcores' pieces side by side. -/

/-- The chunk the subcore at grid point L handles in round r. -/
def chunkNo (L : grid0.Coords) (r : Nat) : Nat := 2 * (L 1).val + (L 0).val + 32 * r

/-- What one subcore holds of an array: its four rounds' sets. -/
def tileSet {ι : Type} [DecidableEq ι] (R : grid0.Coords → Fin 4 → Finset ι) (L : grid0.Coords) : Finset ι :=
  R L 0 ∪ (R L 1 ∪ (R L 2 ∪ R L 3))

theorem mem_tileSet {ι : Type} [DecidableEq ι] (κ : ι → Nat) (hκ : ∀ i, κ i < 125) (R : grid0.Coords → Fin 4 → Finset ι)
    (hR : ∀ L (r : Fin 4) i, i ∈ R L r ↔ κ i = chunkNo L r.val) (L : grid0.Coords) (i : ι) :
    i ∈ tileSet R L ↔ κ i % 32 = 2 * (L 1).val + (L 0).val := by
  have h0 : (L 0).val < 2 := (L 0).isLt
  have h1 : (L 1).val < 16 := (L 1).isLt
  have hk := hκ i
  unfold tileSet
  simp only [Finset.mem_union, hR, chunkNo]
  show (κ i = 2 * (L 1).val + (L 0).val + 32 * 0 ∨ κ i = 2 * (L 1).val + (L 0).val + 32 * 1
    ∨ κ i = 2 * (L 1).val + (L 0).val + 32 * 2 ∨ κ i = 2 * (L 1).val + (L 0).val + 32 * 3) ↔ _
  omega

/-- Along disjoint element sets, as an equation. -/
theorem pointsTo_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  have hu : (ℓ ↦[I ∪ J]{q} f : sProp 𝕄) ⊣⊢ iprop((ℓ ↦[I]{q} f) ∗ ℓ ↦[J]{q} f) := pointsTo_union h
  BI.equiv_iff.mp ⟨hu.1, hu.2⟩

theorem coordsV_0 (c : Fin (grid0.bound 0)) (s : Fin (grid0.bound 1)) : coordsV c s 0 = c := rfl
theorem coordsV_1 (c : Fin (grid0.bound 0)) (s : Fin (grid0.bound 1)) : coordsV c s 1 = s := rfl

theorem split_tiles {ℓ : Loc nD τ sig} (q : PosShare TreeShare) (f : Buf (Elt F) ℓ) (κ : Idx ℓ → Nat) (hκ : ∀ i, κ i < 125)
    (R : grid0.Coords → Fin 4 → Finset (Idx ℓ)) (hR : ∀ L (r : Fin 4) i, i ∈ R L r ↔ κ i = chunkNo L r.val) :
    (ℓ ↦[Finset.univ]{q} f : sProp 𝕄)
      = bigSep Finset.univ fun c : Fin (grid0.bound 0) => bigSep Finset.univ fun s : Fin (grid0.bound 1) =>
          iprop((ℓ ↦[R (coordsV c s) 0]{q} f) ∗ (ℓ ↦[R (coordsV c s) 1]{q} f) ∗ (ℓ ↦[R (coordsV c s) 2]{q} f)
            ∗ (ℓ ↦[R (coordsV c s) 3]{q} f)) := by
  classical
  have hmem := mem_tileSet κ hκ R hR
  -- the subcores' sets cover the array
  have hcover : (Finset.univ : Finset (Idx ℓ))
      = (Finset.univ : Finset (Fin (grid0.bound 0))).biUnion fun c =>
          (Finset.univ : Finset (Fin (grid0.bound 1))).biUnion fun s => tileSet R (coordsV c s) := by
    ext i
    simp only [Finset.mem_univ, Finset.mem_biUnion, true_and, true_iff]
    have hk := hκ i
    refine ⟨⟨κ i % 2, Nat.mod_lt _ (by decide)⟩, ⟨κ i % 32 / 2, ?_⟩, ?_⟩
    · show κ i % 32 / 2 < 16
      omega
    · rw [hmem]
      show κ i % 32 = 2 * (κ i % 32 / 2) + κ i % 2
      omega
  -- two SparseCores' sets are disjoint, and so are two subcores' of one SparseCore
  have hdc : ∀ c ∈ (Finset.univ : Finset (Fin (grid0.bound 0))), ∀ c' ∈ (Finset.univ : Finset (Fin (grid0.bound 0))), c ≠ c' →
      Disjoint ((Finset.univ : Finset (Fin (grid0.bound 1))).biUnion fun s => tileSet R (coordsV c s))
        ((Finset.univ : Finset (Fin (grid0.bound 1))).biUnion fun s => tileSet R (coordsV c' s)) := by
    intro c _ c' _ hne
    rw [Finset.disjoint_left]
    intro i hi hi'
    obtain ⟨s, -, hs⟩ := Finset.mem_biUnion.mp hi
    obtain ⟨s', -, hs'⟩ := Finset.mem_biUnion.mp hi'
    rw [hmem] at hs hs'
    have e0 : ((coordsV c s) 0).val = c.val := rfl
    have e1 : ((coordsV c s) 1).val = s.val := rfl
    have e0' : ((coordsV c' s') 0).val = c'.val := rfl
    have e1' : ((coordsV c' s') 1).val = s'.val := rfl
    rw [e0, e1] at hs
    rw [e0', e1'] at hs'
    have hc : c.val < 2 := c.isLt
    have hc' : c'.val < 2 := c'.isLt
    exact hne (Fin.ext (by omega))
  have hds : ∀ c : Fin (grid0.bound 0), ∀ s ∈ (Finset.univ : Finset (Fin (grid0.bound 1))), ∀ s' ∈ (Finset.univ : Finset (Fin (grid0.bound 1))), s ≠ s' →
      Disjoint (tileSet R (coordsV c s)) (tileSet R (coordsV c s')) := by
    intro c s _ s' _ hne
    rw [Finset.disjoint_left]
    intro i hs hs'
    rw [hmem] at hs hs'
    have e0 : ((coordsV c s) 0).val = c.val := rfl
    have e1 : ((coordsV c s) 1).val = s.val := rfl
    have e0' : ((coordsV c s') 0).val = c.val := rfl
    have e1' : ((coordsV c s') 1).val = s'.val := rfl
    rw [e0, e1] at hs
    rw [e0', e1'] at hs'
    exact hne (Fin.ext (by omega))
  -- within one subcore the rounds' sets are disjoint
  have hdr : ∀ L (r r' : Fin 4), r ≠ r' → Disjoint (R L r) (R L r') := by
    intro L r r' hne
    rw [Finset.disjoint_left]
    intro i hi hi'
    rw [hR] at hi hi'
    unfold chunkNo at hi hi'
    exact hne (Fin.ext (by omega))
  rw [hcover, pointsTo_biUnion _ _ hdc]
  refine bigSep_congr fun c _ => ?_
  rw [pointsTo_biUnion _ _ (hds c)]
  refine bigSep_congr fun s _ => ?_
  unfold tileSet
  have d0 : Disjoint (R (coordsV c s) 0) (R (coordsV c s) 1 ∪ (R (coordsV c s) 2 ∪ R (coordsV c s) 3)) :=
    Finset.disjoint_union_right.mpr ⟨hdr _ 0 1 (by decide), Finset.disjoint_union_right.mpr ⟨hdr _ 0 2 (by decide), hdr _ 0 3 (by decide)⟩⟩
  have d1 : Disjoint (R (coordsV c s) 1) (R (coordsV c s) 2 ∪ R (coordsV c s) 3) :=
    Finset.disjoint_union_right.mpr ⟨hdr _ 1 2 (by decide), hdr _ 1 3 (by decide)⟩
  rw [pointsTo_union_eq d0, pointsTo_union_eq d1, pointsTo_union_eq (hdr _ 2 3 (by decide))]

/-! ## The three arrays cut -/

/-- Round r's index entries of the subcore at L (round 3's: none when the subcore has no fourth round). -/
def idxR (L : grid0.Coords) : Fin 4 → Finset S10000.Idx
  | ⟨0, _⟩ => (idxSl (k0_off1 L) (k0_off1_inb L (cond1 L))).view.set
  | ⟨1, _⟩ => (idxSl (k0_off3 L) (k0_off3_inb L (cond2 L))).view.set
  | ⟨2, _⟩ => (idxSl (k0_off5 L) (k0_off5_inb L (cond3 L))).view.set
  | ⟨3, _⟩ => if h : k0_cond4 L = 1#1 then (idxSl (k0_off7 L) (k0_off7_inb L h)).view.set else ∅
  | ⟨_ + 4, h⟩ => absurd h (by omega)

/-- Round r's output rows of the subcore at L. -/
def outR (L : grid0.Coords) : Fin 4 → Finset S10000x128.Idx
  | ⟨0, _⟩ => (outSl (k0_off2 L) (k0_off2_inb L (cond1 L))).view.set
  | ⟨1, _⟩ => (outSl (k0_off4 L) (k0_off4_inb L (cond2 L))).view.set
  | ⟨2, _⟩ => (outSl (k0_off6 L) (k0_off6_inb L (cond3 L))).view.set
  | ⟨3, _⟩ => if h : k0_cond4 L = 1#1 then (outSl (k0_off8 L) (k0_off8_inb L h)).view.set else ∅
  | ⟨_ + 4, h⟩ => absurd h (by omega)

theorem off1_0 (L : grid0.Coords) : k0_off1 L 0 = 160 * (L 1).val + 80 * (L 0).val := by rw [k0_off1_eq]; rfl
theorem off3_0 (L : grid0.Coords) : k0_off3 L 0 = 160 * (L 1).val + 80 * (L 0).val + 2560 := by rw [k0_off3_eq]; rfl
theorem off5_0 (L : grid0.Coords) : k0_off5 L 0 = 160 * (L 1).val + 80 * (L 0).val + 5120 := by rw [k0_off5_eq]; rfl
theorem off7_0 (L : grid0.Coords) : k0_off7 L 0 = 160 * (L 1).val + 80 * (L 0).val + 7680 := by rw [k0_off7_eq]; rfl
theorem off2_0 (L : grid0.Coords) : k0_off2 L 0 = 160 * (L 1).val + 80 * (L 0).val := by rw [k0_off2_eq]; rfl
theorem off4_0 (L : grid0.Coords) : k0_off4 L 0 = 160 * (L 1).val + 80 * (L 0).val + 2560 := by rw [k0_off4_eq]; rfl
theorem off6_0 (L : grid0.Coords) : k0_off6 L 0 = 160 * (L 1).val + 80 * (L 0).val + 5120 := by rw [k0_off6_eq]; rfl
theorem off8_0 (L : grid0.Coords) : k0_off8 L 0 = 160 * (L 1).val + 80 * (L 0).val + 7680 := by rw [k0_off8_eq]; rfl
theorem off2_1 (L : grid0.Coords) : k0_off2 L 1 = 0 := by rw [k0_off2_eq]; rfl
theorem off4_1 (L : grid0.Coords) : k0_off4 L 1 = 0 := by rw [k0_off4_eq]; rfl
theorem off6_1 (L : grid0.Coords) : k0_off6 L 1 = 0 := by rw [k0_off6_eq]; rfl
theorem off8_1 (L : grid0.Coords) : k0_off8 L 1 = 0 := by rw [k0_off8_eq]; rfl

theorem mem_idx0 (L : grid0.Coords) (n : S10000.Idx) :
    n ∈ (idxSl (k0_off1 L) (k0_off1_inb L (cond1 L))).view.set ↔ (n 0).val / 80 = 2 * (L 1).val + (L 0).val + 32 * 0 := by
  have h0 : (L 0).val < 2 := (L 0).isLt
  have h1 : (L 1).val < 16 := (L 1).isLt
  have hn : (n 0).val < 10000 := (n 0).isLt
  rw [mem_idx_set, off1_0]; omega

theorem mem_idx1 (L : grid0.Coords) (n : S10000.Idx) :
    n ∈ (idxSl (k0_off3 L) (k0_off3_inb L (cond2 L))).view.set ↔ (n 0).val / 80 = 2 * (L 1).val + (L 0).val + 32 * 1 := by
  have h0 : (L 0).val < 2 := (L 0).isLt
  have h1 : (L 1).val < 16 := (L 1).isLt
  have hn : (n 0).val < 10000 := (n 0).isLt
  rw [mem_idx_set, off3_0]; omega

theorem mem_idx2 (L : grid0.Coords) (n : S10000.Idx) :
    n ∈ (idxSl (k0_off5 L) (k0_off5_inb L (cond3 L))).view.set ↔ (n 0).val / 80 = 2 * (L 1).val + (L 0).val + 32 * 2 := by
  have h0 : (L 0).val < 2 := (L 0).isLt
  have h1 : (L 1).val < 16 := (L 1).isLt
  have hn : (n 0).val < 10000 := (n 0).isLt
  rw [mem_idx_set, off5_0]; omega

theorem mem_idx3 (L : grid0.Coords) (n : S10000.Idx) :
    n ∈ (if h : k0_cond4 L = 1#1 then (idxSl (k0_off7 L) (k0_off7_inb L h)).view.set else ∅ : Finset S10000.Idx)
      ↔ (n 0).val / 80 = 2 * (L 1).val + (L 0).val + 32 * 3 := by
  have h0 : (L 0).val < 2 := (L 0).isLt
  have h1 : (L 1).val < 16 := (L 1).isLt
  have hn : (n 0).val < 10000 := (n 0).isLt
  by_cases h : k0_cond4 L = 1#1
  · rw [dif_pos h, mem_idx_set, off7_0]; omega
  · rw [dif_neg h]
    have h' := (cond4_iff L).not.mp h
    simp only [Finset.notMem_empty, false_iff]
    omega

theorem mem_out0 (L : grid0.Coords) (y : S10000x128.Idx) :
    y ∈ (outSl (k0_off2 L) (k0_off2_inb L (cond1 L))).view.set ↔ (y 0).val / 80 = 2 * (L 1).val + (L 0).val + 32 * 0 := by
  have h0 : (L 0).val < 2 := (L 0).isLt
  have h1 : (L 1).val < 16 := (L 1).isLt
  have hn : (y 0).val < 10000 := (y 0).isLt
  rw [mem_out_set _ _ (off2_1 L), off2_0]; omega

theorem mem_out1 (L : grid0.Coords) (y : S10000x128.Idx) :
    y ∈ (outSl (k0_off4 L) (k0_off4_inb L (cond2 L))).view.set ↔ (y 0).val / 80 = 2 * (L 1).val + (L 0).val + 32 * 1 := by
  have h0 : (L 0).val < 2 := (L 0).isLt
  have h1 : (L 1).val < 16 := (L 1).isLt
  have hn : (y 0).val < 10000 := (y 0).isLt
  rw [mem_out_set _ _ (off4_1 L), off4_0]; omega

theorem mem_out2 (L : grid0.Coords) (y : S10000x128.Idx) :
    y ∈ (outSl (k0_off6 L) (k0_off6_inb L (cond3 L))).view.set ↔ (y 0).val / 80 = 2 * (L 1).val + (L 0).val + 32 * 2 := by
  have h0 : (L 0).val < 2 := (L 0).isLt
  have h1 : (L 1).val < 16 := (L 1).isLt
  have hn : (y 0).val < 10000 := (y 0).isLt
  rw [mem_out_set _ _ (off6_1 L), off6_0]; omega

theorem mem_out3 (L : grid0.Coords) (y : S10000x128.Idx) :
    y ∈ (if h : k0_cond4 L = 1#1 then (outSl (k0_off8 L) (k0_off8_inb L h)).view.set else ∅ : Finset S10000x128.Idx)
      ↔ (y 0).val / 80 = 2 * (L 1).val + (L 0).val + 32 * 3 := by
  have h0 : (L 0).val < 2 := (L 0).isLt
  have h1 : (L 1).val < 16 := (L 1).isLt
  have hn : (y 0).val < 10000 := (y 0).isLt
  by_cases h : k0_cond4 L = 1#1
  · rw [dif_pos h, mem_out_set _ _ (off8_1 L), off8_0]; omega
  · rw [dif_neg h]
    have h' := (cond4_iff L).not.mp h
    simp only [Finset.notMem_empty, false_iff]
    omega

/-- Entry n is among round r's entries of the subcore at L exactly when its chunk, n / 80, is that round's. -/
theorem mem_idxR (L : grid0.Coords) (r : Fin 4) (n : S10000.Idx) : n ∈ idxR L r ↔ (n 0).val / 80 = chunkNo L r.val :=
  match r with
  | ⟨0, _⟩ => mem_idx0 L n
  | ⟨1, _⟩ => mem_idx1 L n
  | ⟨2, _⟩ => mem_idx2 L n
  | ⟨3, _⟩ => mem_idx3 L n
  | ⟨_ + 4, h⟩ => absurd h (by omega)

/-- Row y is among round r's rows of the subcore at L exactly when its chunk, (row number) / 80, is that round's. -/
theorem mem_outR (L : grid0.Coords) (r : Fin 4) (y : S10000x128.Idx) : y ∈ outR L r ↔ (y 0).val / 80 = chunkNo L r.val :=
  match r with
  | ⟨0, _⟩ => mem_out0 L y
  | ⟨1, _⟩ => mem_out1 L y
  | ⟨2, _⟩ => mem_out2 L y
  | ⟨3, _⟩ => mem_out3 L y
  | ⟨_ + 4, h⟩ => absurd h (by omega)

/-- The index array is the subcores' rounds' entries side by side. -/
theorem split_idx (d : Dev nD) (q : PosShare TreeShare) (fi : Buf (Elt F) (idxLoc d)) :
    (idxLoc d ↦[Finset.univ]{q} fi : sProp 𝕄)
      = bigSep Finset.univ fun c : Fin (grid0.bound 0) => bigSep Finset.univ fun s : Fin (grid0.bound 1) =>
          iprop((idxLoc d ↦[idxR (coordsV c s) 0]{q} fi) ∗ (idxLoc d ↦[idxR (coordsV c s) 1]{q} fi)
            ∗ (idxLoc d ↦[idxR (coordsV c s) 2]{q} fi) ∗ (idxLoc d ↦[idxR (coordsV c s) 3]{q} fi)) :=
  split_tiles (ℓ := idxLoc d) q fi (fun n : S10000.Idx => (n 0).val / 80)
    (fun n => by have hn : (n 0).val < 10000 := (n 0).isLt; show (n 0).val / 80 < 125; omega) idxR mem_idxR

/-- The output is the subcores' rounds' rows side by side. -/
theorem split_out (d : Dev nD) (q : PosShare TreeShare) (fo : Buf (Elt F) (outLoc d)) :
    (outLoc d ↦[Finset.univ]{q} fo : sProp 𝕄)
      = bigSep Finset.univ fun c : Fin (grid0.bound 0) => bigSep Finset.univ fun s : Fin (grid0.bound 1) =>
          iprop((outLoc d ↦[outR (coordsV c s) 0]{q} fo) ∗ (outLoc d ↦[outR (coordsV c s) 1]{q} fo)
            ∗ (outLoc d ↦[outR (coordsV c s) 2]{q} fo) ∗ (outLoc d ↦[outR (coordsV c s) 3]{q} fo)) :=
  split_tiles (ℓ := outLoc d) q fo (fun y : S10000x128.Idx => (y 0).val / 80)
    (fun y => by have hn : (y 0).val < 10000 := (y 0).isLt; show (y 0).val / 80 < 125; omega) outR mem_outR

/-- The table, whole, at the subcores' read shares side by side. -/
theorem split_tab (d : Dev nD) (ft : Buf (Elt F) (tabLoc d)) :
    (tabLoc d ↦[Finset.univ]{fullShare} ft : sProp 𝕄)
      = bigSep Finset.univ fun c : Fin (grid0.bound 0) => bigSep Finset.univ fun s : Fin (grid0.bound 1) =>
          (tabLoc d ↦[Finset.univ]{tabShare (coordsV c s)} ft) := by
  rw [pointsTo_piecesOf Finset.univ ft (o := 2) (by decide) fullShare]
  show (bigSep Finset.univ fun c : Fin (grid0.bound 0) => (tabLoc d ↦[Finset.univ]{pieceOf fullShare 2 (by decide) c} ft : sProp 𝕄)) = _
  refine bigSep_congr fun c _ => ?_
  rw [pointsTo_piecesOf Finset.univ ft (o := 16) (by decide) (pieceOf fullShare 2 (by decide) c)]
  rfl

/-! ## One subcore's pieces, array by array, are what its task is handed -/

/-- What the subcore at L holds, array by array: its rounds' index entries, its read share of the table, its rounds'
    output rows. -/
def tilePieces (d : Dev nD) (L : grid0.Coords) (fi : Buf (Elt F) (idxLoc d)) (ft : Buf (Elt F) (tabLoc d))
    (fo : Buf (Elt F) (outLoc d)) : sProp 𝕄 :=
  iprop(((idxLoc d ↦[idxR L 0]{fullShare} fi) ∗ (idxLoc d ↦[idxR L 1]{fullShare} fi)
      ∗ (idxLoc d ↦[idxR L 2]{fullShare} fi) ∗ (idxLoc d ↦[idxR L 3]{fullShare} fi))
    ∗ (tabLoc d ↦[Finset.univ]{tabShare L} ft)
    ∗ ((outLoc d ↦[outR L 0]{fullShare} fo) ∗ (outLoc d ↦[outR L 1]{fullShare} fo)
      ∗ (outLoc d ↦[outR L 2]{fullShare} fo) ∗ (outLoc d ↦[outR L 3]{fullShare} fo)))

/-- Nine pieces regrouped round by round. -/
theorem sep_shuffle (I0 I1 I2 I3 T O0 O1 O2 O3 : sProp 𝕄) :
    iprop((I0 ∗ I1 ∗ I2 ∗ I3) ∗ T ∗ (O0 ∗ O1 ∗ O2 ∗ O3))
      = iprop(T ∗ (I0 ∗ O0) ∗ (I1 ∗ O1) ∗ (I2 ∗ O2) ∗ (I3 ∗ O3)) := by
  show BI.sep (BI.sep I0 (BI.sep I1 (BI.sep I2 I3))) (BI.sep T (BI.sep O0 (BI.sep O1 (BI.sep O2 O3))))
    = BI.sep T (BI.sep (BI.sep I0 O0) (BI.sep (BI.sep I1 O1) (BI.sep (BI.sep I2 O2) (BI.sep I3 O3))))
  ac_rfl

/-- The fourth round's two pieces: the round's resources when the subcore has a fourth round, nothing otherwise. -/
theorem round3_eq (d : Dev nD) (L : grid0.Coords) (fi : Buf (Elt F) (idxLoc d)) (fo : Buf (Elt F) (outLoc d)) :
    (iprop((idxLoc d ↦[idxR L 3]{fullShare} fi) ∗ (outLoc d ↦[outR L 3]{fullShare} fo)) : sProp 𝕄)
      = (if h : k0_cond4 L = 1#1 then roundRes d L (k0_off7 L) (k0_off7_inb L h) (k0_off8 L) (k0_off8_inb L h) fi fo
          else iprop(emp)) := by
  show (iprop((idxLoc d ↦[(if h : k0_cond4 L = 1#1 then (idxSl (k0_off7 L) (k0_off7_inb L h)).view.set else ∅ : Finset S10000.Idx)]{fullShare} fi)
      ∗ (outLoc d ↦[(if h : k0_cond4 L = 1#1 then (outSl (k0_off8 L) (k0_off8_inb L h)).view.set else ∅ : Finset S10000x128.Idx)]{fullShare} fo)) : sProp 𝕄) = _
  by_cases h : k0_cond4 L = 1#1
  · rw [dif_pos h, dif_pos h, dif_pos h]
    rfl
  · rw [dif_neg h, dif_neg h, dif_neg h, pointsTo_empty, pointsTo_empty]
    exact equiv_iff.mp emp_sep

theorem tile_eq (d : Dev nD) (L : grid0.Coords) (fi : Buf (Elt F) (idxLoc d)) (ft : Buf (Elt F) (tabLoc d))
    (fo : Buf (Elt F) (outLoc d)) : tilePieces d L fi ft fo = tileRes d L fi ft (fun _ => fo) := by
  unfold tilePieces
  rw [sep_shuffle, round3_eq]
  unfold tileRes
  rw [tab_set]
  rfl

/-! ## The whole: the three arrays are the thirty-two subcores' tasks' resources side by side -/

theorem split_eq (d : Dev nD) (fi : Buf (Elt F) (idxLoc d)) (ft : Buf (Elt F) (tabLoc d)) (fo : Buf (Elt F) (outLoc d)) :
    (iprop((idxLoc d ↦{fullShare} fi) ∗ (tabLoc d ↦{fullShare} ft) ∗ (outLoc d ↦{fullShare} fo)) : sProp 𝕄)
      = bigSep Finset.univ fun c : Fin (grid0.bound 0) => bigSep Finset.univ fun s : Fin (grid0.bound 1) =>
          tileRes d (coordsV c s) fi ft (fun _ => fo) := by
  show (iprop((idxLoc d ↦[Finset.univ]{fullShare} fi) ∗ (tabLoc d ↦[Finset.univ]{fullShare} ft)
    ∗ (outLoc d ↦[Finset.univ]{fullShare} fo)) : sProp 𝕄) = _
  rw [split_idx, split_tab, split_out, ← bigSep_sep', ← bigSep_sep']
  refine bigSep_congr fun c _ => ?_
  rw [← bigSep_sep', ← bigSep_sep']
  refine bigSep_congr fun s _ => ?_
  exact tile_eq d (coordsV c s) fi ft fo

/-- A task's resources at some output contents are its resources before the task. -/
theorem tileRes_go (d : Dev nD) (L : grid0.Coords) (fi : Buf (Elt F) (idxLoc d)) (ft : Buf (Elt F) (tabLoc d))
    (fo : Fin 4 → Buf (Elt F) (outLoc d)) : tileRes d L fi ft fo ⊢ tileGo d L fi ft := by
  unfold tileGo
  iintro H
  iexists fo
  iexact H

/-- A task's resources after the task are its resources at the gather. -/
theorem tileTd_eq (d : Dev nD) (L : grid0.Coords) (fi : Buf (Elt F) (idxLoc d)) (ft : Buf (Elt F) (tabLoc d)) :
    tileTd d L fi ft = tileRes d L fi ft (fun _ => G ft fi) := rfl

/-! ## The two handshakes' ends -/

variable (d : Dev nD) (fi : (d : Dev nD) → Buf (Elt F) (idxLoc d)) (ft : (d : Dev nD) → Buf (Elt F) (tabLoc d))

/-- Before the call: the three arrays, held outright, are the two SparseCores' operands. -/
theorem split_st (fo : Buf (Elt F) (outLoc d)) :
    (iprop((idxLoc d ↦{fullShare} fi d) ∗ (tabLoc d ↦{fullShare} ft d) ∗ (outLoc d ↦{fullShare} fo)) : sProp 𝕄)
      ⊢ bigSep Finset.univ fun c : Fin ((K (F := F)).nCore 0) => (P fi ft).st 0 d c := by
  rw [split_eq]
  show (bigSep Finset.univ fun c : Fin (grid0.bound 0) => bigSep Finset.univ fun s : Fin (grid0.bound 1) =>
      tileRes d (coordsV c s) (fi d) (ft d) (fun _ => fo))
    ⊢ bigSep Finset.univ fun c : Fin (grid0.bound 0) => bigSep Finset.univ fun s : Fin (grid0.bound 1) =>
      tileGo d (coordsV c s) (fi d) (ft d)
  exact bigSep_mono fun c _ => bigSep_mono fun s _ => tileRes_go d _ _ _ _

/-- A SparseCore's results are its sixteen tasks' results ... -/
theorem dn_eq (c : Fin ((K (F := F)).nCore 0)) :
    ((P fi ft).dn 0 d c : sProp 𝕄)
      = bigSep Finset.univ fun s : Fin ((K (F := F)).nSub 0) => tileTd d (coordsQ 0 c s) (fi d) (ft d) := rfl

/-- ... indexed by the grid's second axis. -/
theorem dn_eq2 (c : Fin (grid0.bound 0)) :
    (bigSep Finset.univ fun s : Fin ((K (F := F)).nSub 0) => tileTd d (coordsQ 0 c s) (fi d) (ft d) : sProp 𝕄)
      = bigSep Finset.univ fun s : Fin (grid0.bound 1) => tileTd d (coordsV c s) (fi d) (ft d) := rfl

/-- After it: the two SparseCores' results are the three arrays, held outright, the output at the gather. -/
theorem join_dn :
    (bigSep Finset.univ fun c : Fin ((K (F := F)).nCore 0) => (P fi ft).dn 0 d c : sProp 𝕄)
      ⊢ iprop((idxLoc d ↦{fullShare} fi d) ∗ (tabLoc d ↦{fullShare} ft d) ∗ (outLoc d ↦{fullShare} G (ft d) (fi d))) := by
  have h : (bigSep Finset.univ fun c : Fin ((K (F := F)).nCore 0) => (P fi ft).dn 0 d c : sProp 𝕄)
      = bigSep Finset.univ fun c : Fin (grid0.bound 0) => bigSep Finset.univ fun s : Fin (grid0.bound 1) =>
          tileRes d (coordsV c s) (fi d) (ft d) (fun _ => G (ft d) (fi d)) :=
    bigSep_congr fun c _ => (dn_eq d fi ft c).trans ((dn_eq2 d fi ft c).trans (bigSep_congr fun s _ => tileTd_eq d _ _ _))
  rw [h, ← split_eq]

end Cert.KernelIdeal.Run

end
-- ==== Proof.KI.Main.lean ====
/-
  @main on the TensorCore: the index array computed (atomic number less one), the lookup called on the two
  SparseCores — each subcore handed its pieces, the output coming back holding the gather —, the projection's
  operands prepared, the projection's region run; the arguments are never written.
-/
import proofs.«206544_g7275674599721_cont_sun_c4_423_43_alg».proof.Proof.KI.Post
import proofs.«206544_g7275674599721_cont_sun_c4_423_43_alg».proof.Proof.KI.Split

noncomputable section

namespace Cert.KernelIdeal.Run

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The fifteen arrays when the lookup has returned -/

omit [FloatOps F] in
/-- The fifteen arrays held at a valuation changed at the lookup's result alone. -/
theorem held_update_v2 (d : Dev nD) (W : Valuation τ sig (Elt F)) (f : Buf (Elt F) ((SparseCore.T d).loc main_v2)) :
    (held (SparseCore.T d) S15 (Function.update W rV2 f) : sProp 𝕄)
      = iprop(((SparseCore.T d).loc main_arg0 ↦{fullShare} W rArg0)
        ∗ ((SparseCore.T d).loc main_arg1 ↦{fullShare} W rArg1)
        ∗ ((SparseCore.T d).loc main_arg2 ↦{fullShare} W rArg2)
        ∗ ((SparseCore.T d).loc main_arg3 ↦{fullShare} W rArg3)
        ∗ ((SparseCore.T d).loc main_arg4 ↦{fullShare} W rArg4)
        ∗ ((SparseCore.T d).loc main_c ↦{fullShare} W rC)
        ∗ ((SparseCore.T d).loc main_v0 ↦{fullShare} W rV0)
        ∗ ((SparseCore.T d).loc main_v1 ↦{fullShare} W rV1)
        ∗ ((SparseCore.T d).loc main_v2 ↦{fullShare} f)
        ∗ ((SparseCore.T d).loc main_v3 ↦{fullShare} W rV3)
        ∗ ((SparseCore.T d).loc main_v4 ↦{fullShare} W rV4)
        ∗ ((SparseCore.T d).loc main_v5 ↦{fullShare} W rV5)
        ∗ ((SparseCore.T d).loc main_v6_0 ↦{fullShare} W rV60)
        ∗ ((SparseCore.T d).loc main_v6_1 ↦{fullShare} W rV61)
        ∗ ((SparseCore.T d).loc main_v6_2 ↦{fullShare} W rV62)) := by
  rw [held_S15]
  rw [Function.update_of_ne (show rArg0 ≠ rV2 by decide), Function.update_of_ne (show rArg1 ≠ rV2 by decide),
    Function.update_of_ne (show rArg2 ≠ rV2 by decide), Function.update_of_ne (show rArg3 ≠ rV2 by decide),
    Function.update_of_ne (show rArg4 ≠ rV2 by decide), Function.update_of_ne (show rC ≠ rV2 by decide),
    Function.update_of_ne (show rV0 ≠ rV2 by decide), Function.update_of_ne (show rV1 ≠ rV2 by decide),
    Function.update_self, Function.update_of_ne (show rV3 ≠ rV2 by decide), Function.update_of_ne (show rV4 ≠ rV2 by decide),
    Function.update_of_ne (show rV5 ≠ rV2 by decide), Function.update_of_ne (show rV60 ≠ rV2 by decide),
    Function.update_of_ne (show rV61 ≠ rV2 by decide), Function.update_of_ne (show rV62 ≠ rV2 by decide)]

/-! ## The TensorCore's debts around the projection's region -/

omit [FloatOps F] in
/-- After its only SparseCore call the TensorCore owes nothing: what it owes is lent to the region with the bound on its
    recorded pairs, and comes back with the bound widened by the pipeline's own waits, which sit at level 0. -/
theorem tcSt_lend (d : Dev nD) :
    ((K (F := F)).tcSt EH d 1 : sProp 𝕄)
      ⊢ iprop(Pipeline.owesWithin d 0 (Btc (F := F) d)
          ∗ (Pipeline.owesWithin d 0 (Btc (F := F) d ∪ cfg1.waitPairs (none : HIx 1)) -∗ (K (F := F)).tcSt EH d 1)) := by
  unfold SparseCore.Cfg.tcSt
  rw [(K (F := F)).Otc_end d (le_refl 1)]
  iintro ⟨⟨%W, %hW, HO⟩, Hrest⟩
  isplitl [HO]
  · iexists W
    isplitr
    · ipureintro
      intro p hp
      exact hW p (Finset.mem_coe.mp hp)
    · iexact HO
  · iintro ⟨%W', %hW', HO⟩
    isplitl [HO]
    · iexists W'
      isplitr
      · ipureintro
        intro p hp
        rcases hW' (Finset.mem_coe.mpr hp) with h | h
        · exact h
        · have hn : p.2 = none := waitPairs_none p h
          show (K (F := F)).lev (SparseCore.T d, p.1) p.2 ≤ 8 * 1
          rw [hn, SparseCore.Cfg.lev_none]
          exact Nat.zero_le _
      · iexact HO
    · iexact Hrest

theorem hmain [∀ e, Nonempty (Elt F e)] (hin : ∀ (d : Dev nD) (n : S10000.Idx), (fiOf m d n).toNat < 100)
    (κ : GSem nD τ sig → ℕ) (d : Dev nD) :
    iprop((K (F := F)).ctx EH (PP m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes Gd
  rw [unscoped_held, main_eq]
  simp only [wp_bind, wp_pure]
  iintro ⟨#Hctx, Hst, ⟨Hb, Hheld, -, -⟩, ⟨Hg, Ht⟩⟩
  -- the three operations before the lookup
  iapply (wp_hlo_within 𝒱 (SparseCore.T d) none Set.univ (op := opC) (S := S15) hC (V := V0 m d)) $$ [Hb Hheld]
  · isplitl [Hb] <;> iassumption
  iintro ⟨Hb, Hheld⟩
  rw [wp_ret]; imodintro
  iapply (wp_hlo_within 𝒱 (SparseCore.T d) none Set.univ (op := opV0) (S := S15) hV0 (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opV1) (S := S15) hV1 (V := (opV0 (F := F)).result ((opC (F := F)).result (V0 m d)))) $$ [Hb Hheld]
  · isplitl [Hb] <;> iassumption
  iintro ⟨Hb, Hheld⟩
  rw [wp_ret]; imodintro
  -- the fifteen arrays at their contents when the lookup is called
  ihave Hheld := (Entails.of_eq (show (held (SparseCore.T d) S15 ((opV1 (F := F)).result ((opV0 (F := F)).result ((opC (F := F)).result (V0 m d)))) : sProp 𝕄)
      = held (SparseCore.T d) S15 (Va m d) from rfl)) $$ Hheld
  ihave Hh := (Entails.of_eq (held_S15 (F := F) d (Va m d))) $$ Hheld
  icases Hh with ⟨Ha0, Ha1, Ha2, Ha3, Ha4, Hc, Hv0, Hv1, Hv2, Hv3, Hv4, Hv5, Hv60, Hv61, Hv62⟩
  -- the lookup: the index array, the table and the output dealt to the subcores, and back with the output at the gather
  iapply ((K (F := F)).wp_run (D (F := F)) 𝒱 (EH := EH) (P := PP m) κ d 0) $$ [Hst Hv1 Ha2 Hv2 Hb Ha0 Ha1 Ha3 Ha4 Hc Hv0 Hv3 Hv4 Hv5 Hv60 Hv61 Hv62 Hg Ht]
  isplitr; · iexact Hctx
  isplitl [Hst]; · iexact Hst
  isplitl [Hv1 Ha2 Hv2]
  · iapply (split_st d (fiOf m) (ftOf m) (Va m d rV2))
    isplitl [Hv1]; · iexact Hv1
    isplitl [Ha2]; · iexact Ha2
    iexact Hv2
  iintro ⟨Hst, Hdn⟩
  ihave H := (join_dn d (fiOf m) (ftOf m)) $$ Hdn
  icases H with ⟨Hv1, Ha2, Hv2⟩
  ihave Hheld := (Entails.of_eq (held_update_v2 (F := F) d (Va m d) (G (Va m d rArg2) (Va m d rV1))).symm) $$ [Ha0 Ha1 Ha2 Ha3 Ha4 Hc Hv0 Hv1 Hv2 Hv3 Hv4 Hv5 Hv60 Hv61 Hv62]
  · isplitl [Ha0]; · iexact Ha0
    isplitl [Ha1]; · iexact Ha1
    isplitl [Ha2]; · iexact Ha2
    isplitl [Ha3]; · iexact Ha3
    isplitl [Ha4]; · iexact Ha4
    isplitl [Hc]; · iexact Hc
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv60]; · iexact Hv60
    isplitl [Hv61]; · iexact Hv61
    iexact Hv62
  ihave Hheld := (Entails.of_eq (show (held (SparseCore.T d) S15 (Function.update (Va m d) rV2 (G (Va m d rArg2) (Va m d rV1))) : sProp 𝕄)
      = held (SparseCore.T d) S15 (Vb m d) from rfl)) $$ Hheld
  -- the three operations after it
  iapply (wp_hlo_within 𝒱 (SparseCore.T d) none Set.univ (op := opV3) (S := S15) hV3 (V := Vb m d)) $$ [Hb Hheld]
  · isplitl [Hb] <;> iassumption
  iintro ⟨Hb, Hheld⟩
  rw [wp_ret]; imodintro
  iapply (wp_hlo_within 𝒱 (SparseCore.T d) none Set.univ (op := opV4) (S := S15) hV4 (V := (opV3 (F := F)).result (Vb m d))) $$ [Hb Hheld]
  · isplitl [Hb] <;> iassumption
  iintro ⟨Hb, Hheld⟩
  rw [wp_ret]; imodintro
  iapply (wp_hlo_within 𝒱 (SparseCore.T d) none Set.univ (op := opV5) (S := S15) hV5 (V := (opV4 (F := F)).result ((opV3 (F := F)).result (Vb m d)))) $$ [Hb Hheld]
  · isplitl [Hb] <;> iassumption
  iintro ⟨Hb, Hheld⟩
  rw [wp_ret]; imodintro
  ihave Hheld := (Entails.of_eq (show (held (SparseCore.T d) S15 ((opV5 (F := F)).result ((opV4 (F := F)).result ((opV3 (F := F)).result (Vb m d)))) : sProp 𝕄)
      = held (SparseCore.T d) S15 (Vc m d) from rfl)) $$ Hheld
  -- the projection's region
  ihave Hub := (Entails.of_eq (held_unscoped (F := F) d (Vc m d))) $$ Hheld
  ihave Hst1 := (Entails.of_eq (show ((K (F := F)).tcSt EH d ((0 : Fin 1).val + 1) : sProp 𝕄) = (K (F := F)).tcSt EH d 1 from rfl)) $$ Hst
  ihave Hlend := (tcSt_lend (F := F) d) $$ Hst1
  icases Hlend with ⟨Howes, Hback⟩
  ihave Hlev := (SparseCore.Cfg.ctx_levAts κ) $$ Hctx
  iapply (region_step (F := F) d (Vreg m) _) $$ [Hb Hub Howes Hlev Hg Ht Hback]
  isplitl [Hb]; · iexact Hb
  isplitl [Hub Howes]
  · isplitl [Hub]; · iexact Hub
    iexact Howes
  isplitl [Hlev]; · iexact Hlev
  isplitl [Hg]; · iexact Hg
  isplitl [Ht]; · iexact Ht
  iintro ⟨Hb, Hpost⟩
  ihave Hp := (regionPost_open (F := F) d (Vreg m) (Btc (F := F) d)) $$ Hpost
  icases Hp with ⟨Hv3, Hv4, Hv5, Hv60, Hv61, Hv62, Ha0, Ha1, Ha2, Ha3, Ha4, Hc, Hv0, Hv1, Hv2, Howes⟩
  imodintro
  isplitl [Howes Hback]
  · iapply Hback; iexact Howes
  unfold FIN
  rw [← Vc_v2 m d, ← Vc_arg0 m d, ← Vc_arg1 m d, ← Vc_arg2 m d, ← Vc_arg3 m d, ← Vc_arg4 m d]
  isplitl [Ha0]; · iexact Ha0
  isplitl [Ha1]; · iexact Ha1
  isplitl [Ha2]; · iexact Ha2
  isplitl [Ha3]; · iexact Ha3
  isplitl [Ha4]; · iexact Ha4
  isplitl [Hv2]; · iexact Hv2
  isplitl [Hv60]; · iexact Hv60
  isplitl [Hv61]; · iexact Hv61
  iexact Hv62

end Cert.KernelIdeal.Run

end
-- ==== Proof.KI.Run.lean ====
/-
  The kernel's run: every weakly fair execution of its threads from a launch memory whose atomic numbers lie
  between 1 and 99 terminates, faulting nowhere, with the nine arrays at the contents Post.lean names.  It is the
  SparseCore launch theorem applied to the subcores' tasks, the launch element and @main's proof.
-/
import proofs.«206544_g7275674599721_cont_sun_c4_423_43_alg».proof.Proof.KI.Main

noncomputable section

namespace Cert.KernelIdeal.Run

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Each of the nine arrays @main leaves held is what the final memory holds there. -/
theorem hfin (m : (ℓ : Loc nD τ sig) → Buf (Elt F) ℓ) (d : Dev nD) (s' : Phys nD τ sig (Elt F)) :
    iprop(FIN m d ∗ SI s') ⊢ (⌜fq m d s'⌝ : sProp 𝕄) := by
  unfold FIN
  iintro ⟨⟨H0, H1, H2, H3, H4, H5, H6, H7, H8⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI H8 gives %h8
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i),
    funext fun i => h6 i (Finset.mem_univ i), funext fun i => h7 i (Finset.mem_univ i), funext fun i => h8 i (Finset.mem_univ i)⟩

theorem run_main [∀ e, Nonempty (Elt F e)] (m : (ℓ : Loc nD τ sig) → Buf (Elt F) ℓ) (ρ : Dev nD → PrngReg)
    (hr : ∀ (d : Dev nD) (n : S10000.Idx), 1 ≤ (atomNo m d n).toInt ∧ (atomNo m d n).toInt ≤ 99) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl facts (fiOf m) (ftOf m) (fun d n => hin_of_range m d (hr d) n))
    (fun q _ => match q with | 0 => SparseCore.Cfg.VecSplit.of_plain (vecSplit (fiOf m) (ftOf m)))
    m ρ main (fun d => Gd (F := F) d) (FIN m) (u₀ (F := F)) (sep_elim_left.trans (hu₀ (fiOf m) (ftOf m)))
    (hmain m ρ (fun d n => hin_of_range m d (hr d) n)) (fq m) (hfin m) (QC m) (fun _ h c => h c)

end Cert.KernelIdeal.Run

end
-- ==== Proof.KK.Setup.lean ====
/-
  The kernel's program as the SparseCore launch theorem sees it, and the ghost state its proof runs on:
  the handshakes' rounds, the TensorCore pipeline's staging cells' rounds, and the transfers' counters,
  side by side.
-/
import proofs.«206544_g7275674599721_cont_sun_c4_423_43_alg».proof.Kernel
import proofs.«206544_g7275674599721_cont_sun_c4_423_43_alg».proof.Proof.Gen.Kernel
import Idealize.ShloMosaic.Lib.SparseCore.Launch
import Idealize.ShloMosaic.Lib.Pipeline.Kit
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL

/-- The pipeline's staging cells' rounds: the left factor of the right factor. -/
def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

/-- The launch element splits into the handshakes' part, the pipeline's and the counters'. -/
theorem ownU_triple (a : UH) (b : UP) (c : Counters) :
    (ownU ((a, (b, c)) : UU) : sProp (MT nD τ sig (HIx 1) (Elt F) ℕ UU ℕ))
      ⊢ iprop(BI.own (EH (F := F) a) ∗ BI.own (EP (F := F) b)) := by
  iintro Hu
  ihave H := (ownU_pair _ _) $$ Hu
  icases H with ⟨HH, HR⟩
  isplitl [HH]; · iexact HH
  ihave H2 := (own_pair_emb (embR (A := UH) (B := UP × Counters)) b c) $$ HR
  icases H2 with ⟨HP, -⟩
  iexact HP

end Cert.Kernel.Run

end
-- ==== Proof.KK.Round.lean ====
/-
  One round of the lookup on one vector subcore: copy 80 atom indices from the index array into the
  subcore's index scratch, gather the 80 table rows they name into its row scratch, copy those rows to
  the same 80 rows of the output.  After the round those 80 rows of the output hold, at (n, l), the
  table at (index word of atom n read unsigned, l): the gather as ONE function of the whole arrays.
-/
import proofs.«206544_g7275674599721_cont_sun_c4_423_43_alg».proof.Proof.KK.Setup
import proofs.«206544_g7275674599721_cont_sun_c4_423_43_alg».proof.Proof.Gen.Kernel.Skeleton
import Idealize.ShloMosaic.Lib.ValueIdx

noncomputable section

namespace Cert.Kernel.Run

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays and scratch buffers as a vector subcore names them -/

abbrev idxW : Memref sig .scVector .hbm S10000 .i32 := Memref.whole main_v1_scv
abbrev tabW : Memref sig .scVector .hbm S100x128 .f32 := Memref.whole main_arg2_scv
abbrev outW : Memref sig .scVector .hbm S10000x128 .f32 := Memref.whole main_v2_scv
abbrev sIdx : Memref sig .scVector .vmem S80 .i32 := Memref.whole cc0_scratch0
abbrev sRows : Memref sig .scVector .vmem S80x128 .f32 := Memref.whole cc0_scratch1

/-- 80 consecutive entries of the index array, from entry `o1 0`. -/
abbrev idxSl (o1 : Fin 1 → Nat) (h1 : ∀ a, o1 a + S80.size a ≤ S10000.size a) : Memref sig .scVector .hbm S80 .i32 :=
  idxW.slice (Rect.unit (s := S10000) o1 S80.size h1) (fun _ => rfl)
/-- 80 consecutive rows of the output, from row `o2 0`. -/
abbrev outSl (o2 : Fin 2 → Nat) (h2 : ∀ a, o2 a + S80x128.size a ≤ S10000x128.size a) : Memref sig .scVector .hbm S80x128 .f32 :=
  outW.slice (Rect.unit (s := S10000x128) o2 S80x128.size h2) (fun _ => rfl)
/-- The whole table, as the gather names it. -/
abbrev tabSl : Memref sig .scVector .hbm S100x128 .f32 :=
  tabW.slice (Rect.unit (s := S100x128) ![0, 0] S100x128.size inb_S100x128_S100x128_0_0) (fun _ => rfl)

/-! ## The gather as one function of the whole arrays -/

/-- Entry (n, l) is the table at (index word of atom n, read unsigned and reduced into the 100 rows; l). -/
def G (ft : S100x128.Idx → Elt F .f32) (fi : S10000.Idx → Elt F .i32) : S10000x128.Idx → Elt F .f32 :=
  fun j => ft (ix2 (⟨(fi (ix1 (j 0 : Fin 10000))).toNat % 100, Nat.mod_lt _ (by decide)⟩ : Fin 100) (j 1 : Fin 128))

/-! ## Where the slices send an index -/

/-- The table slice is the whole table: the gather's source index is (named row, own lane). -/
theorem tab_emb_idx (rws : Fin (S80x128.size gathers_S100x128_S80x128.axis') → Fin (S100x128.size gathers_S100x128_S80x128.axis))
    (x : S80x128.Idx) (a : Fin 2) :
    ((tabSl.view.emb (gathers_S100x128_S80x128.idx rws x)) a : Nat) = if a.val = 0 then (rws (x 0)).val else (x 1).val := by
  match a with
  | ⟨0, _⟩ =>
    show 0 + 1 * ((gathers_S100x128_S80x128.idx rws x (0 : Fin 2) : Fin _) : Nat) = _
    rw [Nat.zero_add, Nat.one_mul]
    exact congrArg Fin.val (Shape.Gathers.idx_axis gathers_S100x128_S80x128 rws x)
  | ⟨1, _⟩ =>
    show 0 + 1 * ((gathers_S100x128_S80x128.idx rws x (1 : Fin 2) : Fin _) : Nat) = _
    rw [Nat.zero_add, Nat.one_mul]
    exact Shape.Gathers.idx_of_ne gathers_S100x128_S80x128 rws x (1 : Fin 2) (by decide)

/-- Row `r`, lane `l` of an output chunk is row `o2 0 + r`, lane `o2 1 + l` of the output. -/
theorem out_emb_val (o2 : Fin 2 → Nat) (h2 : ∀ a, o2 a + S80x128.size a ≤ S10000x128.size a) (x : S80x128.Idx) (a : Fin 2) :
    (((outSl o2 h2).view.emb x) a : Nat) = o2 a + (x a).val := by
  show o2 a + 1 * (x a).val = _
  rw [Nat.one_mul]

/-- Entry `k` of an index chunk is entry `o1 0 + k` of the index array. -/
theorem idx_emb_val (o1 : Fin 1 → Nat) (h1 : ∀ a, o1 a + S80.size a ≤ S10000.size a) (y : S80.Idx) (a : Fin 1) :
    (((idxSl o1 h1).view.emb y) a : Nat) = o1 a + (y a).val := by
  show o1 a + 1 * (y a).val = _
  rw [Nat.one_mul]

/-- Entry `k` of the rows an index list names is the list's `k`-th word in row-major order, read unsigned. -/
theorem rows_val {si : Shape} {o z : ℕ} (idx : si.Idx → Elt F .i32) (hn : si.numel = o) (h : ∀ x, (idx x).toNat < z) (k : Fin o) :
    (SparseCore.rows (F := F) idx hn h k).val = (idx (si.rowMajor.symm (k.cast hn.symm))).toNat := rfl

/-- In a one-axis shape the `k`-th index in row-major order has coordinate `k`. -/
theorem rowMajor_symm_one_val {dd : Fin 1 → Nat} (k : Fin (⟨1, dd⟩ : Shape).numel) :
    ((((⟨1, dd⟩ : Shape).rowMajor.symm k) 0 : Fin _) : Nat) = k.val := by
  have := Shape.rowMajor_val_one ((⟨1, dd⟩ : Shape).rowMajor.symm k)
  rw [Equiv.apply_symm_apply] at this
  exact this.symm

/-! ## The round -/

/-- One round of the lookup on one vector subcore, over the two copies' semaphores. -/
def round (i : grid0.Coords) (o1 : Fin 1 → Nat) (h1 : ∀ a, o1 a + S80.size a ≤ S10000.size a)
    (o2 : Fin 2 → Nat) (h2 : ∀ a, o2 a + S80x128.size a ≤ S10000x128.size a) (sA sB : DmaSems sig S_) :
    Prog (TpuEff nD τ sig (Elt F) Λ₀ (.scVector ((i 0).castLE hcore0) ((i 1).castLE hsub0))) PUnit := do
  Prog.lift (.enqueueDma (idxSl o1 h1) (.here sIdx) (.dma sA.sem) (View.wordExact_bits rfl) (Memref.isWhole_whole _).wordExact ⟨Or.inl rfl, trivial⟩)
  Prog.lift (.waitDma2 sA.sem (idxSl o1 h1) sIdx (View.wordExact_bits rfl) (Memref.isWhole_whole _).wordExact)
  SparseCore.enqueueIndirectGather rfl tabSl sRows gathers_S100x128_S80x128 sIdx rfl cc0_scratch2.sem (View.wordExact_bits rfl) rfl (Or.inl rfl)
  SparseCore.waitIndirectGather cc0_scratch2.sem tabSl sRows (View.wordExact_bits rfl) (Memref.isWhole_whole _).wordExact
  Prog.lift (.enqueueDma sRows (.here (outSl o2 h2)) (.dma sB.sem) (Memref.isWhole_whole _).wordExact (View.wordExact_bits rfl) ⟨Or.inl rfl, trivial⟩)
  Prog.lift (.waitDma2 sB.sem sRows (outSl o2 h2) (Memref.isWhole_whole _).wordExact (View.wordExact_bits rfl))
  pure ⟨⟩

/-- The vector subcore at grid point `i` of device `d`. -/
abbrev tile (d : Dev nD) (i : grid0.Coords) : Thread nD τ := V d ((i 0).castLE hcore0) ((i 1).castLE hsub0)

theorem round_wp (d : Dev nD) (i : grid0.Coords) (o1 : Fin 1 → Nat) (h1 : ∀ a, o1 a + S80.size a ≤ S10000.size a)
    (o2 : Fin 2 → Nat) (h2 : ∀ a, o2 a + S80x128.size a ≤ S10000x128.size a) (ho0 : o2 0 = o1 0) (ho1 : o2 1 = 0)
    (sA sB : DmaSems sig S_)
    (O : CellTallies nD τ sig (HIx 1)) (W : Waits sig (HIx 1)) (q : PosShare TreeShare)
    (fi : Buf (Elt F) ((idxW).view.loc (tile d i))) (ft : Buf (Elt F) ((tabW).view.loc (tile d i)))
    (fo : Buf (Elt F) ((outW).view.loc (tile d i)))
    (s0 : Buf (Elt F) ((sIdx).view.loc (tile d i))) (s1 : Buf (Elt F) ((sRows).view.loc (tile d i)))
    (hin : ∀ n : S10000.Idx, (fi n).toNat < 100) :
    (iprop(Transfers.MayWaits (tile d i) (none : HIx 1) O
        ∗ ((idxSl o1 h1).view.loc (tile d i) ↦[(idxSl o1 h1).view.set]{fullShare} fi)
        ∗ ((tabSl).view.loc (tile d i) ↦[(tabSl).view.set]{q} ft)
        ∗ ((outSl o2 h2).view.loc (tile d i) ↦[(outSl o2 h2).view.set]{fullShare} fo)
        ∗ ((sIdx).view.loc (tile d i) ↦{fullShare} s0)
        ∗ ((sRows).view.loc (tile d i) ↦{fullShare} s1)
        ∗ semVal (tile d i, SemLoc.dma sA.sem) 0
        ∗ semVal (tile d i, SemLoc.dma sB.sem) 0
        ∗ semVal (tile d i, SemLoc.dma cc0_scratch2.sem) 0
        ∗ owes (tile d i) O W) : sProp 𝕄)
      ⊢ wp frame (wpE (defs₀ (F := F)) 𝒱₀ (tile d i) none) Set.univ
          (round (F := F) i o1 h1 o2 h2 sA sB) (fun _ => (iprop(
            ((idxSl o1 h1).view.loc (tile d i) ↦[(idxSl o1 h1).view.set]{fullShare} fi)
            ∗ ((tabSl).view.loc (tile d i) ↦[(tabSl).view.set]{q} ft)
            ∗ ((outSl o2 h2).view.loc (tile d i) ↦[(outSl o2 h2).view.set]{fullShare} G ft fi)
            ∗ (∃ s0', (sIdx).view.loc (tile d i) ↦{fullShare} s0')
            ∗ (∃ s1', (sRows).view.loc (tile d i) ↦{fullShare} s1')
            ∗ semVal (tile d i, SemLoc.dma sA.sem) 0
            ∗ semVal (tile d i, SemLoc.dma sB.sem) 0
            ∗ semVal (tile d i, SemLoc.dma cc0_scratch2.sem) 0
            ∗ ∃ W', ⌜∀ p ∈ W', p ∈ W ∨ p.2 = none⌝ ∗ owes (tile d i) O W') : sProp 𝕄)) := by
  iintro ⟨#Hmw, Hi, Ht, Ho, Hs0, Hs1, HA, HB, HC, HO⟩
  unfold round
  sl_exec
  have hin2 : ∀ x, ((sIdx).view.read (Elt F) (View.write (Elt F) sIdx.view s0 (round_wp.sl.dma0 d i o1 h1 fi) Finset.univ) x).toNat < S100x128.size gathers_S100x128_S80x128.axis := by
    intro x
    rw [View.read_write_univ]
    exact hin _
  sl_exec
  sl_step
  have hval : ∀ y ∈ (outSl o2 h2).view.set,
      ((outSl o2 h2).view.writes (Elt F) fo [⟨Rect.whole S80x128, round_wp.sl.dma0_1 d i o1 h1 fi ft s0 s1 hin2⟩]) y = G ft fi y := by
    intro y hy
    obtain ⟨x, -, rfl⟩ := Finset.mem_map.mp hy
    have e1 : (outSl o2 h2).view.emb x = ((outSl o2 h2).view.slice (Rect.whole S80x128)).emb x := by
      simp only [View.emb_slice, Function.Embedding.trans_apply, Rect.emb_whole_apply]
    rw [View.writes_singleton]
    conv_lhs => rw [e1, View.write_emb_of_mem _ _ (Finset.mem_univ _)]
    have e2 : sRows.view.read (Elt F) (sRows.view.writes (Elt F) s1 [⟨Rect.whole S80x128, round_wp.sl.gather0 d i o1 h1 fi ft s0 hin2⟩]) x
        = round_wp.sl.gather0 d i o1 h1 fi ft s0 hin2 x := by
      have := View.read_writes_cons_emb sRows.view s1 (Rect.whole S80x128) (round_wp.sl.gather0 d i o1 h1 fi ft s0 hin2) [] x
      rwa [Rect.emb_whole_apply] at this
    rw [cast_eq]
    rw [show round_wp.sl.dma0_1 d i o1 h1 fi ft s0 s1 hin2 x = round_wp.sl.gather0 d i o1 h1 fi ft s0 hin2 x from e2]
    have e3 : round_wp.sl.gather0 d i o1 h1 fi ft s0 hin2 x
        = ft (tabSl.view.emb (gathers_S100x128_S80x128.idx (SparseCore.rows ((sIdx).view.read (Elt F)
            (View.write (Elt F) sIdx.view s0 (round_wp.sl.dma0 d i o1 h1 fi) Finset.univ)) rfl hin2) x)) := rfl
    rw [e3]
    unfold G
    congr 1
    funext a
    refine Fin.ext ?_
    match a with
    | ⟨0, _⟩ =>
      refine (tab_emb_idx _ x _).trans ?_
      rw [if_pos rfl]
      refine (rows_val _ _ _ _).trans ?_
      refine (congrArg BitVec.toNat (congrFun (View.read_write_univ (v := sIdx.view) s0 (round_wp.sl.dma0 d i o1 h1 fi)) _)).trans ?_
      show BitVec.toNat (fi ((idxSl o1 h1).view.emb (S80.rowMajor.symm _))) = BitVec.toNat (fi (ix1 ((outSl o2 h2).view.emb x 0))) % 100
      rw [Nat.mod_eq_of_lt (hin _)]
      refine congrArg (fun n => BitVec.toNat (fi n)) ?_
      funext b
      refine Fin.ext ?_
      match b with
      | ⟨0, _⟩ =>
        refine (idx_emb_val o1 h1 _ 0).trans ?_
        refine Eq.trans ?_ (out_emb_val o2 h2 x 0).symm
        rw [ho0, rowMajor_symm_one_val]
        rfl
    | ⟨1, _⟩ =>
      refine (tab_emb_idx _ x _).trans ?_
      rw [if_neg (show ¬ ((1 : Nat) = 0) from Nat.one_ne_zero)]
      refine Eq.trans ?_ (out_emb_val o2 h2 x 1).symm
      rw [ho1, Nat.zero_add]
  ihave Hout := (Entails.of_eq (pointsTo_congr (q := fullShare) hval)) $$ Ho
  isplitl [Hi]; · iexact Hi
  isplitl [Ht]; · iexact Ht
  isplitl [Hout]; · iexact Hout
  isplitl [Hs0]; · iexists _; iexact Hs0
  isplitl [Hs1]; · iexists _; iexact Hs1
  isplitl [HA]; · iexact HA
  isplitl [HB]; · iexact HB
  isplitl [HC]; · iexact HC
  iexists _
  isplitr
  rotate_left
  · iexact HO
  · ipureintro
    intro p hp
    simp only [Finset.mem_insert] at hp
    rcases hp with rfl | rfl | rfl | hp
    · exact Or.inr rfl
    · exact Or.inr rfl
    · exact Or.inr rfl
    · exact Or.inl hp

end Cert.Kernel.Run

end
-- ==== Proof.KK.Pay.lean ====
/-
  What the handshakes carry.  A vector subcore's task is handed exactly what it touches: for each of its
  rounds the 80 index entries it reads and the 80 output rows it writes, held outright, and a read share
  of the whole table; it hands back the same with its output rows holding the gather.  A SparseCore's
  operands are its sixteen subcores' tasks' side by side.
-/
import proofs.«206544_g7275674599721_cont_sun_c4_423_43_alg».proof.Proof.KK.Round

noncomputable section

namespace Cert.Kernel.Run

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The rounds' guards: every subcore runs rounds 0, 1 and 2 (its chunk number is below 96) -/

theorem cond1 : ∀ i : grid0.Coords, k0_cond1 i = 1#1 := by decide +kernel
theorem cond2 : ∀ i : grid0.Coords, k0_cond2 i = 1#1 := by decide +kernel
theorem cond3 : ∀ i : grid0.Coords, k0_cond3 i = 1#1 := by decide +kernel

/-! ## The arrays as the TensorCore names them -/

abbrev idxLoc (d : Dev nD) : Loc nD τ sig := (SparseCore.T d).loc main_v1
abbrev tabLoc (d : Dev nD) : Loc nD τ sig := (SparseCore.T d).loc main_arg2
abbrev outLoc (d : Dev nD) : Loc nD τ sig := (SparseCore.T d).loc main_v2

/-- A subcore's read share of the table: the full share cut in two for the SparseCores, each half in sixteen. -/
def tabShare (L : grid0.Coords) : PosShare TreeShare :=
  pieceOf (pieceOf fullShare 2 (by decide) ⟨(L 0).val, (L 0).isLt⟩) 16 (by decide) ⟨(L 1).val, (L 1).isLt⟩

/-- One round's pieces: 80 index entries and 80 output rows, held outright. -/
def roundRes (d : Dev nD) (L : grid0.Coords) (o1 : Fin 1 → Nat) (h1 : ∀ a, o1 a + S80.size a ≤ S10000.size a)
    (o2 : Fin 2 → Nat) (h2 : ∀ a, o2 a + S80x128.size a ≤ S10000x128.size a)
    (fi : Buf (Elt F) (idxLoc d)) (fo : Buf (Elt F) (outLoc d)) : sProp 𝕄 :=
  iprop(((idxSl o1 h1).view.loc (tile d L) ↦[(idxSl o1 h1).view.set]{fullShare} fi)
    ∗ ((outSl o2 h2).view.loc (tile d L) ↦[(outSl o2 h2).view.set]{fullShare} fo))

/-- What the subcore at grid point `L` holds for its task, its output rows at `fo r` in round `r`. -/
def tileRes (d : Dev nD) (L : grid0.Coords) (fi : Buf (Elt F) (idxLoc d)) (ft : Buf (Elt F) (tabLoc d))
    (fo : Fin 4 → Buf (Elt F) (outLoc d)) : sProp 𝕄 :=
  iprop(((tabSl).view.loc (tile d L) ↦[(tabSl).view.set]{tabShare L} ft)
    ∗ roundRes d L (k0_off1 L) (k0_off1_inb L (cond1 L)) (k0_off2 L) (k0_off2_inb L (cond1 L)) fi (fo 0)
    ∗ roundRes d L (k0_off3 L) (k0_off3_inb L (cond2 L)) (k0_off4 L) (k0_off4_inb L (cond2 L)) fi (fo 1)
    ∗ roundRes d L (k0_off5 L) (k0_off5_inb L (cond3 L)) (k0_off6 L) (k0_off6_inb L (cond3 L)) fi (fo 2)
    ∗ (if h : k0_cond4 L = 1#1 then roundRes d L (k0_off7 L) (k0_off7_inb L h) (k0_off8 L) (k0_off8_inb L h) fi (fo 3) else iprop(emp)))

/-- Before the task: the output rows at whatever they hold. -/
def tileGo (d : Dev nD) (L : grid0.Coords) (fi : Buf (Elt F) (idxLoc d)) (ft : Buf (Elt F) (tabLoc d)) : sProp 𝕄 :=
  iprop(∃ fo, tileRes d L fi ft fo)
/-- After it: the output rows at the gather. -/
def tileTd (d : Dev nD) (L : grid0.Coords) (fi : Buf (Elt F) (idxLoc d)) (ft : Buf (Elt F) (tabLoc d)) : sProp 𝕄 :=
  tileRes d L fi ft (fun _ => G ft fi)

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem nCore_eq (q : Fin 1) : (K (F := F)).nCore q = grid0.bound 0 := by
  match q with
  | ⟨0, _⟩ => rfl
theorem nSub_eq (q : Fin 1) : (K (F := F)).nSub q = grid0.bound 1 := by
  match q with
  | ⟨0, _⟩ => rfl

/-- The grid point of task `s` of SparseCore `c` of the call. -/
def coordsQ (q : Fin 1) (c : Fin ((K (F := F)).nCore q)) (s : Fin ((K (F := F)).nSub q)) : grid0.Coords :=
  coordsV (c.cast (nCore_eq q)) (s.cast (nSub_eq q))

/-- The handshakes' payloads: per task the subcore's pieces; per SparseCore its sixteen tasks'. Here `fi` is the
    index array when the call is made and `ft` the table, both functions of the launch memory alone. -/
def P (fi : (d : Dev nD) → Buf (Elt F) (idxLoc d)) (ft : (d : Dev nD) → Buf (Elt F) (tabLoc d)) :
    (K (F := F)).Pay (nD := nD) (Val := Elt F) (Name := ℕ) (U := UU) where
  st := fun q d c => bigSep Finset.univ fun s : Fin ((K (F := F)).nSub q) => tileGo d (coordsQ q c s) (fi d) (ft d)
  dn := fun q d c => bigSep Finset.univ fun s : Fin ((K (F := F)).nSub q) => tileTd d (coordsQ q c s) (fi d) (ft d)
  go := fun q d c s => tileGo d (coordsQ q c s) (fi d) (ft d)
  td := fun q d c s => tileTd d (coordsQ q c s) (fi d) (ft d)
  x := fun _ _ => iprop(emp)

instance roundRes_storable (d : Dev nD) (L : grid0.Coords) (o1 : Fin 1 → Nat) (h1 : ∀ a, o1 a + S80.size a ≤ S10000.size a)
    (o2 : Fin 2 → Nat) (h2 : ∀ a, o2 a + S80x128.size a ≤ S10000x128.size a)
    (fi : Buf (Elt F) (idxLoc d)) (fo : Buf (Elt F) (outLoc d)) :
    BI.Storable (upEmb : UEmb _ 𝕄) (roundRes d L o1 h1 o2 h2 fi fo) := by
  unfold roundRes; infer_instance

instance tileRes_storable (d : Dev nD) (L : grid0.Coords) (fi : Buf (Elt F) (idxLoc d)) (ft : Buf (Elt F) (tabLoc d))
    (fo : Fin 4 → Buf (Elt F) (outLoc d)) : BI.Storable (upEmb : UEmb _ 𝕄) (tileRes d L fi ft fo) := by
  unfold tileRes
  split <;> infer_instance

instance tileGo_storable (d : Dev nD) (L : grid0.Coords) (fi : Buf (Elt F) (idxLoc d)) (ft : Buf (Elt F) (tabLoc d)) :
    BI.Storable (upEmb : UEmb _ 𝕄) (tileGo d L fi ft) := by
  unfold tileGo; infer_instance

instance tileTd_storable (d : Dev nD) (L : grid0.Coords) (fi : Buf (Elt F) (idxLoc d)) (ft : Buf (Elt F) (tabLoc d)) :
    BI.Storable (upEmb : UEmb _ 𝕄) (tileTd d L fi ft) := by
  unfold tileTd; infer_instance

instance P_storable (fi : (d : Dev nD) → Buf (Elt F) (idxLoc d)) (ft : (d : Dev nD) → Buf (Elt F) (tabLoc d)) :
    (P (F := F) fi ft).IsStorable where
  st _ d c := by unfold P; infer_instance
  dn _ d c := by unfold P; infer_instance
  go _ _ _ _ := by unfold P; infer_instance
  td _ _ _ _ := by unfold P; infer_instance

end Cert.Kernel.Run

end
-- ==== Proof.KK.Tile.lean ====
/-
  One vector subcore's task: its (up to) four rounds, run from the pieces its task is handed, leave its
  output rows holding the gather and everything else as it was.
-/
import proofs.«206544_g7275674599721_cont_sun_c4_423_43_alg».proof.Proof.KK.Pay

noncomputable section

namespace Cert.Kernel.Run

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The printed body is four guarded rounds -/

set_option maxRecDepth 65536 in
theorem body_eq (L : grid0.Coords) :
    cc0__sc_gather (F := F) L idxW (Memref.isWhole_whole _) tabW (Memref.isWhole_whole _) outW (Memref.isWhole_whole _)
        sIdx (Memref.isWhole_whole _) sRows (Memref.isWhole_whole _) cc0_scratch2
        cc0_scoped0 cc0_scoped1 cc0_scoped2 cc0_scoped3 cc0_scoped4 cc0_scoped5 cc0_scoped6 cc0_scoped7
      = (do
          if h : k0_cond1 L = 1#1 then
            round L (k0_off1 L) (k0_off1_inb L h) (k0_off2 L) (k0_off2_inb L h) cc0_scoped0 cc0_scoped1
          else
            pure ⟨⟩
          if h : k0_cond2 L = 1#1 then
            round L (k0_off3 L) (k0_off3_inb L h) (k0_off4 L) (k0_off4_inb L h) cc0_scoped2 cc0_scoped3
          else
            pure ⟨⟩
          if h : k0_cond3 L = 1#1 then
            round L (k0_off5 L) (k0_off5_inb L h) (k0_off6 L) (k0_off6_inb L h) cc0_scoped4 cc0_scoped5
          else
            pure ⟨⟩
          if h : k0_cond4 L = 1#1 then
            round L (k0_off7 L) (k0_off7_inb L h) (k0_off8 L) (k0_off8_inb L h) cc0_scoped6 cc0_scoped7
          else
            pure ⟨⟩
          pure ⟨⟩) := by
  rw [cc0__sc_gather_eq_skeleton]
  rfl

/-! ## A family over a finite set, along a list of its members -/

omit [FloatOps F] in
/-- A family over a finite set splits along any duplicate-free list of its members: those, one by one, and the rest. -/
theorem bigSep_along {I : Type} [DecidableEq I] (s : Finset I) (l : List I) (hl : l.Nodup) (hs : ∀ x ∈ l, x ∈ s) (Φ : I → sProp 𝕄) :
    bigSep s Φ = iprop(bigSepL l Φ ∗ bigSep (s \ l.toFinset) Φ) := by
  rw [SparseCore.bigSep_sdiff_split' (t := l.toFinset) (fun x hx => hs x (List.mem_toFinset.mp hx)), bigSep_eq_bigSepL l hl]

/-! ## The subcore's own storage: nine transfer semaphores and two scratch buffers, and the rest -/

/-- The transfer semaphores the body names: the gather's, then each round's two copies'. -/
def semList : List (DmaSem sig) :=
  [cc0_scratch2.sem, cc0_scoped0.sem, cc0_scoped1.sem, cc0_scoped2.sem, cc0_scoped3.sem, cc0_scoped4.sem, cc0_scoped5.sem,
    cc0_scoped6.sem, cc0_scoped7.sem]

theorem semList_nodup : semList.Nodup := by decide
theorem semList_scoped : ∀ x ∈ semList, (SemLoc.dma x : SemLoc sig).isScoped .scVector = true := by decide

/-- The cell of transfer semaphore `x` on a thread. -/
abbrev cellOn (thr : Thread nD τ) (x : DmaSem sig) : GSem nD τ sig := (thr, SemLoc.dma x)

omit [FloatOps F] in
theorem ownSems0_tile (d : Dev nD) (L : grid0.Coords) :
    (ownSems0 (tile d L) : sProp 𝕄)
      = iprop((semVal (tile d L, SemLoc.dma cc0_scratch2.sem) 0
            ∗ semVal (tile d L, SemLoc.dma cc0_scoped0.sem) 0 ∗ semVal (tile d L, SemLoc.dma cc0_scoped1.sem) 0
            ∗ semVal (tile d L, SemLoc.dma cc0_scoped2.sem) 0 ∗ semVal (tile d L, SemLoc.dma cc0_scoped3.sem) 0
            ∗ semVal (tile d L, SemLoc.dma cc0_scoped4.sem) 0 ∗ semVal (tile d L, SemLoc.dma cc0_scoped5.sem) 0
            ∗ semVal (tile d L, SemLoc.dma cc0_scoped6.sem) 0 ∗ semVal (tile d L, SemLoc.dma cc0_scoped7.sem) 0)
          ∗ bigSep (ownCells (tile d L) \ (semList.map (cellOn (tile d L))).toFinset) fun g => semVal g 0) := by
  unfold SparseCore.Cfg.ownSems0
  have hnd : (semList.map (cellOn (tile d L))).Nodup := semList_nodup.map (fun a b e => by cases e; rfl)
  have hmem : ∀ x ∈ semList.map (cellOn (tile d L)), x ∈ ownCells (tile d L) := fun x hx => by
    obtain ⟨y, hy, rfl⟩ := List.mem_map.mp hx
    exact mem_ownCells.mpr ⟨rfl, semList_scoped y hy⟩
  refine (bigSep_along (ownCells (tile d L)) (semList.map (cellOn (tile d L))) hnd hmem (fun g => semVal g 0)).trans ?_
  congr 1

/-- The two scratch buffers, as references of the subcore's processor. -/
abbrev bufList (L : grid0.Coords) : List (DevRef τ sig) :=
  [(Proc.scVector ((L 0).castLE hcore0) ((L 1).castLE hsub0)).devRef cc0_scratch0,
   (Proc.scVector ((L 0).castLE hcore0) ((L 1).castLE hsub0)).devRef cc0_scratch1]

omit [FloatOps F] in
theorem ownBufs_tile (d : Dev nD) (L : grid0.Coords) :
    (ownBufs (tile d L) : sProp 𝕄)
      = iprop(((∃ f, (tile d L).loc cc0_scratch0 ↦{fullShare} f) ∗ (∃ f, (tile d L).loc cc0_scratch1 ↦{fullShare} f))
          ∗ bigSep (ownRefs (τ := τ) (.scVector ((L 0).castLE hcore0) ((L 1).castLE hsub0)) \ (bufList L).toFinset)
              fun b => iprop(∃ f, ((d, b) : Loc nD τ sig) ↦{fullShare} f)) := by
  unfold SparseCore.Cfg.ownBufs
  have hnd : (bufList L).Nodup :=
    List.nodup_cons.mpr ⟨fun h => absurd (Proc.devRef_injective _ (List.mem_singleton.mp h))
      (show (cc0_scratch0 : Ref sig .scVector) ≠ cc0_scratch1 by decide), List.nodup_singleton _⟩
  have hmem : ∀ x ∈ bufList L, x ∈ ownRefs (τ := τ) (.scVector ((L 0).castLE hcore0) ((L 1).castLE hsub0)) := fun x hx => by
    rcases List.mem_cons.mp hx with rfl | hx
    · exact SparseCore.Cfg.mem_ownRefs_of_owner rfl
    · obtain rfl := List.mem_singleton.mp hx
      exact SparseCore.Cfg.mem_ownRefs_of_owner rfl
  refine (bigSep_along (ownRefs (τ := τ) (.scVector ((L 0).castLE hcore0) ((L 1).castLE hsub0))) (bufList L) hnd hmem
    (fun b => iprop(∃ f, ((d, b) : Loc nD τ sig) ↦{fullShare} f))).trans ?_
  congr 1

/-! ## The task -/

theorem tile_body (hF : (K (F := F)).Facts) (d : Dev nD) (L : grid0.Coords)
    (fi : Buf (Elt F) (idxLoc d)) (ft : Buf (Elt F) (tabLoc d)) (hin : ∀ n : S10000.Idx, (fi n).toNat < 100)
    (O : CellTallies nD τ sig (HIx 1)) (W : Waits sig (HIx 1)) (hO : ∀ g, O g none = 0) :
    (iprop(levAts (K (F := F)).L (K (F := F)).lev ∗ emp ∗ tileGo d L fi ft
        ∗ scopedBufs (tile d L) ∗ scopedSems0 (tile d L) ∗ owes (tile d L) O W) : sProp 𝕄)
      ⊢ wp frame (wpE (defs₀ (F := F)) 𝒱₀ (tile d L) none) Set.univ
          (cc0__sc_gather (F := F) L idxW (Memref.isWhole_whole _) tabW (Memref.isWhole_whole _) outW (Memref.isWhole_whole _)
            sIdx (Memref.isWhole_whole _) sRows (Memref.isWhole_whole _) cc0_scratch2
            cc0_scoped0 cc0_scoped1 cc0_scoped2 cc0_scoped3 cc0_scoped4 cc0_scoped5 cc0_scoped6 cc0_scoped7)
          fun _ => iprop(tileTd d L fi ft ∗ scopedBufs (tile d L) ∗ scopedSems0 (tile d L)
            ∗ ∃ W', ⌜∀ p ∈ W', p ∈ W ∨ p.2 = none⌝ ∗ owes (tile d L) O W') := by
  rw [body_eq]
  rw [(K (F := F)).scopedBufs_V hF d _ _, SparseCore.Cfg.scopedSems0_V (Val := Elt F) d _ _, ownSems0_tile, ownBufs_tile]
  unfold tileGo tileTd tileRes
  unfold roundRes
  iintro ⟨#Hlv, -, ⟨%fo, Htab, ⟨Hi0, Ho0⟩, ⟨Hi1, Ho1⟩, ⟨Hi2, Ho2⟩, Hr3⟩, ⟨⟨⟨%s0, Hs0⟩, ⟨%s1, Hs1⟩⟩, Hbrest⟩,
    ⟨⟨HC, HA0, HB0, HA1, HB1, HA2, HB2, HA3, HB3⟩, Hsrest⟩, HO⟩
  ihave Hmw := ((K (F := F)).mayWaits_none (thr := tile d L) hO) $$ Hlv
  simp only [dif_pos (cond1 L), dif_pos (cond2 L), dif_pos (cond3 L), wp_bind]
  -- round 0
  iapply (wp_wand_r frame _ Set.univ)
  isplitl [Hi0 Htab Ho0 Hs0 Hs1 HA0 HB0 HC HO]
  · iapply (round_wp d L (k0_off1 L) (k0_off1_inb L (cond1 L)) (k0_off2 L) (k0_off2_inb L (cond1 L))
        (by rw [k0_off2_eq, k0_off1_eq]; rfl) (by rw [k0_off2_eq]; rfl) cc0_scoped0 cc0_scoped1 O W (tabShare L) fi ft (fo 0) _ _ hin)
    isplitr; · iexact Hmw
    isplitl [Hi0]; · iexact Hi0
    isplitl [Htab]; · iexact Htab
    isplitl [Ho0]; · iexact Ho0
    isplitl [Hs0]; · iexact Hs0
    isplitl [Hs1]; · iexact Hs1
    isplitl [HA0]; · iexact HA0
    isplitl [HB0]; · iexact HB0
    isplitl [HC]; · iexact HC
    iexact HO
  iintro %_ ⟨Hi0, Htab, Ho0, ⟨%s0_0, Hs0⟩, ⟨%s1_0, Hs1⟩, HA0, HB0, HC, %W0, %hW0, HO⟩
  -- round 1
  iapply (wp_wand_r frame _ Set.univ)
  isplitl [Hi1 Htab Ho1 Hs0 Hs1 HA1 HB1 HC HO]
  · iapply (round_wp d L (k0_off3 L) (k0_off3_inb L (cond2 L)) (k0_off4 L) (k0_off4_inb L (cond2 L))
        (by rw [k0_off4_eq, k0_off3_eq]; rfl) (by rw [k0_off4_eq]; rfl) cc0_scoped2 cc0_scoped3 O W0 (tabShare L) fi ft (fo 1) _ _ hin)
    isplitr; · iexact Hmw
    isplitl [Hi1]; · iexact Hi1
    isplitl [Htab]; · iexact Htab
    isplitl [Ho1]; · iexact Ho1
    isplitl [Hs0]; · iexact Hs0
    isplitl [Hs1]; · iexact Hs1
    isplitl [HA1]; · iexact HA1
    isplitl [HB1]; · iexact HB1
    isplitl [HC]; · iexact HC
    iexact HO
  iintro %_ ⟨Hi1, Htab, Ho1, ⟨%s0_1, Hs0⟩, ⟨%s1_1, Hs1⟩, HA1, HB1, HC, %W1, %hW1, HO⟩
  -- round 2
  iapply (wp_wand_r frame _ Set.univ)
  isplitl [Hi2 Htab Ho2 Hs0 Hs1 HA2 HB2 HC HO]
  · iapply (round_wp d L (k0_off5 L) (k0_off5_inb L (cond3 L)) (k0_off6 L) (k0_off6_inb L (cond3 L))
        (by rw [k0_off6_eq, k0_off5_eq]; rfl) (by rw [k0_off6_eq]; rfl) cc0_scoped4 cc0_scoped5 O W1 (tabShare L) fi ft (fo 2) _ _ hin)
    isplitr; · iexact Hmw
    isplitl [Hi2]; · iexact Hi2
    isplitl [Htab]; · iexact Htab
    isplitl [Ho2]; · iexact Ho2
    isplitl [Hs0]; · iexact Hs0
    isplitl [Hs1]; · iexact Hs1
    isplitl [HA2]; · iexact HA2
    isplitl [HB2]; · iexact HB2
    isplitl [HC]; · iexact HC
    iexact HO
  iintro %_ ⟨Hi2, Htab, Ho2, ⟨%s0_2, Hs0⟩, ⟨%s1_2, Hs1⟩, HA2, HB2, HC, %W2, %hW2, HO⟩
  by_cases h4 : k0_cond4 L = 1#1
  · simp only [dif_pos h4, wp_bind]
    icases Hr3 with ⟨Hi3, Ho3⟩
    iapply (wp_wand_r frame _ Set.univ)
    isplitl [Hi3 Htab Ho3 Hs0 Hs1 HA3 HB3 HC HO]
    · iapply (round_wp d L (k0_off7 L) (k0_off7_inb L h4) (k0_off8 L) (k0_off8_inb L h4)
          (by rw [k0_off8_eq, k0_off7_eq]; rfl) (by rw [k0_off8_eq]; rfl) cc0_scoped6 cc0_scoped7 O W2 (tabShare L) fi ft (fo 3) _ _ hin)
      isplitr; · iexact Hmw
      isplitl [Hi3]; · iexact Hi3
      isplitl [Htab]; · iexact Htab
      isplitl [Ho3]; · iexact Ho3
      isplitl [Hs0]; · iexact Hs0
      isplitl [Hs1]; · iexact Hs1
      isplitl [HA3]; · iexact HA3
      isplitl [HB3]; · iexact HB3
      isplitl [HC]; · iexact HC
      iexact HO
    iintro %_ ⟨Hi3, Htab, Ho3, ⟨%s0_3, Hs0⟩, ⟨%s1_3, Hs1⟩, HA3, HB3, HC, %W3, %hW3, HO⟩
    rw [wp_pure]
    imodintro
    isplitl [Htab Hi0 Ho0 Hi1 Ho1 Hi2 Ho2 Hi3 Ho3]
    · isplitl [Htab]; · iexact Htab
      isplitl [Hi0 Ho0]; · isplitl [Hi0] <;> iassumption
      isplitl [Hi1 Ho1]; · isplitl [Hi1] <;> iassumption
      isplitl [Hi2 Ho2]; · isplitl [Hi2] <;> iassumption
      isplitl [Hi3] <;> iassumption
    isplitl [Hs0 Hs1 Hbrest]
    · isplitr [Hbrest]
      · isplitl [Hs0]
        · iexists _; iexact Hs0
        · iexists _; iexact Hs1
      · iexact Hbrest
    isplitl [HC HA0 HB0 HA1 HB1 HA2 HB2 HA3 HB3 Hsrest]
    · isplitr [Hsrest]
      · isplitl [HC]; · iexact HC
        isplitl [HA0]; · iexact HA0
        isplitl [HB0]; · iexact HB0
        isplitl [HA1]; · iexact HA1
        isplitl [HB1]; · iexact HB1
        isplitl [HA2]; · iexact HA2
        isplitl [HB2]; · iexact HB2
        isplitl [HA3]; · iexact HA3
        iexact HB3
      · iexact Hsrest
    iexists W3
    isplitr
    · ipureintro
      intro p hp
      rcases hW3 p hp with h | h
      · rcases hW2 p h with h | h
        · rcases hW1 p h with h | h
          · exact hW0 p h
          · exact Or.inr h
        · exact Or.inr h
      · exact Or.inr h
    · iexact HO
  · simp only [dif_neg h4]
    rw [wp_pure]
    imodintro
    isplitl [Htab Hi0 Ho0 Hi1 Ho1 Hi2 Ho2]
    · isplitl [Htab]; · iexact Htab
      isplitl [Hi0 Ho0]; · isplitl [Hi0] <;> iassumption
      isplitl [Hi1 Ho1]; · isplitl [Hi1] <;> iassumption
      isplitl [Hi2 Ho2]; · isplitl [Hi2] <;> iassumption
      iempintro
    isplitl [Hs0 Hs1 Hbrest]
    · isplitr [Hbrest]
      · isplitl [Hs0]
        · iexists _; iexact Hs0
        · iexists _; iexact Hs1
      · iexact Hbrest
    isplitl [HC HA0 HB0 HA1 HB1 HA2 HB2 HA3 HB3 Hsrest]
    · isplitr [Hsrest]
      · isplitl [HC]; · iexact HC
        isplitl [HA0]; · iexact HA0
        isplitl [HB0]; · iexact HB0
        isplitl [HA1]; · iexact HA1
        isplitl [HB1]; · iexact HB1
        isplitl [HA2]; · iexact HA2
        isplitl [HB2]; · iexact HB2
        isplitl [HA3]; · iexact HA3
        iexact HB3
      · iexact Hsrest
    iexists W2
    isplitr
    · ipureintro
      intro p hp
      rcases hW2 p hp with h | h
      · rcases hW1 p h with h | h
        · exact hW0 p h
        · exact Or.inr h
      · exact Or.inr h
    · iexact HO

end Cert.Kernel.Run

end
-- ==== Proof.ProjBodyK.lean ====
/-
  The projection kernel's body, run once on whole staging buffers.

  The body reads a block x of 16000 rows of the radial basis, the whole 16 × 384 weight matrix w and the whole 1 × 384
  bias b, and fills three output buffers of 16000 × 128: output j (j = 0, 1, 2) receives, by ONE store of the whole
  buffer, x times the band of 128 columns of w that starts at column 128 j, plus that band of b on every row. Before
  each store it also reads the output buffer and drops what it read. So after the body each input buffer is as it
  was, and each output buffer holds a function of the three input buffers alone, whatever it held before: the
  payload of its one store, laid over the whole buffer.
-/
import proofs.«206544_g7275674599721_cont_sun_c4_423_43_alg».proof.Proof.Gen.Kernel.Launch
import proofs.«206544_g7275674599721_cont_sun_c4_423_43_alg».proof.Proof.Gen.Kernel.Skeleton
import proofs.«206544_g7275674599721_cont_sun_c4_423_43_alg».proof.Proof.Gen.Kernel.Points
import Idealize.ShloMosaic.Lib.Pipeline.FrameBody
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body reads and writes through -/

/-- The whole block of the radial basis. -/
abbrev rX : Rect S16000x16 := Rect.unit (s := S16000x16) ![0, 0] S16000x16.size inb_S16000x16_S16000x16_0_0
/-- The three bands of 128 columns of the weights, -/
abbrev rW0 : Rect S16x384 := Rect.unit (s := S16x384) ![0, 0] S16x128.size inb_S16x384_S16x128_0_0
abbrev rW1 : Rect S16x384 := Rect.unit (s := S16x384) ![0, 128] S16x128.size inb_S16x384_S16x128_0_128
abbrev rW2 : Rect S16x384 := Rect.unit (s := S16x384) ![0, 256] S16x128.size inb_S16x384_S16x128_0_256
/-- and of the bias. -/
abbrev rB0 : Rect S1x384 := Rect.unit (s := S1x384) ![0, 0] S1x128.size inb_S1x384_S1x128_0_0
abbrev rB1 : Rect S1x384 := Rect.unit (s := S1x384) ![0, 128] S1x128.size inb_S1x384_S1x128_0_128
abbrev rB2 : Rect S1x384 := Rect.unit (s := S1x384) ![0, 256] S1x128.size inb_S1x384_S1x128_0_256
/-- A whole output buffer. -/
abbrev rO : Rect S16000x128 := Rect.unit (s := S16000x128) ![0, 0] S16000x128.size inb_S16000x128_S16000x128_0_0

/-! ## What the body leaves in each output buffer -/

/-- Output 0 after the body: x times the first band of w, plus the first band of b. -/
def out3 (x : Vec F S16000x16 .bf16) (w : Vec F S16x384 .bf16) (b : Vec F S1x384 .f32) : Vec F S16000x128 .f32 :=
  View.canon [⟨rO, k1_pay2 (View.ld x rX) (View.ld w rW0) (View.ld b rB0)⟩]
/-- Output 1: the second bands. -/
def out4 (x : Vec F S16000x16 .bf16) (w : Vec F S16x384 .bf16) (b : Vec F S1x384 .f32) : Vec F S16000x128 .f32 :=
  View.canon [⟨rO, k1_pay3 (View.ld x rX) (View.ld w rW1) (View.ld b rB1)⟩]
/-- Output 2: the third bands. -/
def out5 (x : Vec F S16000x16 .bf16) (w : Vec F S16x384 .bf16) (b : Vec F S1x384 .f32) : Vec F S16000x128 .f32 :=
  View.canon [⟨rO, k1_pay4 (View.ld x rX) (View.ld w rW2) (View.ld b rB2)⟩]

/-- The one store of an output covers its buffer. -/
theorem coverO (p0 : Vec F S16000x128 .f32) (y : S16000x128.Idx) :
    ∃ pc ∈ ([⟨rO, p0⟩] : List (View.Piece (Elt F) S16000x128 .f32)), y ∈ pc.1.set :=
  View.cover_of_tiled [⟨rO, p0⟩] S16000x128.size (by rfl) y

/-! ## The body's triple -/

set_option maxHeartbeats 1000000 in
/-- The body on whole staging buffers: the inputs' at contents x, w, b and the outputs' at anything. It runs to the
    continuation with the inputs' as they were and output j's at `out(3+j) x w b`. -/
theorem sound_kernel (𝒱₀ : Variants) (c : Dev nD) (E : Set Name) (i : grid1.Coords)
    (arg1 : Memref sig .tc .vmem S16000x16 .bf16) (harg1 : arg1.IsWhole)
    (arg2 : Memref sig .tc .vmem S16x384 .bf16) (harg2 : arg2.IsWhole)
    (arg3 : Memref sig .tc .vmem S1x384 .f32) (harg3 : arg3.IsWhole)
    (arg4 : Memref sig .tc .vmem S16000x128 .f32) (harg4 : arg4.IsWhole)
    (arg5 : Memref sig .tc .vmem S16000x128 .f32) (harg5 : arg5.IsWhole)
    (arg6 : Memref sig .tc .vmem S16000x128 .f32) (harg6 : arg6.IsWhole)
    (x : Vec F S16000x16 .bf16) (w : Vec F S16x384 .bf16) (b : Vec F S1x384 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (out3 x w b) ∗ owns (c : Thread nD τ) arg5 fullShare (out4 x w b)
            ∗ owns (c : Thread nD τ) arg6 fullShare (out5 x w b)) -∗ K ⟨⟩))
      ⊢ wp frame (wpE (defs₀ (F := F)) 𝒱₀ c none) E (cc1__proj_kernel i arg1 harg1 arg2 harg2 arg3 harg3 arg4 harg4 arg5 harg5 arg6 harg6) K := by
  simp only [cc1__proj_kernel_eq_skeleton]; unfold cc1__proj_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  isplitl [H5]
  · iexists _; isplitr
    swap; · iexact H5
    ipureintro
    exact View.read_writes_eq_canon _ _ _ (coverO _)
  iexists _; isplitr
  swap; · iexact H6
  ipureintro
  exact View.read_writes_eq_canon _ _ _ (coverO _)

/-! ## The windows' blocks, and the proof data -/

section Data

variable (c : Dev nD) (V : (b : Ref sig .tc) → Buf (Elt F) ((c : Thread nD τ).loc b))

/-- Window w's block at grid point t, read off its array as the region finds it. For the radial basis this is the
    t-th run of 16000 rows; the weights and the bias are one block each, the same at every point. -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-- The proof data of the projection pipeline on core c. The arrays are as the region finds them (V). After the body
    at point t every input buffer still holds its block, and output j's buffer holds `out(3+j)` of the three input
    blocks. Between points the body keeps nothing of its own: the invariant is the scoped buffers that stage no
    window (there are none). The core owes nothing; the pairs its waits have recorded before the region lie in B. -/
def dats (B : Set (SemLoc sig × Ix)) : Dat τ (Elt F) Ix Name U Lvl cfg1 c where
  A w := V (Pipeline.arrRef spec1 w)
  after w t := match w with
    | ⟨0, _⟩ => iblk c V 0 t
    | ⟨1, _⟩ => iblk c V 1 t
    | ⟨2, _⟩ => iblk c V 2 t
    | ⟨3, _⟩ => out3 (iblk c V 0 t) (iblk c V 1 t) (iblk c V 2 t)
    | ⟨4, _⟩ => out4 (iblk c V 0 t) (iblk c V 1 t) (iblk c V 2 t)
    | ⟨5, _⟩ => out5 (iblk c V 0 t) (iblk c V 1 t) (iblk c V 2 t)
  Φ _ := Pipeline.scopedRest (Ix := Ix) (Name := Name) (U := U) (Lvl := Lvl) (Val := Elt F) spec1 c
  q _ := fullShare
  owed _ := 0
  recorded _ := B

variable (B : Set (SemLoc sig × Ix))

local notation "𝔡" => dats (Name := Name) (U := U) (Lvl := Lvl) c V B

/-- The proof data's arrays are the region-entry contents. -/
theorem A_eq (w : Fin cfg1.W) : (dats (Name := Name) (U := U) (Lvl := Lvl) c V B).A w = V (Pipeline.arrRef spec1 w) := by
  dsimp only [dats]

/-- What the body leaves, window by window. -/
theorem after0 (t : Fin cfg1.N) : (dats (Name := Name) (U := U) (Lvl := Lvl) c V B).after 0 t = iblk c V 0 t := by dsimp only [dats]
theorem after1 (t : Fin cfg1.N) : (dats (Name := Name) (U := U) (Lvl := Lvl) c V B).after 1 t = iblk c V 1 t := by dsimp only [dats]
theorem after2 (t : Fin cfg1.N) : (dats (Name := Name) (U := U) (Lvl := Lvl) c V B).after 2 t = iblk c V 2 t := by dsimp only [dats]
theorem after3 (t : Fin cfg1.N) : (dats (Name := Name) (U := U) (Lvl := Lvl) c V B).after 3 t = out3 (iblk c V 0 t) (iblk c V 1 t) (iblk c V 2 t) := by dsimp only [dats]
theorem after4 (t : Fin cfg1.N) : (dats (Name := Name) (U := U) (Lvl := Lvl) c V B).after 4 t = out4 (iblk c V 0 t) (iblk c V 1 t) (iblk c V 2 t) := by dsimp only [dats]
theorem after5 (t : Fin cfg1.N) : (dats (Name := Name) (U := U) (Lvl := Lvl) c V B).after 5 t = out5 (iblk c V 0 t) (iblk c V 1 t) (iblk c V 2 t) := by dsimp only [dats]

/-- An input's current staging buffer holds its block when the body runs, fetched at this point or not: the body
    leaves the block in place, and a window not fetched at a point has not moved since the point before. -/
theorem before0 (t : Fin cfg1.N) (d) : (dats (Name := Name) (U := U) (Lvl := Lvl) c V B).before 0 t d = iblk c V 0 t :=
  ((dats c V B).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (t : Fin cfg1.N) (d) : (dats (Name := Name) (U := U) (Lvl := Lvl) c V B).before 1 t d = iblk c V 1 t :=
  ((dats c V B).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (t : Fin cfg1.N) (d) : (dats (Name := Name) (U := U) (Lvl := Lvl) c V B).before 2 t d = iblk c V 2 t :=
  ((dats c V B).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-! ## The body obligation -/

variable (𝒱₀ : Variants) (ι : Ix)

/-- What the body is called with at point t, the windows one by one, -/
def bodyPre (t : Fin cfg1.N) : sProp 𝕄 :=
  iprop((𝔡).Φ t.castSucc ∗ (𝔡).owesAt ι t.castSucc
    ∗ (∃ d, owns (c : Thread nD τ) (st1_0 t) fullShare ((𝔡).before 0 t d))
    ∗ (∃ d, owns (c : Thread nD τ) (st1_1 t) fullShare ((𝔡).before 1 t d))
    ∗ (∃ d, owns (c : Thread nD τ) (st1_2 t) fullShare ((𝔡).before 2 t d))
    ∗ (∃ d, owns (c : Thread nD τ) (st1_3 t) fullShare ((𝔡).before 3 t d))
    ∗ (∃ d, owns (c : Thread nD τ) (st1_4 t) fullShare ((𝔡).before 4 t d))
    ∗ (∃ d, owns (c : Thread nD τ) (st1_5 t) fullShare ((𝔡).before 5 t d)))

/-- and what it returns. -/
def bodyPost (t : Fin cfg1.N) : sProp 𝕄 :=
  iprop((𝔡).Φ t.succ ∗ (𝔡).owesAt ι t.succ
    ∗ owns (c : Thread nD τ) (st1_0 t) fullShare ((𝔡).after 0 t)
    ∗ owns (c : Thread nD τ) (st1_1 t) fullShare ((𝔡).after 1 t)
    ∗ owns (c : Thread nD τ) (st1_2 t) fullShare ((𝔡).after 2 t)
    ∗ owns (c : Thread nD τ) (st1_3 t) fullShare ((𝔡).after 3 t)
    ∗ owns (c : Thread nD τ) (st1_4 t) fullShare ((𝔡).after 4 t)
    ∗ owns (c : Thread nD τ) (st1_5 t) fullShare ((𝔡).after 5 t))

/-- The body at any point: the inputs' buffers hold their blocks, so the body's triple applies; the invariant and
    what the core owes pass through unread. -/
theorem sound_body (t : Fin cfg1.N) :
    bodyPre (Name := Name) (U := U) (Lvl := Lvl) c V B ι t
      ⊢ wp frame (wpE (defs₀ (F := F)) 𝒱₀ c none) Set.univ (bodyAt1 t) (fun _ => bodyPost (Name := Name) (U := U) (Lvl := Lvl) c V B ι t) := by
  unfold bodyPre bodyPost bodyAt1
  simp only [before0, before1, before2]
  rw [show (dats (Name := Name) (U := U) (Lvl := Lvl) c V B).Φ t.succ = (dats c V B).Φ t.castSucc from rfl,
    show (dats (Name := Name) (U := U) (Lvl := Lvl) c V B).owesAt ι t.succ = (dats c V B).owesAt ι t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel 𝒱₀ c Set.univ (grid1.coords t) _ _ _ _ _ _ _ _ _ _ _ _ (iblk c V 0 t) (iblk c V 1 t) (iblk c V 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation : BodyObligation (dats (Name := Name) (U := U) (Lvl := Lvl) c V B) (defs₀ (F := F)) 𝒱₀ ι Set.univ := fun t => by
  rw [bigSep_W1, bigSep_W1]
  exact sound_body (Name := Name) (U := U) (Lvl := Lvl) c V B 𝒱₀ ι t

end Data

end Cert.Kernel.Region

end
-- ==== Proof.ProjRegionK.lean ====
/-
  The projection pipeline as one region of the program.

  The region is entered with the TensorCore's unscoped buffers at contents V and the core owing nothing. Its six
  windows' arrays (the radial basis, the weights, the bias, and the three projections) go to the pipeline; the nine
  other unscoped buffers pass by untouched. The kernel has no semaphore of its own and keeps nothing between grid
  points, so nothing enters or leaves the pipeline's invariant. At the exit the six arrays are back at what the
  twenty write-backs left in them, and the core still owes nothing; the pairs its waits have recorded are those it
  came with and the pipeline's own staging semaphores.
-/
import proofs.«206544_g7275674599721_cont_sun_c4_423_43_alg».proof.Proof.ProjBodyK
import Idealize.ShloMosaic.Lib.Pipeline.Regions

noncomputable section

namespace Cert.Kernel.Region

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (a : (p : Fin 1) → (pcfgs (F := F) p).Adm)
  (V : (c : Dev nD) → (b : Ref sig .tc) → Buf (Elt F) ((c : Thread nD τ).loc b))
  (B : Set (SemLoc sig × Ix)) (ι : Ix) (𝒱₀ : Variants)
  (L : GSem nD τ sig → Finset Ix) (lv : GSem nD τ sig → Ix → Lvl)

/-- The one pipeline's proof data on every core. -/
abbrev pdats : (p : Fin 1) → (c : Dev nD) → Dat τ (Elt F) Ix Name U Lvl (Pipeline.pin (pcfgs (F := F)) a p) c :=
  fun _ c => dats c (V c) B

/-- The thread state the region is entered from: every unscoped buffer of the TensorCore at V, the core owing
    nothing, its recorded pairs within B. -/
abbrev regionPre (c : Dev nD) : sProp 𝕄 :=
  iprop(unscopedBufs c (V c) ∗ Pipeline.owesWithin c 0 B)

/-- The thread state it leaves: the six windows' arrays at what the write-backs left, the other unscoped buffers at
    V, the core owing nothing, its recorded pairs within B and the pipeline's staging semaphores. -/
abbrev regionPost (c : Dev nD) : sProp 𝕄 :=
  iprop((dats (Name := Name) (U := U) (Lvl := Lvl) c (V c) B).arrays ((dats (Name := Name) (U := U) (Lvl := Lvl) c (V c) B).arrAt · cfg1.N)
    ∗ Pipeline.unscopedRest (Ix := Ix) (Name := Name) (U := U) (Lvl := Lvl) spec1 c (V c)
    ∗ Pipeline.owesWithin c 0 (B ∪ cfg1.waitPairs ι))

/-- The core's scoped buffers that stage no window: what the body keeps between points (nothing: there are none). -/
abbrev SR (c : Dev nD) : sProp 𝕄 :=
  Pipeline.scopedRest (Ix := Ix) (Name := Name) (U := U) (Lvl := Lvl) (Val := Elt F) spec1 c

set_option backward.isDefEq.respectTransparency.types false in
/-- The region's record. -/
def seg : Pipeline.RegionSeg (pcfgs (F := F)) a (pdats (Name := Name) (U := U) (Lvl := Lvl) a V B) ι defs₀ 𝒱₀ L lv 0 where
  win := launch1.win.to₀
  block_pos := launch1.block_pos
  stage_whole := launch1.stage_whole
  K := PEmpty
  osem := fun k => k.elim
  ho := Pipeline.OwnSemFacts.none _
  hbody c := (body_obligation c (V c) B 𝒱₀ ι).loose
  hwaits := Pipeline.hwaits_of_owed_zero _ _ _ _ L lv 0 fun _ _ => rfl
  pre := regionPre (Name := Name) (U := U) (Lvl := Lvl) V B
  post := regionPost (Name := Name) (U := U) (Lvl := Lvl) V B ι
  X _ := BI.emp
  Y _ := BI.emp
  Z c := Pipeline.unscopedRest spec1 c (V c)
  hentry c := by
    have hsplit := Pipeline.arrays_of_unscopedBufs (p := (0 : Fin 1)) (pcfgs (F := F)) a (pdats (Name := Name) (U := U) (Lvl := Lvl) a V B) launch1.win launch1.arr_whole c
      ((dats c (V c) B).share_full fun _ => rfl) (V c) fun w => A_eq c (V c) B w
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := by
    show iprop((BI.emp : sProp 𝕄) ∗ Pipeline.prefHeld (pcfgs (F := F) 0).pre c (fun _ => fullShare) (a 0).1 ∗ SR c) ⊢ SR c
    iintro ⟨-, -, Hr⟩
    iexact Hr
  hout c := by
    show SR c ⊢ iprop((BI.emp : sProp 𝕄) ∗ Pipeline.ownSems0 (fun k : PEmpty => k.elim) c ∗ SR c)
    rw [Pipeline.ownSems0_none]
    iintro Hr
    isplitr; · iempintro
    isplitr; · iempintro
    iexact Hr
  hexit c := by
    iintro ⟨Ha, HO, -, HZ⟩
    imodintro
    isplitl [Ha]; · iexact Ha
    isplitl [HZ]; · iexact HZ
    iexact HO

end Cert.Kernel.Region

end
-- ==== Proof.KK.RegionStep.lean ====
/-
  The projection region as one step of the TensorCore's program.

  In the program the region is one call. From the region boundary, the thread state the region is entered from, the
  level facts and the ghost state of the pipeline's staging cells, the call runs to the region boundary and the
  thread state the region leaves, for whatever follows it.
-/
import proofs.«206544_g7275674599721_cont_sun_c4_423_43_alg».proof.Proof.KK.Setup
import proofs.«206544_g7275674599721_cont_sun_c4_423_43_alg».proof.Proof.ProjRegionK

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The pipeline has no prefetched table: its one admissible table contents. -/
abbrev adm : (p : Fin 1) → (pcfgs (F := F) p).Adm := fun p => (cfgs p).toPCfg_adm

/-- The pairs of the TensorCore's own semaphores and handshake indices that sit at level 8 or below. -/
def Btc (d : Dev nD) : Set (SemLoc sig × HIx 1) := {p | (K (F := F)).lev (T d, p.1) p.2 ≤ 8}

set_option backward.isDefEq.respectTransparency.types false in
/-- The region's record is entered from `regionPre` and leaves `regionPost`. -/
theorem seg_pre (V : (c : Dev nD) → (b : Ref sig .tc) → Buf (Elt F) ((c : Thread nD τ).loc b)) (B : Set (SemLoc sig × HIx 1))
    (L : GSem nD τ sig → Finset (HIx 1)) (lv : GSem nD τ sig → HIx 1 → ℕ) :
    (Region.seg (Name := ℕ) (U := UU) (Lvl := ℕ) (adm (F := F)) V B none 𝒱₀ L lv).pre = Region.regionPre V B := rfl
set_option backward.isDefEq.respectTransparency.types false in
theorem seg_post (V : (c : Dev nD) → (b : Ref sig .tc) → Buf (Elt F) ((c : Thread nD τ).loc b)) (B : Set (SemLoc sig × HIx 1))
    (L : GSem nD τ sig → Finset (HIx 1)) (lv : GSem nD τ sig → HIx 1 → ℕ) :
    (Region.seg (Name := ℕ) (U := UU) (Lvl := ℕ) (adm (F := F)) V B none 𝒱₀ L lv).post = Region.regionPost V B none := rfl

set_option backward.isDefEq.respectTransparency.types false in
/-- The region's call in the program: from the boundary, the entry state, the level facts and the staging cells'
    ghost state, to the boundary and the exit state for the continuation. -/
theorem region_step [∀ e, Nonempty (Elt F e)] (d : Dev nD)
    (V : (c : Dev nD) → (b : Ref sig .tc) → Buf (Elt F) ((c : Thread nD τ).loc b)) (Φ : PUnit → sProp 𝕄) :
    iprop(boundary (T d) ∗ Region.regionPre (Name := ℕ) (U := UU) (Lvl := ℕ) V (Btc (F := F) d) d ∗ levAts (K (F := F)).L (K (F := F)).lev
        ∗ Pipeline.cellsGhost (Pipeline.pin (pcfgs (F := F)) adm) EP 0 d ∗ Pipeline.toksInit (Pipeline.pin (pcfgs (F := F)) adm) EP 0 d
        ∗ (iprop(boundary (T d) ∗ Region.regionPost (Name := ℕ) (U := UU) (Lvl := ℕ) V (Btc (F := F) d) none d) -∗ Φ ⟨⟩))
      ⊢ wp frame (wpE ((K (F := F)).defs (D (F := F))) 𝒱 (T d) none) Set.univ
          (Prog.lift (.customCall (SparseCore.inner (Pipeline.entry 0)) ()) : Prog (TpuEff nD τ sig (Elt F) (SparseCore.Sig (ΛP (F := F)) 1) .tc) PUnit) Φ := by
  have h := Pipeline.RegionSeg.wp (pcfgs (F := F)) adm (Region.pdats (Name := ℕ) (U := UU) (Lvl := ℕ) adm V (Btc (F := F) d)) none cellOf_inj EP defs₀ 𝒱₀
    (K (F := F)).L (K (F := F)).lev (Region.seg adm V (Btc (F := F) d) none 𝒱₀ (K (F := F)).L (K (F := F)).lev) d none (fun u hu => nomatch hu)
    (fun _ => .ret ⟨⟩) Φ
  rw [seg_pre, seg_post] at h
  have h2 := (K (F := F)).wp_liftProg (D (F := F)) 𝒱 (T d) Set.univ none (.op (.customCall (Pipeline.entry 0) ()) fun _ => .ret ⟨⟩) Φ
  refine .trans ?_ (h.trans h2)
  iintro ⟨Hb, Hpre, Hlev, Hcg, Htk, Hk⟩
  isplitl [Hk]
  · iintro Hpost
    rw [wp_ret]
    imodintro
    iapply Hk
    iexact Hpost
  isplitl [Hb]; · iexact Hb
  isplitl [Hpre]; · iexact Hpre
  isplitl [Hlev]; · iexact Hlev
  isplitl [Hcg]; · iexact Hcg
  iexact Htk

/-- The pipeline's own waits record pairs at the index it was given. -/
theorem waitPairs_none : ∀ p ∈ cfg1.waitPairs (none : HIx 1), p.2 = none :=
  fun p ⟨w, s, h⟩ => h ▸ rfl

section Open

variable (d : Dev nD) (V : (c : Dev nD) → (b : Ref sig .tc) → Buf (Elt F) ((c : Thread nD τ).loc b)) (B : Set (SemLoc sig × HIx 1))

local notation "𝔡" => Region.dats (Ix := HIx 1) (Name := ℕ) (U := UU) (Lvl := ℕ) d (V d) B

/-- An input window's array is never written: it ends as the region found it. -/
theorem arrAt_in0 : (𝔡).arrAt 0 cfg1.N = V d main_v3 := ((𝔡).arrAt_in 0 rfl _).trans (Region.A_eq d (V d) B 0)
theorem arrAt_in1 : (𝔡).arrAt 1 cfg1.N = V d main_v4 := ((𝔡).arrAt_in 1 rfl _).trans (Region.A_eq d (V d) B 1)
theorem arrAt_in2 : (𝔡).arrAt 2 cfg1.N = V d main_v5 := ((𝔡).arrAt_in 2 rfl _).trans (Region.A_eq d (V d) B 2)

/-- The six windows' arrays after the region, one by one. -/
theorem arrays_open :
    (𝔡).arrays ((𝔡).arrAt · cfg1.N)
      = (iprop(((SparseCore.T d).loc main_v3 ↦{fullShare} V d main_v3) ∗ ((SparseCore.T d).loc main_v4 ↦{fullShare} V d main_v4) ∗ ((SparseCore.T d).loc main_v5 ↦{fullShare} V d main_v5)
        ∗ ((SparseCore.T d).loc main_v6_0 ↦{fullShare} (𝔡).arrAt 3 cfg1.N) ∗ ((SparseCore.T d).loc main_v6_1 ↦{fullShare} (𝔡).arrAt 4 cfg1.N)
        ∗ ((SparseCore.T d).loc main_v6_2 ↦{fullShare} (𝔡).arrAt 5 cfg1.N)) : sProp 𝕄) := by
  rw [Pipeline.arrays_eq (cfgs) (fun _ c => Region.dats (Ix := HIx 1) (Name := ℕ) (U := UU) (Lvl := ℕ) c (V c) B) (0 : Fin 1) d launch1.arr_whole
    ((𝔡).share_full fun _ => rfl), bigSep_W1]
  rw [arrAt_in0, arrAt_in1, arrAt_in2]

/-- The thread state the region leaves, buffer by buffer: the three inputs as found, the three projections at what
    the write-backs left, the nine buffers the region does not touch as found, and the core owing nothing. -/
theorem regionPost_open :
    Region.regionPost (Name := ℕ) (U := UU) (Lvl := ℕ) V B none d
      ⊢ (iprop(((SparseCore.T d).loc main_v3 ↦{fullShare} V d main_v3) ∗ ((SparseCore.T d).loc main_v4 ↦{fullShare} V d main_v4) ∗ ((SparseCore.T d).loc main_v5 ↦{fullShare} V d main_v5)
        ∗ ((SparseCore.T d).loc main_v6_0 ↦{fullShare} (𝔡).arrAt 3 cfg1.N) ∗ ((SparseCore.T d).loc main_v6_1 ↦{fullShare} (𝔡).arrAt 4 cfg1.N)
        ∗ ((SparseCore.T d).loc main_v6_2 ↦{fullShare} (𝔡).arrAt 5 cfg1.N)
        ∗ ((SparseCore.T d).loc main_arg0 ↦{fullShare} V d main_arg0) ∗ ((SparseCore.T d).loc main_arg1 ↦{fullShare} V d main_arg1) ∗ ((SparseCore.T d).loc main_arg2 ↦{fullShare} V d main_arg2)
        ∗ ((SparseCore.T d).loc main_arg3 ↦{fullShare} V d main_arg3) ∗ ((SparseCore.T d).loc main_arg4 ↦{fullShare} V d main_arg4) ∗ ((SparseCore.T d).loc main_c ↦{fullShare} V d main_c)
        ∗ ((SparseCore.T d).loc main_v0 ↦{fullShare} V d main_v0) ∗ ((SparseCore.T d).loc main_v1 ↦{fullShare} V d main_v1) ∗ ((SparseCore.T d).loc main_v2 ↦{fullShare} V d main_v2)
        ∗ Pipeline.owesWithin d 0 (B ∪ cfg1.waitPairs none)) : sProp 𝕄) := by
  show iprop((𝔡).arrays ((𝔡).arrAt · cfg1.N) ∗ Pipeline.unscopedRest spec1 d (V d) ∗ Pipeline.owesWithin d 0 (B ∪ cfg1.waitPairs none)) ⊢ _
  rw [arrays_open, unscopedRest1_eq]
  iintro ⟨⟨H0, H1, H2, H3, H4, H5⟩, ⟨R0, R1, R2, R3, R4, R5, R6, R7, R8⟩, HO⟩
  isplitl [H0]; · iexact H0
  isplitl [H1]; · iexact H1
  isplitl [H2]; · iexact H2
  isplitl [H3]; · iexact H3
  isplitl [H4]; · iexact H4
  isplitl [H5]; · iexact H5
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact HO

end Open

end Cert.Kernel.Run

end
-- ==== Proof.KK.Obl.lean ====
/-
  The launch theorem's obligations for the lookup: a subcore's task (its body run from its pieces), how a
  SparseCore's operands are its sixteen tasks', and the launch element of the ghost state — the handshakes'
  rounds, the pipeline's staging cells' rounds funded for the TensorCore's later region, nothing of the
  lookup's own (it only makes local copies and waits for them).
-/
import proofs.«206544_g7275674599721_cont_sun_c4_423_43_alg».proof.Proof.KK.Tile
import proofs.«206544_g7275674599721_cont_sun_c4_423_43_alg».proof.Proof.KK.RegionStep
import proofs.«206544_g7275674599721_cont_sun_c4_423_43_alg».proof.Proof.Gen.Kernel.Launch

noncomputable section

namespace Cert.Kernel.Run

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A subcore's task -/

theorem defs₀_vector (c : Fin τ.nSC) (s : Fin τ.nSub) :
    defs₀ (F := F) (.scVector c s) 0 ()
      = SparseCore.onTile hcore0 hsub0 (fun c s => cc0__sc_gather (coordsV c s)
          idxW (Memref.isWhole_whole _) tabW (Memref.isWhole_whole _) outW (Memref.isWhole_whole _)
          sIdx (Memref.isWhole_whole _) sRows (Memref.isWhole_whole _) cc0_scratch2
          cc0_scoped0 cc0_scoped1 cc0_scoped2 cc0_scoped3 cc0_scoped4 cc0_scoped5 cc0_scoped6 cc0_scoped7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (fi : (d : Dev nD) → Buf (Elt F) (idxLoc d)) (ft : (d : Dev nD) → Buf (Elt F) (tabLoc d))
    (hin : ∀ (d : Dev nD) (n : S10000.Idx), (fi d n).toNat < 100) :
    (K (F := F)).TileObl (D (F := F)) 𝒱 (P fi ft) v₀ 0 := by
  intro d c i O W hO _ _
  simp only [show (P fi ft).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body hF d (coordsV ⟨_, hc.1⟩ ⟨_, hc.2⟩) (fi d) (ft d) (hin d) O W hO).trans (wp_mono frame _ _ fun _ => obl_post)

/-- A SparseCore's operands are its tasks' side by side, and its results theirs. -/
theorem vecSplit (fi : (d : Dev nD) → Buf (Elt F) (idxLoc d)) (ft : (d : Dev nD) → Buf (Elt F) (tabLoc d)) :
    (K (F := F)).VecSplit' (P fi ft) 0 := by
  intro d c
  show (bigSep Finset.univ fun s : Fin ((K (F := F)).nSub 0) => tileGo d (coordsQ 0 c s) (fi d) (ft d))
    ⊢ |={Set.univ}=> iprop((bigSep Finset.univ fun s : Fin ((K (F := F)).nSub 0) => tileGo d (coordsQ 0 c s) (fi d) (ft d))
      ∗ ((bigSep Finset.univ fun s : Fin ((K (F := F)).nSub 0) => tileTd d (coordsQ 0 c s) (fi d) (ft d))
        -∗ bigSep Finset.univ fun s : Fin ((K (F := F)).nSub 0) => tileTd d (coordsQ 0 c s) (fi d) (ft d)))
  iintro H
  imodintro
  isplitl [H]; · iexact H
  iintro H; iexact H

/-! ## The launch element -/

def u₀ : UU :=
  (initOf (K (F := F)).hsCells (K (F := F)).hsToks,
    (initOf (Pipeline.cells (Pipeline.pin (pcfgs (F := F)) adm) (nD := nD) (τ := τ) cellOf_inj)
        (Pipeline.launchToks (Pipeline.pin (pcfgs (F := F)) adm) (nD := nD) (τ := τ) cellOf_inj), 1))

/-- What @main's proof starts from on device `d`: the pipeline's staging cells' ghost state and duty tokens. -/
def Gd (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

/-- The per-device start of @main's proof, regrouped from the two families the funding gives. -/
theorem Gd_family :
    (bigSep Finset.univ fun d : Dev nD => Gd (F := F) d)
      = iprop((bigSep Finset.univ fun c : Dev nD => bigSep Finset.univ fun p : Fin 1 =>
            Pipeline.cellsGhost (Pipeline.pin (pcfgs (F := F)) adm) EP p c)
          ∗ (bigSep Finset.univ fun c : Dev nD => bigSep Finset.univ fun p : Fin 1 =>
            (Pipeline.toksInit (Pipeline.pin (pcfgs (F := F)) adm) EP p c : sProp 𝕄))) := by
  unfold Gd
  rw [bigSep_sep']
  congr 1
  · exact bigSep_congr fun c _ => (BI.bigSep_univ_of_subsingleton (0 : Fin 1)
      (Φ := fun p : Fin 1 => (Pipeline.cellsGhost (Pipeline.pin (pcfgs (F := F)) adm) EP p c : sProp 𝕄))).symm
  · exact bigSep_congr fun c _ => (BI.bigSep_univ_of_subsingleton (0 : Fin 1)
      (Φ := fun p : Fin 1 => (Pipeline.toksInit (Pipeline.pin (pcfgs (F := F)) adm) EP p c : sProp 𝕄))).symm

theorem hu₀ (fi : (d : Dev nD) → Buf (Elt F) (idxLoc d)) (ft : (d : Dev nD) → Buf (Elt F) (tabLoc d)) :
    (ownU (u₀ (F := F)) : sProp 𝕄)
      ⊢ |={Set.univ}=> iprop(BI.own (EH (initOf (K (F := F)).hsCells (K (F := F)).hsToks))
          ∗ (bigSep Finset.univ fun d : Dev nD => Gd (F := F) d)
          ∗ bigSep Finset.univ fun thr : Thread nD τ => bigSep Finset.univ fun q : Fin 1 => (P fi ft).x q thr) := by
  unfold u₀
  iintro Hu
  ihave H := (ownU_triple _ _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · rw [Gd_family]
    isplitl [Hg] <;> iassumption
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Kernel.Run

end
-- ==== Proof.KK.HostVals.lean ====
/-
  The TensorCore's program around its two calls: fifteen arrays and six host operations.

  Before the lookup the program makes the index array: the constant 1, spread over 10000 entries, taken from the atomic
  numbers. After the lookup it rounds the radial basis and the weights to bf16 and gives the bias a leading unit axis;
  then the projection region runs. Here are the arrays' contents at the three moments that matter (when the lookup
  is called, when it has returned, when the region is entered), each as a function of the launch contents, and the
  fifteen arrays held together spelt one by one.
-/
import proofs.«206544_g7275674599721_cont_sun_c4_423_43_alg».proof.Proof.KK.Round
import proofs.«206544_g7275674599721_cont_sun_c4_423_43_alg».proof.Proof.Spec
import Idealize.ShloMosaic.Lib.StableHlo.Run

noncomputable section

namespace Cert.Kernel.Run

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

/-! ## The TensorCore's fifteen arrays -/

abbrev rArg0 : DevRef τ sig := Proc.devRef .tc (main_arg0 : Ref sig .tc)
abbrev rArg1 : DevRef τ sig := Proc.devRef .tc (main_arg1 : Ref sig .tc)
abbrev rArg2 : DevRef τ sig := Proc.devRef .tc (main_arg2 : Ref sig .tc)
abbrev rArg3 : DevRef τ sig := Proc.devRef .tc (main_arg3 : Ref sig .tc)
abbrev rArg4 : DevRef τ sig := Proc.devRef .tc (main_arg4 : Ref sig .tc)
abbrev rC : DevRef τ sig := Proc.devRef .tc (main_c : Ref sig .tc)
abbrev rV0 : DevRef τ sig := Proc.devRef .tc (main_v0 : Ref sig .tc)
abbrev rV1 : DevRef τ sig := Proc.devRef .tc (main_v1 : Ref sig .tc)
abbrev rV2 : DevRef τ sig := Proc.devRef .tc (main_v2 : Ref sig .tc)
abbrev rV3 : DevRef τ sig := Proc.devRef .tc (main_v3 : Ref sig .tc)
abbrev rV4 : DevRef τ sig := Proc.devRef .tc (main_v4 : Ref sig .tc)
abbrev rV5 : DevRef τ sig := Proc.devRef .tc (main_v5 : Ref sig .tc)
abbrev rV60 : DevRef τ sig := Proc.devRef .tc (main_v6_0 : Ref sig .tc)
abbrev rV61 : DevRef τ sig := Proc.devRef .tc (main_v6_1 : Ref sig .tc)
abbrev rV62 : DevRef τ sig := Proc.devRef .tc (main_v6_2 : Ref sig .tc)

/-- All of them: the five arguments, the constant and the index array's two precursors, the index array, the lookup's
    result, the three rounded or reshaped operands, the three projections. -/
abbrev S15 : Finset (DevRef τ sig) := {rArg0, rArg1, rArg2, rArg3, rArg4, rC, rV0, rV1, rV2, rV3, rV4, rV5, rV60, rV61, rV62}

/-! ## The six host operations, as the program spells them -/

abbrev opC : HloOp τ sig (Elt F) := StableHlo.nullary main_c (constantI S_ 32 1#32)
abbrev opV0 : HloOp τ sig (Elt F) :=
  StableHlo.unary main_c main_v0 (broadcastInDim S10000 ![] bcast_S_S10000 : (⟨S_, .i32⟩ : BufTy).Contents (Elt F) → (⟨S10000, .i32⟩ : BufTy).Contents (Elt F))
abbrev opV1 : HloOp τ sig (Elt F) :=
  StableHlo.binary main_arg0 main_v0 main_v1 (subi : (⟨S10000, .i32⟩ : BufTy).Contents (Elt F) → (⟨S10000, .i32⟩ : BufTy).Contents (Elt F) → (⟨S10000, .i32⟩ : BufTy).Contents (Elt F))
abbrev opV3 : HloOp τ sig (Elt F) :=
  StableHlo.unary main_arg1 main_v3 ((truncf .bf16 · bitsLt_bf16_f32) : (⟨S320000x16, .f32⟩ : BufTy).Contents (Elt F) → (⟨S320000x16, .bf16⟩ : BufTy).Contents (Elt F))
abbrev opV4 : HloOp τ sig (Elt F) :=
  StableHlo.unary main_arg3 main_v4 ((truncf .bf16 · bitsLt_bf16_f32) : (⟨S16x384, .f32⟩ : BufTy).Contents (Elt F) → (⟨S16x384, .bf16⟩ : BufTy).Contents (Elt F))
abbrev opV5 : HloOp τ sig (Elt F) := StableHlo.reshape main_arg4 main_v5 rfl shapeCasts_S384_S1x384

/-- The program, line by line. -/
theorem main_eq (d : Dev nD) : main (F := F) d = (do
    hlo rfl opC (fun _ => .ret ⟨⟩)
    hlo rfl opV0 (fun _ => .ret ⟨⟩)
    hlo rfl opV1 (fun _ => .ret ⟨⟩)
    sc.run d 0
    hlo rfl opV3 (fun _ => .ret ⟨⟩)
    hlo rfl opV4 (fun _ => .ret ⟨⟩)
    hlo rfl opV5 (fun _ => .ret ⟨⟩)
    Prog.lift (.customCall (SparseCore.inner (Pipeline.entry 0)) ())
    pure ⟨⟩) := rfl

theorem hC : (opC (F := F)).bufs ⊆ S15 := show ({rC} : Finset (DevRef τ sig)) ⊆ S15 by decide
theorem hV0 : (opV0 (F := F)).bufs ⊆ S15 := show ({rC, rV0} : Finset (DevRef τ sig)) ⊆ S15 by decide
theorem hV1 : (opV1 (F := F)).bufs ⊆ S15 := show ({rArg0, rV0, rV1} : Finset (DevRef τ sig)) ⊆ S15 by decide
theorem hV3 : (opV3 (F := F)).bufs ⊆ S15 := show ({rArg1, rV3} : Finset (DevRef τ sig)) ⊆ S15 by decide
theorem hV4 : (opV4 (F := F)).bufs ⊆ S15 := show ({rArg3, rV4} : Finset (DevRef τ sig)) ⊆ S15 by decide
theorem hV5 : (opV5 (F := F)).bufs ⊆ S15 := show ({rArg4, rV5} : Finset (DevRef τ sig)) ⊆ S15 by decide

/-! ## The fifteen arrays held together, one by one -/

omit [FloatOps F] in
theorem held_S15 (d : Dev nD) (W : Valuation τ sig (Elt F)) :
    (held (T d) S15 W : sProp 𝕄)
      = iprop(((SparseCore.T d).loc main_arg0 ↦{fullShare} W rArg0)
        ∗ ((SparseCore.T d).loc main_arg1 ↦{fullShare} W rArg1)
        ∗ ((SparseCore.T d).loc main_arg2 ↦{fullShare} W rArg2)
        ∗ ((SparseCore.T d).loc main_arg3 ↦{fullShare} W rArg3)
        ∗ ((SparseCore.T d).loc main_arg4 ↦{fullShare} W rArg4)
        ∗ ((SparseCore.T d).loc main_c ↦{fullShare} W rC)
        ∗ ((SparseCore.T d).loc main_v0 ↦{fullShare} W rV0)
        ∗ ((SparseCore.T d).loc main_v1 ↦{fullShare} W rV1)
        ∗ ((SparseCore.T d).loc main_v2 ↦{fullShare} W rV2)
        ∗ ((SparseCore.T d).loc main_v3 ↦{fullShare} W rV3)
        ∗ ((SparseCore.T d).loc main_v4 ↦{fullShare} W rV4)
        ∗ ((SparseCore.T d).loc main_v5 ↦{fullShare} W rV5)
        ∗ ((SparseCore.T d).loc main_v6_0 ↦{fullShare} W rV60)
        ∗ ((SparseCore.T d).loc main_v6_1 ↦{fullShare} W rV61)
        ∗ ((SparseCore.T d).loc main_v6_2 ↦{fullShare} W rV62)) := by
  unfold held S15
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0)
        ∗ ((SparseCore.T d).loc main_arg1 ↦{fullShare} W main_arg1)
        ∗ ((SparseCore.T d).loc main_arg2 ↦{fullShare} W main_arg2)
        ∗ ((SparseCore.T d).loc main_arg3 ↦{fullShare} W main_arg3)
        ∗ ((SparseCore.T d).loc main_arg4 ↦{fullShare} W main_arg4)
        ∗ ((SparseCore.T d).loc main_c ↦{fullShare} W main_c)
        ∗ ((SparseCore.T d).loc main_v0 ↦{fullShare} W main_v0)
        ∗ ((SparseCore.T d).loc main_v1 ↦{fullShare} W main_v1)
        ∗ ((SparseCore.T d).loc main_v2 ↦{fullShare} W main_v2)
        ∗ ((SparseCore.T d).loc main_v3 ↦{fullShare} W main_v3)
        ∗ ((SparseCore.T d).loc main_v4 ↦{fullShare} W main_v4)
        ∗ ((SparseCore.T d).loc main_v5 ↦{fullShare} W main_v5)
        ∗ ((SparseCore.T d).loc main_v6_0 ↦{fullShare} W main_v6_0)
        ∗ ((SparseCore.T d).loc main_v6_1 ↦{fullShare} W main_v6_1)
        ∗ ((SparseCore.T d).loc main_v6_2 ↦{fullShare} W main_v6_2)) := by
  unfold unscopedBufs
  rw [show (Finset.univ.filter fun b : Ref sig .tc => ¬ b.isScoped) = {main_arg0, main_arg1, main_arg2, main_arg3, main_arg4, main_c, main_v0, main_v1, main_v2, main_v3, main_v4, main_v5, main_v6_0, main_v6_1, main_v6_2} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The arrays' contents at three moments -/

section Vals

variable (m : (ℓ : Loc nD τ sig) → Buf (Elt F) ℓ) (d : Dev nD)

/-- At launch. -/
def V0 : Valuation τ sig (Elt F) := fun b => m (d, b)
/-- When the lookup is called: the index array is made. -/
def Va : Valuation τ sig (Elt F) := (opV1 (F := F)).result ((opV0 (F := F)).result ((opC (F := F)).result (V0 m d)))
/-- When it has returned: its result holds the gathered rows. -/
def Vb : Valuation τ sig (Elt F) := Function.update (Va m d) rV2 (G (Va m d rArg2) (Va m d rV1))
/-- When the region is entered: the radial basis and the weights rounded, the bias with its leading unit axis. -/
def Vc : Valuation τ sig (Elt F) := (opV5 (F := F)).result ((opV4 (F := F)).result ((opV3 (F := F)).result (Vb m d)))

omit [FloatOps F] in
/-- At launch the unscoped buffers are the fifteen arrays at the launch contents; -/
theorem unscoped_held : (unscopedBufs d (fun b => m ((SparseCore.T d).loc b)) : sProp 𝕄) = held (T d) S15 (V0 m d) := by
  rw [unscopedBufs_eq, held_S15]; rfl

omit [FloatOps F] in
/-- and at any contents the fifteen arrays held are the unscoped buffers. -/
theorem held_unscoped (W : Valuation τ sig (Elt F)) :
    (held (T d) S15 W : sProp 𝕄) = unscopedBufs d (fun b => W (Proc.devRef .tc b)) := by
  rw [unscopedBufs_eq, held_S15]

/-- The three operations before the lookup write the constant and the index array's two stages only. -/
theorem Va_of_ne {b : DevRef τ sig} (h1 : b ≠ rV1) (h0 : b ≠ rV0) (hc : b ≠ rC) : Va m d b = V0 m d b :=
  ((opV1 (F := F)).result_of_not_mem _ (fun h => h1 (Finset.mem_singleton.mp h))).trans
    (((opV0 (F := F)).result_of_not_mem _ (fun h => h0 (Finset.mem_singleton.mp h))).trans
      ((opC (F := F)).result_of_not_mem _ (fun h => hc (Finset.mem_singleton.mp h))))
omit [FloatOps F] in
/-- The lookup writes its result only. -/
theorem Vb_of_ne {b : DevRef τ sig} (h : b ≠ rV2) : Vb m d b = Va m d b := Function.update_of_ne h _ _
/-- The three operations after it write the three operands of the region only. -/
theorem Vc_of_ne {b : DevRef τ sig} (h5 : b ≠ rV5) (h4 : b ≠ rV4) (h3 : b ≠ rV3) : Vc m d b = Vb m d b :=
  ((opV5 (F := F)).result_of_not_mem _ (fun h => h5 (Finset.mem_singleton.mp h))).trans
    (((opV4 (F := F)).result_of_not_mem _ (fun h => h4 (Finset.mem_singleton.mp h))).trans
      ((opV3 (F := F)).result_of_not_mem _ (fun h => h3 (Finset.mem_singleton.mp h))))

/-- The five arguments are never written. -/
theorem Va_arg0 : Va m d rArg0 = m ((SparseCore.T d).loc main_arg0) := Va_of_ne m d (by decide) (by decide) (by decide)
theorem Va_arg1 : Va m d rArg1 = m ((SparseCore.T d).loc main_arg1) := Va_of_ne m d (by decide) (by decide) (by decide)
theorem Va_arg2 : Va m d rArg2 = m ((SparseCore.T d).loc main_arg2) := Va_of_ne m d (by decide) (by decide) (by decide)
theorem Va_arg3 : Va m d rArg3 = m ((SparseCore.T d).loc main_arg3) := Va_of_ne m d (by decide) (by decide) (by decide)
theorem Va_arg4 : Va m d rArg4 = m ((SparseCore.T d).loc main_arg4) := Va_of_ne m d (by decide) (by decide) (by decide)
theorem Vb_arg0 : Vb m d rArg0 = m ((SparseCore.T d).loc main_arg0) := (Vb_of_ne m d (by decide)).trans (Va_arg0 m d)
theorem Vb_arg1 : Vb m d rArg1 = m ((SparseCore.T d).loc main_arg1) := (Vb_of_ne m d (by decide)).trans (Va_arg1 m d)
theorem Vb_arg2 : Vb m d rArg2 = m ((SparseCore.T d).loc main_arg2) := (Vb_of_ne m d (by decide)).trans (Va_arg2 m d)
theorem Vb_arg3 : Vb m d rArg3 = m ((SparseCore.T d).loc main_arg3) := (Vb_of_ne m d (by decide)).trans (Va_arg3 m d)
theorem Vb_arg4 : Vb m d rArg4 = m ((SparseCore.T d).loc main_arg4) := (Vb_of_ne m d (by decide)).trans (Va_arg4 m d)
theorem Vc_arg0 : Vc m d rArg0 = m ((SparseCore.T d).loc main_arg0) := (Vc_of_ne m d (by decide) (by decide) (by decide)).trans (Vb_arg0 m d)
theorem Vc_arg1 : Vc m d rArg1 = m ((SparseCore.T d).loc main_arg1) := (Vc_of_ne m d (by decide) (by decide) (by decide)).trans (Vb_arg1 m d)
theorem Vc_arg2 : Vc m d rArg2 = m ((SparseCore.T d).loc main_arg2) := (Vc_of_ne m d (by decide) (by decide) (by decide)).trans (Vb_arg2 m d)
theorem Vc_arg3 : Vc m d rArg3 = m ((SparseCore.T d).loc main_arg3) := (Vc_of_ne m d (by decide) (by decide) (by decide)).trans (Vb_arg3 m d)
theorem Vc_arg4 : Vc m d rArg4 = m ((SparseCore.T d).loc main_arg4) := (Vc_of_ne m d (by decide) (by decide) (by decide)).trans (Vb_arg4 m d)

/-- The atomic numbers at launch, as 32-bit words. -/
abbrev atomNo : IVec S10000 32 := m ((SparseCore.T d).loc main_arg0)
/-- The index array when the lookup is called, as 32-bit words. -/
abbrev idxArr : IVec S10000 32 := Va m d rV1

/-- The index array: each atomic number less one. -/
theorem Va_v1 (n : S10000.Idx) : idxArr m d n = atomNo m d n - 1#32 := by
  show (Va m d rV1 : IVec S10000 32) n = _
  have hA : ((opV0 (F := F)).result ((opC (F := F)).result (V0 m d))) rArg0 = m ((SparseCore.T d).loc main_arg0) :=
    ((opV0 (F := F)).result_of_not_mem _ (show rArg0 ∉ ({rV0} : Finset (DevRef τ sig)) by decide)).trans
      ((opC (F := F)).result_of_not_mem _ (show rArg0 ∉ ({rC} : Finset (DevRef τ sig)) by decide))
  have hB : ((opV0 (F := F)).result ((opC (F := F)).result (V0 m d))) rV0
      = broadcastInDim S10000 ![] bcast_S_S10000 (constantI S_ 32 1#32) := by
    rw [StableHlo.unary_result, StableHlo.nullary_result]
  have hV : Va m d rV1 = subi (((opV0 (F := F)).result ((opC (F := F)).result (V0 m d))) rArg0) (((opV0 (F := F)).result ((opC (F := F)).result (V0 m d))) rV0) :=
    StableHlo.binary_result _ _ _ _ _ _ _ _
  rw [hV, hA, hB]
  rfl

/-- The lookup's result when the region is entered: the gather of the table at the index array. -/
theorem Vc_v2 : Vc m d rV2 = G (m ((SparseCore.T d).loc main_arg2)) (Va m d rV1) := by
  rw [Vc_of_ne m d (by decide) (by decide) (by decide)]
  unfold Vb
  rw [Function.update_self, Va_arg2]

/-- The radial basis, rounded to bf16. -/
theorem Vc_v3 : Vc m d rV3 = truncf .bf16 (m ((SparseCore.T d).loc main_arg1) : (⟨S320000x16, .f32⟩ : BufTy).Contents (Elt F)) bitsLt_bf16_f32 := by
  have h1 : Vc m d rV3 = (opV3 (F := F)).result (Vb m d) rV3 :=
    ((opV5 (F := F)).result_of_not_mem _ (show rV3 ∉ ({rV5} : Finset (DevRef τ sig)) by decide)).trans
      ((opV4 (F := F)).result_of_not_mem _ (show rV3 ∉ ({rV4} : Finset (DevRef τ sig)) by decide))
  rw [h1, StableHlo.unary_result, Vb_arg1]

/-- The weights, rounded to bf16. -/
theorem Vc_v4 : Vc m d rV4 = truncf .bf16 (m ((SparseCore.T d).loc main_arg3) : (⟨S16x384, .f32⟩ : BufTy).Contents (Elt F)) bitsLt_bf16_f32 := by
  have h1 : Vc m d rV4 = (opV4 (F := F)).result ((opV3 (F := F)).result (Vb m d)) rV4 :=
    (opV5 (F := F)).result_of_not_mem _ (show rV4 ∉ ({rV5} : Finset (DevRef τ sig)) by decide)
  have h2 : ((opV3 (F := F)).result (Vb m d)) rArg3 = m ((SparseCore.T d).loc main_arg3) :=
    ((opV3 (F := F)).result_of_not_mem _ (show rArg3 ∉ ({rV3} : Finset (DevRef τ sig)) by decide)).trans (Vb_arg3 m d)
  rw [h1, StableHlo.unary_result, h2]

/-- The bias, with a leading unit axis. -/
theorem Vc_v5 : Vc m d rV5 = shapeCast S1x384 (m ((SparseCore.T d).loc main_arg4) : S384.Idx → Elt F .f32) shapeCasts_S384_S1x384 := by
  have h2 : ((opV4 (F := F)).result ((opV3 (F := F)).result (Vb m d))) rArg4 = m ((SparseCore.T d).loc main_arg4) :=
    ((opV4 (F := F)).result_of_not_mem _ (show rArg4 ∉ ({rV4} : Finset (DevRef τ sig)) by decide)).trans
      (((opV3 (F := F)).result_of_not_mem _ (show rArg4 ∉ ({rV3} : Finset (DevRef τ sig)) by decide)).trans (Vb_arg4 m d))
  unfold Vc
  rw [StableHlo.reshape_result, h2]
  rfl

/-- With every atomic number between 1 and 99, every entry of the index array names one of the table's 100 rows. -/
theorem hin_of_range (hr : ∀ n : S10000.Idx, 1 ≤ (atomNo m d n).toInt ∧ (atomNo m d n).toInt ≤ 99) :
    ∀ n : S10000.Idx, (idxArr m d n).toNat < 100 := fun n => by
  rw [Va_v1]
  exact (Cert.Spec.toNat_pred_of_range (hr n).1 (hr n).2).2

end Vals

end Cert.Kernel.Run

end
-- ==== Proof.KK.Post.lean ====
/-
  What the kernel's run ends with, as a function of the launch memory: the five arguments unchanged, the
  lookup's result at the gather of the table through the index array (atomic number less one), the three
  projections at what the projection's windows hold after its last point.
-/
import proofs.«206544_g7275674599721_cont_sun_c4_423_43_alg».proof.Proof.KK.Obl
import proofs.«206544_g7275674599721_cont_sun_c4_423_43_alg».proof.Proof.KK.HostVals

noncomputable section

namespace Cert.Kernel.Run

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-- The index array when the lookup is called, and the table: functions of the launch memory. -/
abbrev fiOf : (d : Dev nD) → Buf (Elt F) (idxLoc d) := fun d => Va m d rV1
abbrev ftOf : (d : Dev nD) → Buf (Elt F) (tabLoc d) := fun d => Va m d rArg2

/-- What the handshakes carry, at those. -/
abbrev PP : (K (F := F)).Pay (nD := nD) (Val := Elt F) (Name := ℕ) (U := UU) := P (fiOf m) (ftOf m)

/-- The TensorCore's arrays when the projection's region is entered. -/
abbrev Vreg : (c : Dev nD) → (b : Ref sig .tc) → Buf (Elt F) ((c.tc : Thread nD τ).loc b) :=
  fun c b => Vc m c (Proc.devRef .tc b)

/-- The projection's proof data on device `d`. -/
abbrev pd (d : Dev nD) := Region.dats (Ix := HIx 1) (Name := ℕ) (U := UU) (Lvl := ℕ) d (Vreg m d) (Btc (F := F) d)

/-- What @main leaves for the claim: the five arguments at their launch contents, the lookup's result at the gather,
    the three projections at what the region's windows end with. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4))
    ∗ ((SparseCore.T d).loc main_v2 ↦{fullShare} G (m ((SparseCore.T d).loc main_arg2)) (Va m d rV1))
    ∗ ((SparseCore.T d).loc main_v6_0 ↦{fullShare} (pd m d).arrAt 3 cfg1.N)
    ∗ ((SparseCore.T d).loc main_v6_1 ↦{fullShare} (pd m d).arrAt 4 cfg1.N)
    ∗ ((SparseCore.T d).loc main_v6_2 ↦{fullShare} (pd m d).arrAt 5 cfg1.N))

/-- The same, read off a final memory. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_v2) = G (m ((SparseCore.T d).loc main_arg2)) (Va m d rV1)
  ∧ s'.mem.mem ((SparseCore.T d).loc main_v6_0) = (pd m d).arrAt 3 cfg1.N
  ∧ s'.mem.mem ((SparseCore.T d).loc main_v6_1) = (pd m d).arrAt 4 cfg1.N
  ∧ s'.mem.mem ((SparseCore.T d).loc main_v6_2) = (pd m d).arrAt 5 cfg1.N

/-- The run's post: on every device, the nine arrays' final contents. -/
def QC : PUnit × MemSt nD τ sig (Elt F) → Prop := fun r => ∀ c : Dev nD,
  r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_v2) = G (m ((SparseCore.T c).loc main_arg2)) (Va m c rV1)
  ∧ r.2.mem ((SparseCore.T c).loc main_v6_0) = (pd m c).arrAt 3 cfg1.N
  ∧ r.2.mem ((SparseCore.T c).loc main_v6_1) = (pd m c).arrAt 4 cfg1.N
  ∧ r.2.mem ((SparseCore.T c).loc main_v6_2) = (pd m c).arrAt 5 cfg1.N

end Cert.Kernel.Run

end
-- ==== Proof.KK.Split.lean ====
/-
  The call's two handshakes' ends.  Before the call the TensorCore holds the index array, the table and the output
  outright; these are, side by side, what the thirty-two vector subcores' tasks are handed: each subcore's rounds'
  80 index entries and 80 output rows, and a read share of the whole table.  After the call the subcores' results,
  side by side, are the three arrays again, the output holding the gather.

  The index entries and the output rows go by chunk: entry (or row) n lies in chunk n / 80, below 125; the subcore
  at grid point (c, s) handles in round r the chunk 2 s + c + 32 r when that is below 125.  A chunk number k below 125
  is of that form for exactly one (c, s, r): c = k mod 2, s = (k mod 32) / 2, r = k / 32.  So the subcores' rounds'
  sets partition each array.  The table is shared out by cutting the full share in two and each half in sixteen.
-/
import proofs.«206544_g7275674599721_cont_sun_c4_423_43_alg».proof.Proof.KK.Pay
import Idealize.ShloMosaic.Rules.PointsTo
import Idealize.ShloMosaic.Lib.SparseCore.Stream

noncomputable section

namespace Cert.Kernel.Run

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The locations: an HBM buffer's location does not depend on the thread that names it -/

theorem idx_loc (d : Dev nD) (L : grid0.Coords) (o1 : Fin 1 → Nat) (h1 : ∀ a, o1 a + S80.size a ≤ S10000.size a) :
    (idxSl o1 h1).view.loc (tile d L) = idxLoc d := rfl
theorem out_loc (d : Dev nD) (L : grid0.Coords) (o2 : Fin 2 → Nat) (h2 : ∀ a, o2 a + S80x128.size a ≤ S10000x128.size a) :
    (outSl o2 h2).view.loc (tile d L) = outLoc d := rfl
theorem tab_loc (d : Dev nD) (L : grid0.Coords) : (tabSl).view.loc (tile d L) = tabLoc d := rfl

/-! ## The slices' element sets -/

theorem mem_idx_set (o1 : Fin 1 → Nat) (h1 : ∀ a, o1 a + S80.size a ≤ S10000.size a) (n : S10000.Idx) :
    n ∈ (idxSl o1 h1).view.set ↔ o1 0 ≤ (n 0).val ∧ (n 0).val < o1 0 + 80 := by
  rw [show (idxSl o1 h1).view.set = (Rect.unit (s := S10000) o1 S80.size h1).set from View.set_slice_whole main_v1_scv _,
    Rect.mem_set_unit]
  constructor
  · intro h; exact h 0
  · intro h a
    match a with
    | ⟨0, _⟩ => exact h

theorem mem_out_set (o2 : Fin 2 → Nat) (h2 : ∀ a, o2 a + S80x128.size a ≤ S10000x128.size a) (ho : o2 1 = 0) (y : S10000x128.Idx) :
    y ∈ (outSl o2 h2).view.set ↔ o2 0 ≤ (y 0).val ∧ (y 0).val < o2 0 + 80 := by
  rw [show (outSl o2 h2).view.set = (Rect.unit (s := S10000x128) o2 S80x128.size h2).set from View.set_slice_whole main_v2_scv _,
    Rect.mem_set_unit]
  constructor
  · intro h; exact h 0
  · intro h a
    match a with
    | ⟨0, _⟩ => exact h
    | ⟨1, _⟩ =>
      show o2 (1 : Fin 2) ≤ (y (1 : Fin 2)).val ∧ (y (1 : Fin 2)).val < o2 (1 : Fin 2) + 128
      rw [ho, Nat.zero_add]
      exact ⟨Nat.zero_le _, (y 1).isLt⟩

theorem tab_set : (tabSl).view.set = Finset.univ := by
  rw [show (tabSl).view.set = (Rect.unit (s := S100x128) ![0, 0] S100x128.size inb_S100x128_S100x128_0_0).set from View.set_slice_whole main_arg2_scv _]
  ext i
  simp only [Rect.mem_set_unit, Finset.mem_univ, iff_true]
  intro a
  match a with
  | ⟨0, _⟩ => exact ⟨Nat.zero_le _, by rw [show (![0, 0] : Fin 2 → Nat) ⟨0, by decide⟩ = 0 from rfl, Nat.zero_add]; exact (i 0).isLt⟩
  | ⟨1, _⟩ => exact ⟨Nat.zero_le _, by rw [show (![0, 0] : Fin 2 → Nat) ⟨1, by decide⟩ = 0 from rfl, Nat.zero_add]; exact (i 1).isLt⟩

/-- The fourth round's guard in closed form: the chunk 2 s + c + 96 is below 125. -/
theorem cond4_iff : ∀ L : grid0.Coords, k0_cond4 L = 1#1 ↔ 2 * (L 1).val + (L 0).val < 29 := by decide +kernel

/-! ## One array cut into the subcores' chunks

An array whose every element has a chunk number below 125, and for each subcore and round the set of elements whose
chunk number is 2 s + c + 32 r: the sets partition the array, so its points-to is the subcores' pieces side by side. -/

/-- The chunk the subcore at grid point L handles in round r. -/
def chunkNo (L : grid0.Coords) (r : Nat) : Nat := 2 * (L 1).val + (L 0).val + 32 * r

/-- What one subcore holds of an array: its four rounds' sets. -/
def tileSet {ι : Type} [DecidableEq ι] (R : grid0.Coords → Fin 4 → Finset ι) (L : grid0.Coords) : Finset ι :=
  R L 0 ∪ (R L 1 ∪ (R L 2 ∪ R L 3))

theorem mem_tileSet {ι : Type} [DecidableEq ι] (κ : ι → Nat) (hκ : ∀ i, κ i < 125) (R : grid0.Coords → Fin 4 → Finset ι)
    (hR : ∀ L (r : Fin 4) i, i ∈ R L r ↔ κ i = chunkNo L r.val) (L : grid0.Coords) (i : ι) :
    i ∈ tileSet R L ↔ κ i % 32 = 2 * (L 1).val + (L 0).val := by
  have h0 : (L 0).val < 2 := (L 0).isLt
  have h1 : (L 1).val < 16 := (L 1).isLt
  have hk := hκ i
  unfold tileSet
  simp only [Finset.mem_union, hR, chunkNo]
  show (κ i = 2 * (L 1).val + (L 0).val + 32 * 0 ∨ κ i = 2 * (L 1).val + (L 0).val + 32 * 1
    ∨ κ i = 2 * (L 1).val + (L 0).val + 32 * 2 ∨ κ i = 2 * (L 1).val + (L 0).val + 32 * 3) ↔ _
  omega

/-- Along disjoint element sets, as an equation. -/
theorem pointsTo_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  have hu : (ℓ ↦[I ∪ J]{q} f : sProp 𝕄) ⊣⊢ iprop((ℓ ↦[I]{q} f) ∗ ℓ ↦[J]{q} f) := pointsTo_union h
  BI.equiv_iff.mp ⟨hu.1, hu.2⟩

theorem coordsV_0 (c : Fin (grid0.bound 0)) (s : Fin (grid0.bound 1)) : coordsV c s 0 = c := rfl
theorem coordsV_1 (c : Fin (grid0.bound 0)) (s : Fin (grid0.bound 1)) : coordsV c s 1 = s := rfl

theorem split_tiles {ℓ : Loc nD τ sig} (q : PosShare TreeShare) (f : Buf (Elt F) ℓ) (κ : Idx ℓ → Nat) (hκ : ∀ i, κ i < 125)
    (R : grid0.Coords → Fin 4 → Finset (Idx ℓ)) (hR : ∀ L (r : Fin 4) i, i ∈ R L r ↔ κ i = chunkNo L r.val) :
    (ℓ ↦[Finset.univ]{q} f : sProp 𝕄)
      = bigSep Finset.univ fun c : Fin (grid0.bound 0) => bigSep Finset.univ fun s : Fin (grid0.bound 1) =>
          iprop((ℓ ↦[R (coordsV c s) 0]{q} f) ∗ (ℓ ↦[R (coordsV c s) 1]{q} f) ∗ (ℓ ↦[R (coordsV c s) 2]{q} f)
            ∗ (ℓ ↦[R (coordsV c s) 3]{q} f)) := by
  classical
  have hmem := mem_tileSet κ hκ R hR
  -- the subcores' sets cover the array
  have hcover : (Finset.univ : Finset (Idx ℓ))
      = (Finset.univ : Finset (Fin (grid0.bound 0))).biUnion fun c =>
          (Finset.univ : Finset (Fin (grid0.bound 1))).biUnion fun s => tileSet R (coordsV c s) := by
    ext i
    simp only [Finset.mem_univ, Finset.mem_biUnion, true_and, true_iff]
    have hk := hκ i
    refine ⟨⟨κ i % 2, Nat.mod_lt _ (by decide)⟩, ⟨κ i % 32 / 2, ?_⟩, ?_⟩
    · show κ i % 32 / 2 < 16
      omega
    · rw [hmem]
      show κ i % 32 = 2 * (κ i % 32 / 2) + κ i % 2
      omega
  -- two SparseCores' sets are disjoint, and so are two subcores' of one SparseCore
  have hdc : ∀ c ∈ (Finset.univ : Finset (Fin (grid0.bound 0))), ∀ c' ∈ (Finset.univ : Finset (Fin (grid0.bound 0))), c ≠ c' →
      Disjoint ((Finset.univ : Finset (Fin (grid0.bound 1))).biUnion fun s => tileSet R (coordsV c s))
        ((Finset.univ : Finset (Fin (grid0.bound 1))).biUnion fun s => tileSet R (coordsV c' s)) := by
    intro c _ c' _ hne
    rw [Finset.disjoint_left]
    intro i hi hi'
    obtain ⟨s, -, hs⟩ := Finset.mem_biUnion.mp hi
    obtain ⟨s', -, hs'⟩ := Finset.mem_biUnion.mp hi'
    rw [hmem] at hs hs'
    have e0 : ((coordsV c s) 0).val = c.val := rfl
    have e1 : ((coordsV c s) 1).val = s.val := rfl
    have e0' : ((coordsV c' s') 0).val = c'.val := rfl
    have e1' : ((coordsV c' s') 1).val = s'.val := rfl
    rw [e0, e1] at hs
    rw [e0', e1'] at hs'
    have hc : c.val < 2 := c.isLt
    have hc' : c'.val < 2 := c'.isLt
    exact hne (Fin.ext (by omega))
  have hds : ∀ c : Fin (grid0.bound 0), ∀ s ∈ (Finset.univ : Finset (Fin (grid0.bound 1))), ∀ s' ∈ (Finset.univ : Finset (Fin (grid0.bound 1))), s ≠ s' →
      Disjoint (tileSet R (coordsV c s)) (tileSet R (coordsV c s')) := by
    intro c s _ s' _ hne
    rw [Finset.disjoint_left]
    intro i hs hs'
    rw [hmem] at hs hs'
    have e0 : ((coordsV c s) 0).val = c.val := rfl
    have e1 : ((coordsV c s) 1).val = s.val := rfl
    have e0' : ((coordsV c s') 0).val = c.val := rfl
    have e1' : ((coordsV c s') 1).val = s'.val := rfl
    rw [e0, e1] at hs
    rw [e0', e1'] at hs'
    exact hne (Fin.ext (by omega))
  -- within one subcore the rounds' sets are disjoint
  have hdr : ∀ L (r r' : Fin 4), r ≠ r' → Disjoint (R L r) (R L r') := by
    intro L r r' hne
    rw [Finset.disjoint_left]
    intro i hi hi'
    rw [hR] at hi hi'
    unfold chunkNo at hi hi'
    exact hne (Fin.ext (by omega))
  rw [hcover, pointsTo_biUnion _ _ hdc]
  refine bigSep_congr fun c _ => ?_
  rw [pointsTo_biUnion _ _ (hds c)]
  refine bigSep_congr fun s _ => ?_
  unfold tileSet
  have d0 : Disjoint (R (coordsV c s) 0) (R (coordsV c s) 1 ∪ (R (coordsV c s) 2 ∪ R (coordsV c s) 3)) :=
    Finset.disjoint_union_right.mpr ⟨hdr _ 0 1 (by decide), Finset.disjoint_union_right.mpr ⟨hdr _ 0 2 (by decide), hdr _ 0 3 (by decide)⟩⟩
  have d1 : Disjoint (R (coordsV c s) 1) (R (coordsV c s) 2 ∪ R (coordsV c s) 3) :=
    Finset.disjoint_union_right.mpr ⟨hdr _ 1 2 (by decide), hdr _ 1 3 (by decide)⟩
  rw [pointsTo_union_eq d0, pointsTo_union_eq d1, pointsTo_union_eq (hdr _ 2 3 (by decide))]

/-! ## The three arrays cut -/

/-- Round r's index entries of the subcore at L (round 3's: none when the subcore has no fourth round). -/
def idxR (L : grid0.Coords) : Fin 4 → Finset S10000.Idx
  | ⟨0, _⟩ => (idxSl (k0_off1 L) (k0_off1_inb L (cond1 L))).view.set
  | ⟨1, _⟩ => (idxSl (k0_off3 L) (k0_off3_inb L (cond2 L))).view.set
  | ⟨2, _⟩ => (idxSl (k0_off5 L) (k0_off5_inb L (cond3 L))).view.set
  | ⟨3, _⟩ => if h : k0_cond4 L = 1#1 then (idxSl (k0_off7 L) (k0_off7_inb L h)).view.set else ∅
  | ⟨_ + 4, h⟩ => absurd h (by omega)

/-- Round r's output rows of the subcore at L. -/
def outR (L : grid0.Coords) : Fin 4 → Finset S10000x128.Idx
  | ⟨0, _⟩ => (outSl (k0_off2 L) (k0_off2_inb L (cond1 L))).view.set
  | ⟨1, _⟩ => (outSl (k0_off4 L) (k0_off4_inb L (cond2 L))).view.set
  | ⟨2, _⟩ => (outSl (k0_off6 L) (k0_off6_inb L (cond3 L))).view.set
  | ⟨3, _⟩ => if h : k0_cond4 L = 1#1 then (outSl (k0_off8 L) (k0_off8_inb L h)).view.set else ∅
  | ⟨_ + 4, h⟩ => absurd h (by omega)

theorem off1_0 (L : grid0.Coords) : k0_off1 L 0 = 160 * (L 1).val + 80 * (L 0).val := by rw [k0_off1_eq]; rfl
theorem off3_0 (L : grid0.Coords) : k0_off3 L 0 = 160 * (L 1).val + 80 * (L 0).val + 2560 := by rw [k0_off3_eq]; rfl
theorem off5_0 (L : grid0.Coords) : k0_off5 L 0 = 160 * (L 1).val + 80 * (L 0).val + 5120 := by rw [k0_off5_eq]; rfl
theorem off7_0 (L : grid0.Coords) : k0_off7 L 0 = 160 * (L 1).val + 80 * (L 0).val + 7680 := by rw [k0_off7_eq]; rfl
theorem off2_0 (L : grid0.Coords) : k0_off2 L 0 = 160 * (L 1).val + 80 * (L 0).val := by rw [k0_off2_eq]; rfl
theorem off4_0 (L : grid0.Coords) : k0_off4 L 0 = 160 * (L 1).val + 80 * (L 0).val + 2560 := by rw [k0_off4_eq]; rfl
theorem off6_0 (L : grid0.Coords) : k0_off6 L 0 = 160 * (L 1).val + 80 * (L 0).val + 5120 := by rw [k0_off6_eq]; rfl
theorem off8_0 (L : grid0.Coords) : k0_off8 L 0 = 160 * (L 1).val + 80 * (L 0).val + 7680 := by rw [k0_off8_eq]; rfl
theorem off2_1 (L : grid0.Coords) : k0_off2 L 1 = 0 := by rw [k0_off2_eq]; rfl
theorem off4_1 (L : grid0.Coords) : k0_off4 L 1 = 0 := by rw [k0_off4_eq]; rfl
theorem off6_1 (L : grid0.Coords) : k0_off6 L 1 = 0 := by rw [k0_off6_eq]; rfl
theorem off8_1 (L : grid0.Coords) : k0_off8 L 1 = 0 := by rw [k0_off8_eq]; rfl

theorem mem_idx0 (L : grid0.Coords) (n : S10000.Idx) :
    n ∈ (idxSl (k0_off1 L) (k0_off1_inb L (cond1 L))).view.set ↔ (n 0).val / 80 = 2 * (L 1).val + (L 0).val + 32 * 0 := by
  have h0 : (L 0).val < 2 := (L 0).isLt
  have h1 : (L 1).val < 16 := (L 1).isLt
  have hn : (n 0).val < 10000 := (n 0).isLt
  rw [mem_idx_set, off1_0]; omega

theorem mem_idx1 (L : grid0.Coords) (n : S10000.Idx) :
    n ∈ (idxSl (k0_off3 L) (k0_off3_inb L (cond2 L))).view.set ↔ (n 0).val / 80 = 2 * (L 1).val + (L 0).val + 32 * 1 := by
  have h0 : (L 0).val < 2 := (L 0).isLt
  have h1 : (L 1).val < 16 := (L 1).isLt
  have hn : (n 0).val < 10000 := (n 0).isLt
  rw [mem_idx_set, off3_0]; omega

theorem mem_idx2 (L : grid0.Coords) (n : S10000.Idx) :
    n ∈ (idxSl (k0_off5 L) (k0_off5_inb L (cond3 L))).view.set ↔ (n 0).val / 80 = 2 * (L 1).val + (L 0).val + 32 * 2 := by
  have h0 : (L 0).val < 2 := (L 0).isLt
  have h1 : (L 1).val < 16 := (L 1).isLt
  have hn : (n 0).val < 10000 := (n 0).isLt
  rw [mem_idx_set, off5_0]; omega

theorem mem_idx3 (L : grid0.Coords) (n : S10000.Idx) :
    n ∈ (if h : k0_cond4 L = 1#1 then (idxSl (k0_off7 L) (k0_off7_inb L h)).view.set else ∅ : Finset S10000.Idx)
      ↔ (n 0).val / 80 = 2 * (L 1).val + (L 0).val + 32 * 3 := by
  have h0 : (L 0).val < 2 := (L 0).isLt
  have h1 : (L 1).val < 16 := (L 1).isLt
  have hn : (n 0).val < 10000 := (n 0).isLt
  by_cases h : k0_cond4 L = 1#1
  · rw [dif_pos h, mem_idx_set, off7_0]; omega
  · rw [dif_neg h]
    have h' := (cond4_iff L).not.mp h
    simp only [Finset.notMem_empty, false_iff]
    omega

theorem mem_out0 (L : grid0.Coords) (y : S10000x128.Idx) :
    y ∈ (outSl (k0_off2 L) (k0_off2_inb L (cond1 L))).view.set ↔ (y 0).val / 80 = 2 * (L 1).val + (L 0).val + 32 * 0 := by
  have h0 : (L 0).val < 2 := (L 0).isLt
  have h1 : (L 1).val < 16 := (L 1).isLt
  have hn : (y 0).val < 10000 := (y 0).isLt
  rw [mem_out_set _ _ (off2_1 L), off2_0]; omega

theorem mem_out1 (L : grid0.Coords) (y : S10000x128.Idx) :
    y ∈ (outSl (k0_off4 L) (k0_off4_inb L (cond2 L))).view.set ↔ (y 0).val / 80 = 2 * (L 1).val + (L 0).val + 32 * 1 := by
  have h0 : (L 0).val < 2 := (L 0).isLt
  have h1 : (L 1).val < 16 := (L 1).isLt
  have hn : (y 0).val < 10000 := (y 0).isLt
  rw [mem_out_set _ _ (off4_1 L), off4_0]; omega

theorem mem_out2 (L : grid0.Coords) (y : S10000x128.Idx) :
    y ∈ (outSl (k0_off6 L) (k0_off6_inb L (cond3 L))).view.set ↔ (y 0).val / 80 = 2 * (L 1).val + (L 0).val + 32 * 2 := by
  have h0 : (L 0).val < 2 := (L 0).isLt
  have h1 : (L 1).val < 16 := (L 1).isLt
  have hn : (y 0).val < 10000 := (y 0).isLt
  rw [mem_out_set _ _ (off6_1 L), off6_0]; omega

theorem mem_out3 (L : grid0.Coords) (y : S10000x128.Idx) :
    y ∈ (if h : k0_cond4 L = 1#1 then (outSl (k0_off8 L) (k0_off8_inb L h)).view.set else ∅ : Finset S10000x128.Idx)
      ↔ (y 0).val / 80 = 2 * (L 1).val + (L 0).val + 32 * 3 := by
  have h0 : (L 0).val < 2 := (L 0).isLt
  have h1 : (L 1).val < 16 := (L 1).isLt
  have hn : (y 0).val < 10000 := (y 0).isLt
  by_cases h : k0_cond4 L = 1#1
  · rw [dif_pos h, mem_out_set _ _ (off8_1 L), off8_0]; omega
  · rw [dif_neg h]
    have h' := (cond4_iff L).not.mp h
    simp only [Finset.notMem_empty, false_iff]
    omega

/-- Entry n is among round r's entries of the subcore at L exactly when its chunk, n / 80, is that round's. -/
theorem mem_idxR (L : grid0.Coords) (r : Fin 4) (n : S10000.Idx) : n ∈ idxR L r ↔ (n 0).val / 80 = chunkNo L r.val :=
  match r with
  | ⟨0, _⟩ => mem_idx0 L n
  | ⟨1, _⟩ => mem_idx1 L n
  | ⟨2, _⟩ => mem_idx2 L n
  | ⟨3, _⟩ => mem_idx3 L n
  | ⟨_ + 4, h⟩ => absurd h (by omega)

/-- Row y is among round r's rows of the subcore at L exactly when its chunk, (row number) / 80, is that round's. -/
theorem mem_outR (L : grid0.Coords) (r : Fin 4) (y : S10000x128.Idx) : y ∈ outR L r ↔ (y 0).val / 80 = chunkNo L r.val :=
  match r with
  | ⟨0, _⟩ => mem_out0 L y
  | ⟨1, _⟩ => mem_out1 L y
  | ⟨2, _⟩ => mem_out2 L y
  | ⟨3, _⟩ => mem_out3 L y
  | ⟨_ + 4, h⟩ => absurd h (by omega)

/-- The index array is the subcores' rounds' entries side by side. -/
theorem split_idx (d : Dev nD) (q : PosShare TreeShare) (fi : Buf (Elt F) (idxLoc d)) :
    (idxLoc d ↦[Finset.univ]{q} fi : sProp 𝕄)
      = bigSep Finset.univ fun c : Fin (grid0.bound 0) => bigSep Finset.univ fun s : Fin (grid0.bound 1) =>
          iprop((idxLoc d ↦[idxR (coordsV c s) 0]{q} fi) ∗ (idxLoc d ↦[idxR (coordsV c s) 1]{q} fi)
            ∗ (idxLoc d ↦[idxR (coordsV c s) 2]{q} fi) ∗ (idxLoc d ↦[idxR (coordsV c s) 3]{q} fi)) :=
  split_tiles (ℓ := idxLoc d) q fi (fun n : S10000.Idx => (n 0).val / 80)
    (fun n => by have hn : (n 0).val < 10000 := (n 0).isLt; show (n 0).val / 80 < 125; omega) idxR mem_idxR

/-- The output is the subcores' rounds' rows side by side. -/
theorem split_out (d : Dev nD) (q : PosShare TreeShare) (fo : Buf (Elt F) (outLoc d)) :
    (outLoc d ↦[Finset.univ]{q} fo : sProp 𝕄)
      = bigSep Finset.univ fun c : Fin (grid0.bound 0) => bigSep Finset.univ fun s : Fin (grid0.bound 1) =>
          iprop((outLoc d ↦[outR (coordsV c s) 0]{q} fo) ∗ (outLoc d ↦[outR (coordsV c s) 1]{q} fo)
            ∗ (outLoc d ↦[outR (coordsV c s) 2]{q} fo) ∗ (outLoc d ↦[outR (coordsV c s) 3]{q} fo)) :=
  split_tiles (ℓ := outLoc d) q fo (fun y : S10000x128.Idx => (y 0).val / 80)
    (fun y => by have hn : (y 0).val < 10000 := (y 0).isLt; show (y 0).val / 80 < 125; omega) outR mem_outR

/-- The table, whole, at the subcores' read shares side by side. -/
theorem split_tab (d : Dev nD) (ft : Buf (Elt F) (tabLoc d)) :
    (tabLoc d ↦[Finset.univ]{fullShare} ft : sProp 𝕄)
      = bigSep Finset.univ fun c : Fin (grid0.bound 0) => bigSep Finset.univ fun s : Fin (grid0.bound 1) =>
          (tabLoc d ↦[Finset.univ]{tabShare (coordsV c s)} ft) := by
  rw [pointsTo_piecesOf Finset.univ ft (o := 2) (by decide) fullShare]
  show (bigSep Finset.univ fun c : Fin (grid0.bound 0) => (tabLoc d ↦[Finset.univ]{pieceOf fullShare 2 (by decide) c} ft : sProp 𝕄)) = _
  refine bigSep_congr fun c _ => ?_
  rw [pointsTo_piecesOf Finset.univ ft (o := 16) (by decide) (pieceOf fullShare 2 (by decide) c)]
  rfl

/-! ## One subcore's pieces, array by array, are what its task is handed -/

/-- What the subcore at L holds, array by array: its rounds' index entries, its read share of the table, its rounds'
    output rows. -/
def tilePieces (d : Dev nD) (L : grid0.Coords) (fi : Buf (Elt F) (idxLoc d)) (ft : Buf (Elt F) (tabLoc d))
    (fo : Buf (Elt F) (outLoc d)) : sProp 𝕄 :=
  iprop(((idxLoc d ↦[idxR L 0]{fullShare} fi) ∗ (idxLoc d ↦[idxR L 1]{fullShare} fi)
      ∗ (idxLoc d ↦[idxR L 2]{fullShare} fi) ∗ (idxLoc d ↦[idxR L 3]{fullShare} fi))
    ∗ (tabLoc d ↦[Finset.univ]{tabShare L} ft)
    ∗ ((outLoc d ↦[outR L 0]{fullShare} fo) ∗ (outLoc d ↦[outR L 1]{fullShare} fo)
      ∗ (outLoc d ↦[outR L 2]{fullShare} fo) ∗ (outLoc d ↦[outR L 3]{fullShare} fo)))

/-- Nine pieces regrouped round by round. -/
theorem sep_shuffle (I0 I1 I2 I3 T O0 O1 O2 O3 : sProp 𝕄) :
    iprop((I0 ∗ I1 ∗ I2 ∗ I3) ∗ T ∗ (O0 ∗ O1 ∗ O2 ∗ O3))
      = iprop(T ∗ (I0 ∗ O0) ∗ (I1 ∗ O1) ∗ (I2 ∗ O2) ∗ (I3 ∗ O3)) := by
  show BI.sep (BI.sep I0 (BI.sep I1 (BI.sep I2 I3))) (BI.sep T (BI.sep O0 (BI.sep O1 (BI.sep O2 O3))))
    = BI.sep T (BI.sep (BI.sep I0 O0) (BI.sep (BI.sep I1 O1) (BI.sep (BI.sep I2 O2) (BI.sep I3 O3))))
  ac_rfl

/-- The fourth round's two pieces: the round's resources when the subcore has a fourth round, nothing otherwise. -/
theorem round3_eq (d : Dev nD) (L : grid0.Coords) (fi : Buf (Elt F) (idxLoc d)) (fo : Buf (Elt F) (outLoc d)) :
    (iprop((idxLoc d ↦[idxR L 3]{fullShare} fi) ∗ (outLoc d ↦[outR L 3]{fullShare} fo)) : sProp 𝕄)
      = (if h : k0_cond4 L = 1#1 then roundRes d L (k0_off7 L) (k0_off7_inb L h) (k0_off8 L) (k0_off8_inb L h) fi fo
          else iprop(emp)) := by
  show (iprop((idxLoc d ↦[(if h : k0_cond4 L = 1#1 then (idxSl (k0_off7 L) (k0_off7_inb L h)).view.set else ∅ : Finset S10000.Idx)]{fullShare} fi)
      ∗ (outLoc d ↦[(if h : k0_cond4 L = 1#1 then (outSl (k0_off8 L) (k0_off8_inb L h)).view.set else ∅ : Finset S10000x128.Idx)]{fullShare} fo)) : sProp 𝕄) = _
  by_cases h : k0_cond4 L = 1#1
  · rw [dif_pos h, dif_pos h, dif_pos h]
    rfl
  · rw [dif_neg h, dif_neg h, dif_neg h, pointsTo_empty, pointsTo_empty]
    exact equiv_iff.mp emp_sep

theorem tile_eq (d : Dev nD) (L : grid0.Coords) (fi : Buf (Elt F) (idxLoc d)) (ft : Buf (Elt F) (tabLoc d))
    (fo : Buf (Elt F) (outLoc d)) : tilePieces d L fi ft fo = tileRes d L fi ft (fun _ => fo) := by
  unfold tilePieces
  rw [sep_shuffle, round3_eq]
  unfold tileRes
  rw [tab_set]
  rfl

/-! ## The whole: the three arrays are the thirty-two subcores' tasks' resources side by side -/

theorem split_eq (d : Dev nD) (fi : Buf (Elt F) (idxLoc d)) (ft : Buf (Elt F) (tabLoc d)) (fo : Buf (Elt F) (outLoc d)) :
    (iprop((idxLoc d ↦{fullShare} fi) ∗ (tabLoc d ↦{fullShare} ft) ∗ (outLoc d ↦{fullShare} fo)) : sProp 𝕄)
      = bigSep Finset.univ fun c : Fin (grid0.bound 0) => bigSep Finset.univ fun s : Fin (grid0.bound 1) =>
          tileRes d (coordsV c s) fi ft (fun _ => fo) := by
  show (iprop((idxLoc d ↦[Finset.univ]{fullShare} fi) ∗ (tabLoc d ↦[Finset.univ]{fullShare} ft)
    ∗ (outLoc d ↦[Finset.univ]{fullShare} fo)) : sProp 𝕄) = _
  rw [split_idx, split_tab, split_out, ← bigSep_sep', ← bigSep_sep']
  refine bigSep_congr fun c _ => ?_
  rw [← bigSep_sep', ← bigSep_sep']
  refine bigSep_congr fun s _ => ?_
  exact tile_eq d (coordsV c s) fi ft fo

/-- A task's resources at some output contents are its resources before the task. -/
theorem tileRes_go (d : Dev nD) (L : grid0.Coords) (fi : Buf (Elt F) (idxLoc d)) (ft : Buf (Elt F) (tabLoc d))
    (fo : Fin 4 → Buf (Elt F) (outLoc d)) : tileRes d L fi ft fo ⊢ tileGo d L fi ft := by
  unfold tileGo
  iintro H
  iexists fo
  iexact H

/-- A task's resources after the task are its resources at the gather. -/
theorem tileTd_eq (d : Dev nD) (L : grid0.Coords) (fi : Buf (Elt F) (idxLoc d)) (ft : Buf (Elt F) (tabLoc d)) :
    tileTd d L fi ft = tileRes d L fi ft (fun _ => G ft fi) := rfl

/-! ## The two handshakes' ends -/

variable (d : Dev nD) (fi : (d : Dev nD) → Buf (Elt F) (idxLoc d)) (ft : (d : Dev nD) → Buf (Elt F) (tabLoc d))

/-- Before the call: the three arrays, held outright, are the two SparseCores' operands. -/
theorem split_st (fo : Buf (Elt F) (outLoc d)) :
    (iprop((idxLoc d ↦{fullShare} fi d) ∗ (tabLoc d ↦{fullShare} ft d) ∗ (outLoc d ↦{fullShare} fo)) : sProp 𝕄)
      ⊢ bigSep Finset.univ fun c : Fin ((K (F := F)).nCore 0) => (P fi ft).st 0 d c := by
  rw [split_eq]
  show (bigSep Finset.univ fun c : Fin (grid0.bound 0) => bigSep Finset.univ fun s : Fin (grid0.bound 1) =>
      tileRes d (coordsV c s) (fi d) (ft d) (fun _ => fo))
    ⊢ bigSep Finset.univ fun c : Fin (grid0.bound 0) => bigSep Finset.univ fun s : Fin (grid0.bound 1) =>
      tileGo d (coordsV c s) (fi d) (ft d)
  exact bigSep_mono fun c _ => bigSep_mono fun s _ => tileRes_go d _ _ _ _

/-- A SparseCore's results are its sixteen tasks' results ... -/
theorem dn_eq (c : Fin ((K (F := F)).nCore 0)) :
    ((P fi ft).dn 0 d c : sProp 𝕄)
      = bigSep Finset.univ fun s : Fin ((K (F := F)).nSub 0) => tileTd d (coordsQ 0 c s) (fi d) (ft d) := rfl

/-- ... indexed by the grid's second axis. -/
theorem dn_eq2 (c : Fin (grid0.bound 0)) :
    (bigSep Finset.univ fun s : Fin ((K (F := F)).nSub 0) => tileTd d (coordsQ 0 c s) (fi d) (ft d) : sProp 𝕄)
      = bigSep Finset.univ fun s : Fin (grid0.bound 1) => tileTd d (coordsV c s) (fi d) (ft d) := rfl

/-- After it: the two SparseCores' results are the three arrays, held outright, the output at the gather. -/
theorem join_dn :
    (bigSep Finset.univ fun c : Fin ((K (F := F)).nCore 0) => (P fi ft).dn 0 d c : sProp 𝕄)
      ⊢ iprop((idxLoc d ↦{fullShare} fi d) ∗ (tabLoc d ↦{fullShare} ft d) ∗ (outLoc d ↦{fullShare} G (ft d) (fi d))) := by
  have h : (bigSep Finset.univ fun c : Fin ((K (F := F)).nCore 0) => (P fi ft).dn 0 d c : sProp 𝕄)
      = bigSep Finset.univ fun c : Fin (grid0.bound 0) => bigSep Finset.univ fun s : Fin (grid0.bound 1) =>
          tileRes d (coordsV c s) (fi d) (ft d) (fun _ => G (ft d) (fi d)) :=
    bigSep_congr fun c _ => (dn_eq d fi ft c).trans ((dn_eq2 d fi ft c).trans (bigSep_congr fun s _ => tileTd_eq d _ _ _))
  rw [h, ← split_eq]

end Cert.Kernel.Run

end
-- ==== Proof.KK.Main.lean ====
/-
  @main on the TensorCore: the index array computed (atomic number less one), the lookup called on the two
  SparseCores — each subcore handed its pieces, the output coming back holding the gather —, the projection's
  operands prepared, the projection's region run; the arguments are never written.
-/
import proofs.«206544_g7275674599721_cont_sun_c4_423_43_alg».proof.Proof.KK.Post
import proofs.«206544_g7275674599721_cont_sun_c4_423_43_alg».proof.Proof.KK.Split

noncomputable section

namespace Cert.Kernel.Run

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The fifteen arrays when the lookup has returned -/

omit [FloatOps F] in
/-- The fifteen arrays held at a valuation changed at the lookup's result alone. -/
theorem held_update_v2 (d : Dev nD) (W : Valuation τ sig (Elt F)) (f : Buf (Elt F) ((SparseCore.T d).loc main_v2)) :
    (held (SparseCore.T d) S15 (Function.update W rV2 f) : sProp 𝕄)
      = iprop(((SparseCore.T d).loc main_arg0 ↦{fullShare} W rArg0)
        ∗ ((SparseCore.T d).loc main_arg1 ↦{fullShare} W rArg1)
        ∗ ((SparseCore.T d).loc main_arg2 ↦{fullShare} W rArg2)
        ∗ ((SparseCore.T d).loc main_arg3 ↦{fullShare} W rArg3)
        ∗ ((SparseCore.T d).loc main_arg4 ↦{fullShare} W rArg4)
        ∗ ((SparseCore.T d).loc main_c ↦{fullShare} W rC)
        ∗ ((SparseCore.T d).loc main_v0 ↦{fullShare} W rV0)
        ∗ ((SparseCore.T d).loc main_v1 ↦{fullShare} W rV1)
        ∗ ((SparseCore.T d).loc main_v2 ↦{fullShare} f)
        ∗ ((SparseCore.T d).loc main_v3 ↦{fullShare} W rV3)
        ∗ ((SparseCore.T d).loc main_v4 ↦{fullShare} W rV4)
        ∗ ((SparseCore.T d).loc main_v5 ↦{fullShare} W rV5)
        ∗ ((SparseCore.T d).loc main_v6_0 ↦{fullShare} W rV60)
        ∗ ((SparseCore.T d).loc main_v6_1 ↦{fullShare} W rV61)
        ∗ ((SparseCore.T d).loc main_v6_2 ↦{fullShare} W rV62)) := by
  rw [held_S15]
  rw [Function.update_of_ne (show rArg0 ≠ rV2 by decide), Function.update_of_ne (show rArg1 ≠ rV2 by decide),
    Function.update_of_ne (show rArg2 ≠ rV2 by decide), Function.update_of_ne (show rArg3 ≠ rV2 by decide),
    Function.update_of_ne (show rArg4 ≠ rV2 by decide), Function.update_of_ne (show rC ≠ rV2 by decide),
    Function.update_of_ne (show rV0 ≠ rV2 by decide), Function.update_of_ne (show rV1 ≠ rV2 by decide),
    Function.update_self, Function.update_of_ne (show rV3 ≠ rV2 by decide), Function.update_of_ne (show rV4 ≠ rV2 by decide),
    Function.update_of_ne (show rV5 ≠ rV2 by decide), Function.update_of_ne (show rV60 ≠ rV2 by decide),
    Function.update_of_ne (show rV61 ≠ rV2 by decide), Function.update_of_ne (show rV62 ≠ rV2 by decide)]

/-! ## The TensorCore's debts around the projection's region -/

omit [FloatOps F] in
/-- After its only SparseCore call the TensorCore owes nothing: what it owes is lent to the region with the bound on its
    recorded pairs, and comes back with the bound widened by the pipeline's own waits, which sit at level 0. -/
theorem tcSt_lend (d : Dev nD) :
    ((K (F := F)).tcSt EH d 1 : sProp 𝕄)
      ⊢ iprop(Pipeline.owesWithin d 0 (Btc (F := F) d)
          ∗ (Pipeline.owesWithin d 0 (Btc (F := F) d ∪ cfg1.waitPairs (none : HIx 1)) -∗ (K (F := F)).tcSt EH d 1)) := by
  unfold SparseCore.Cfg.tcSt
  rw [(K (F := F)).Otc_end d (le_refl 1)]
  iintro ⟨⟨%W, %hW, HO⟩, Hrest⟩
  isplitl [HO]
  · iexists W
    isplitr
    · ipureintro
      intro p hp
      exact hW p (Finset.mem_coe.mp hp)
    · iexact HO
  · iintro ⟨%W', %hW', HO⟩
    isplitl [HO]
    · iexists W'
      isplitr
      · ipureintro
        intro p hp
        rcases hW' (Finset.mem_coe.mpr hp) with h | h
        · exact h
        · have hn : p.2 = none := waitPairs_none p h
          show (K (F := F)).lev (SparseCore.T d, p.1) p.2 ≤ 8 * 1
          rw [hn, SparseCore.Cfg.lev_none]
          exact Nat.zero_le _
      · iexact HO
    · iexact Hrest

theorem hmain [∀ e, Nonempty (Elt F e)] (hin : ∀ (d : Dev nD) (n : S10000.Idx), (fiOf m d n).toNat < 100)
    (κ : GSem nD τ sig → ℕ) (d : Dev nD) :
    iprop((K (F := F)).ctx EH (PP m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes Gd
  rw [unscoped_held, main_eq]
  simp only [wp_bind, wp_pure]
  iintro ⟨#Hctx, Hst, ⟨Hb, Hheld, -, -⟩, ⟨Hg, Ht⟩⟩
  -- the three operations before the lookup
  iapply (wp_hlo_within 𝒱 (SparseCore.T d) none Set.univ (op := opC) (S := S15) hC (V := V0 m d)) $$ [Hb Hheld]
  · isplitl [Hb] <;> iassumption
  iintro ⟨Hb, Hheld⟩
  rw [wp_ret]; imodintro
  iapply (wp_hlo_within 𝒱 (SparseCore.T d) none Set.univ (op := opV0) (S := S15) hV0 (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opV1) (S := S15) hV1 (V := (opV0 (F := F)).result ((opC (F := F)).result (V0 m d)))) $$ [Hb Hheld]
  · isplitl [Hb] <;> iassumption
  iintro ⟨Hb, Hheld⟩
  rw [wp_ret]; imodintro
  -- the fifteen arrays at their contents when the lookup is called
  ihave Hheld := (Entails.of_eq (show (held (SparseCore.T d) S15 ((opV1 (F := F)).result ((opV0 (F := F)).result ((opC (F := F)).result (V0 m d)))) : sProp 𝕄)
      = held (SparseCore.T d) S15 (Va m d) from rfl)) $$ Hheld
  ihave Hh := (Entails.of_eq (held_S15 (F := F) d (Va m d))) $$ Hheld
  icases Hh with ⟨Ha0, Ha1, Ha2, Ha3, Ha4, Hc, Hv0, Hv1, Hv2, Hv3, Hv4, Hv5, Hv60, Hv61, Hv62⟩
  -- the lookup: the index array, the table and the output dealt to the subcores, and back with the output at the gather
  iapply ((K (F := F)).wp_run (D (F := F)) 𝒱 (EH := EH) (P := PP m) κ d 0) $$ [Hst Hv1 Ha2 Hv2 Hb Ha0 Ha1 Ha3 Ha4 Hc Hv0 Hv3 Hv4 Hv5 Hv60 Hv61 Hv62 Hg Ht]
  isplitr; · iexact Hctx
  isplitl [Hst]; · iexact Hst
  isplitl [Hv1 Ha2 Hv2]
  · iapply (split_st d (fiOf m) (ftOf m) (Va m d rV2))
    isplitl [Hv1]; · iexact Hv1
    isplitl [Ha2]; · iexact Ha2
    iexact Hv2
  iintro ⟨Hst, Hdn⟩
  ihave H := (join_dn d (fiOf m) (ftOf m)) $$ Hdn
  icases H with ⟨Hv1, Ha2, Hv2⟩
  ihave Hheld := (Entails.of_eq (held_update_v2 (F := F) d (Va m d) (G (Va m d rArg2) (Va m d rV1))).symm) $$ [Ha0 Ha1 Ha2 Ha3 Ha4 Hc Hv0 Hv1 Hv2 Hv3 Hv4 Hv5 Hv60 Hv61 Hv62]
  · isplitl [Ha0]; · iexact Ha0
    isplitl [Ha1]; · iexact Ha1
    isplitl [Ha2]; · iexact Ha2
    isplitl [Ha3]; · iexact Ha3
    isplitl [Ha4]; · iexact Ha4
    isplitl [Hc]; · iexact Hc
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv60]; · iexact Hv60
    isplitl [Hv61]; · iexact Hv61
    iexact Hv62
  ihave Hheld := (Entails.of_eq (show (held (SparseCore.T d) S15 (Function.update (Va m d) rV2 (G (Va m d rArg2) (Va m d rV1))) : sProp 𝕄)
      = held (SparseCore.T d) S15 (Vb m d) from rfl)) $$ Hheld
  -- the three operations after it
  iapply (wp_hlo_within 𝒱 (SparseCore.T d) none Set.univ (op := opV3) (S := S15) hV3 (V := Vb m d)) $$ [Hb Hheld]
  · isplitl [Hb] <;> iassumption
  iintro ⟨Hb, Hheld⟩
  rw [wp_ret]; imodintro
  iapply (wp_hlo_within 𝒱 (SparseCore.T d) none Set.univ (op := opV4) (S := S15) hV4 (V := (opV3 (F := F)).result (Vb m d))) $$ [Hb Hheld]
  · isplitl [Hb] <;> iassumption
  iintro ⟨Hb, Hheld⟩
  rw [wp_ret]; imodintro
  iapply (wp_hlo_within 𝒱 (SparseCore.T d) none Set.univ (op := opV5) (S := S15) hV5 (V := (opV4 (F := F)).result ((opV3 (F := F)).result (Vb m d)))) $$ [Hb Hheld]
  · isplitl [Hb] <;> iassumption
  iintro ⟨Hb, Hheld⟩
  rw [wp_ret]; imodintro
  ihave Hheld := (Entails.of_eq (show (held (SparseCore.T d) S15 ((opV5 (F := F)).result ((opV4 (F := F)).result ((opV3 (F := F)).result (Vb m d)))) : sProp 𝕄)
      = held (SparseCore.T d) S15 (Vc m d) from rfl)) $$ Hheld
  -- the projection's region
  ihave Hub := (Entails.of_eq (held_unscoped (F := F) d (Vc m d))) $$ Hheld
  ihave Hst1 := (Entails.of_eq (show ((K (F := F)).tcSt EH d ((0 : Fin 1).val + 1) : sProp 𝕄) = (K (F := F)).tcSt EH d 1 from rfl)) $$ Hst
  ihave Hlend := (tcSt_lend (F := F) d) $$ Hst1
  icases Hlend with ⟨Howes, Hback⟩
  ihave Hlev := (SparseCore.Cfg.ctx_levAts κ) $$ Hctx
  iapply (region_step (F := F) d (Vreg m) _) $$ [Hb Hub Howes Hlev Hg Ht Hback]
  isplitl [Hb]; · iexact Hb
  isplitl [Hub Howes]
  · isplitl [Hub]; · iexact Hub
    iexact Howes
  isplitl [Hlev]; · iexact Hlev
  isplitl [Hg]; · iexact Hg
  isplitl [Ht]; · iexact Ht
  iintro ⟨Hb, Hpost⟩
  ihave Hp := (regionPost_open (F := F) d (Vreg m) (Btc (F := F) d)) $$ Hpost
  icases Hp with ⟨Hv3, Hv4, Hv5, Hv60, Hv61, Hv62, Ha0, Ha1, Ha2, Ha3, Ha4, Hc, Hv0, Hv1, Hv2, Howes⟩
  imodintro
  isplitl [Howes Hback]
  · iapply Hback; iexact Howes
  unfold FIN
  rw [← Vc_v2 m d, ← Vc_arg0 m d, ← Vc_arg1 m d, ← Vc_arg2 m d, ← Vc_arg3 m d, ← Vc_arg4 m d]
  isplitl [Ha0]; · iexact Ha0
  isplitl [Ha1]; · iexact Ha1
  isplitl [Ha2]; · iexact Ha2
  isplitl [Ha3]; · iexact Ha3
  isplitl [Ha4]; · iexact Ha4
  isplitl [Hv2]; · iexact Hv2
  isplitl [Hv60]; · iexact Hv60
  isplitl [Hv61]; · iexact Hv61
  iexact Hv62

end Cert.Kernel.Run

end
-- ==== Proof.KK.Run.lean ====
/-
  The kernel's run: every weakly fair execution of its threads from a launch memory whose atomic numbers lie
  between 1 and 99 terminates, faulting nowhere, with the nine arrays at the contents Post.lean names.  It is the
  SparseCore launch theorem applied to the subcores' tasks, the launch element and @main's proof.
-/
import proofs.«206544_g7275674599721_cont_sun_c4_423_43_alg».proof.Proof.KK.Main

noncomputable section

namespace Cert.Kernel.Run

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Each of the nine arrays @main leaves held is what the final memory holds there. -/
theorem hfin (m : (ℓ : Loc nD τ sig) → Buf (Elt F) ℓ) (d : Dev nD) (s' : Phys nD τ sig (Elt F)) :
    iprop(FIN m d ∗ SI s') ⊢ (⌜fq m d s'⌝ : sProp 𝕄) := by
  unfold FIN
  iintro ⟨⟨H0, H1, H2, H3, H4, H5, H6, H7, H8⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI H8 gives %h8
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i),
    funext fun i => h6 i (Finset.mem_univ i), funext fun i => h7 i (Finset.mem_univ i), funext fun i => h8 i (Finset.mem_univ i)⟩

theorem run_main [∀ e, Nonempty (Elt F e)] (m : (ℓ : Loc nD τ sig) → Buf (Elt F) ℓ) (ρ : Dev nD → PrngReg)
    (hr : ∀ (d : Dev nD) (n : S10000.Idx), 1 ≤ (atomNo m d n).toInt ∧ (atomNo m d n).toInt ≤ 99) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl facts (fiOf m) (ftOf m) (fun d n => hin_of_range m d (hr d) n))
    (fun q _ => match q with | 0 => SparseCore.Cfg.VecSplit.of_plain (vecSplit (fiOf m) (ftOf m)))
    m ρ main (fun d => Gd (F := F) d) (FIN m) (u₀ (F := F)) (sep_elim_left.trans (hu₀ (fiOf m) (ftOf m)))
    (hmain m ρ (fun d n => hin_of_range m d (hr d) n)) (fq m) (hfin m) (QC m) (fun _ h c => h c)

end Cert.Kernel.Run

end
-- ==== Proof.KI.HostValsIdeal.lean ====
/-
  The region's operands and results on the extended reals.

  On the extended reals rounding to bf16 changes nothing, so when the region is entered its three operands are the
  radial basis, the weights and the bias as launched (the bias read through its leading unit axis), the index array
  names row (atomic number - 1) of the table, and the three projections end as the three bands of rb * W + b of the
  launch arrays.
-/
import proofs.«206544_g7275674599721_cont_sun_c4_423_43_alg».proof.Proof.KI.HostVals
import proofs.«206544_g7275674599721_cont_sun_c4_423_43_alg».proof.Proof.KI.Post
import proofs.«206544_g7275674599721_cont_sun_c4_423_43_alg».proof.Proof.ProjValue
import Idealize.ShloMosaic.Lib.ValueLayout

noncomputable section

namespace Cert.KernelIdeal.Run

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open Idealize.SL.Sem

variable (m : (ℓ : Loc nD τ sig) → Buf (Elt Ideal) ℓ) (d : Dev nD)

/-- The gather at the index array is the embedding lookup of the launch arrays: row (atomic number - 1). -/
theorem G_eq_H : G (m ((SparseCore.T d).loc main_arg2)) (Va m d rV1)
    = Cert.Spec.H (m ((SparseCore.T d).loc main_arg2)) (atomNo m d) := by
  funext j
  unfold G Cert.Spec.H Cert.Spec.rowOf
  have e := Va_v1 m d (ix1 (j 0 : Fin 10000))
  show (m ((SparseCore.T d).loc main_arg2) : S100x128.Idx → EReal) (ix2 (⟨(idxArr m d (ix1 (j 0 : Fin 10000))).toNat % 100, _⟩ : Fin 100) (j 1 : Fin 128))
      = (m ((SparseCore.T d).loc main_arg2) : S100x128.Idx → EReal) (ix2 (⟨(atomNo m d (ix1 (j 0 : Fin 10000)) - 1#32).toNat % 100, _⟩ : Fin 100) (j 1 : Fin 128))
  simp only [e]

/-- Rounding to bf16 is the identity on the extended reals: the region's first operand is the radial basis, -/
theorem Vc_v3_ideal : Vc m d rV3 = m ((SparseCore.T d).loc main_arg1) := (Vc_v3 m d).trans rfl
/-- its second the weights, -/
theorem Vc_v4_ideal : Vc m d rV4 = m ((SparseCore.T d).loc main_arg3) := (Vc_v4 m d).trans rfl
/-- and its third, at (0, i), the bias at i. -/
theorem Vc_v5_ideal (i : Fin 384) :
    (Vc m d rV5 : S1x384.Idx → EReal) (ix2 (0 : Fin 1) i) = (m ((SparseCore.T d).loc main_arg4) : S384.Idx → EReal) (ix1 i) := by
  rw [Vc_v5]
  exact shapeCast_a_1a_apply _ _ _ _

section Final

variable {Ix : Type} [DecidableEq Ix] {Name : Type} [DecidableEq Name] {U : Type} [URA U] {Lvl : Type} [Preorder Lvl]
variable (B : Set (SemLoc sig × Ix))

theorem bias_eq : (fun i : (⟨1, ![384]⟩ : Shape).Idx => (Vreg m d main_v5 : S1x384.Idx → EReal) (ix2 (0 : Fin 1) (i 0 : Fin 384)))
    = (m ((SparseCore.T d).loc main_arg4) : S384.Idx → EReal) := by
  funext i
  exact (Vc_v5_ideal m d (i 0 : Fin 384)).trans (congrArg (m ((SparseCore.T d).loc main_arg4) : S384.Idx → EReal) (eq_ix1 i).symm)

/-- The three projections after the region: the three bands of rb * W + b of the launch arrays. -/
theorem proj0_final : (Region.dats (Name := Name) (U := U) (Lvl := Lvl) d (Vreg m d) B).arrAt 3 cfg1.N
    = Cert.Spec.P 0 (by decide) (m ((SparseCore.T d).loc main_arg1)) (m ((SparseCore.T d).loc main_arg3)) (m ((SparseCore.T d).loc main_arg4)) := by
  rw [Region.arrAt3_eq, bias_eq, show Vreg m d main_v3 = Vc m d rV3 from rfl, show Vreg m d main_v4 = Vc m d rV4 from rfl, Vc_v3_ideal, Vc_v4_ideal]
theorem proj1_final : (Region.dats (Name := Name) (U := U) (Lvl := Lvl) d (Vreg m d) B).arrAt 4 cfg1.N
    = Cert.Spec.P 128 (by decide) (m ((SparseCore.T d).loc main_arg1)) (m ((SparseCore.T d).loc main_arg3)) (m ((SparseCore.T d).loc main_arg4)) := by
  rw [Region.arrAt4_eq, bias_eq, show Vreg m d main_v3 = Vc m d rV3 from rfl, show Vreg m d main_v4 = Vc m d rV4 from rfl, Vc_v3_ideal, Vc_v4_ideal]
theorem proj2_final : (Region.dats (Name := Name) (U := U) (Lvl := Lvl) d (Vreg m d) B).arrAt 5 cfg1.N
    = Cert.Spec.P 256 (by decide) (m ((SparseCore.T d).loc main_arg1)) (m ((SparseCore.T d).loc main_arg3)) (m ((SparseCore.T d).loc main_arg4)) := by
  rw [Region.arrAt5_eq, bias_eq, show Vreg m d main_v3 = Vc m d rV3 from rfl, show Vreg m d main_v4 = Vc m d rV4 from rfl, Vc_v3_ideal, Vc_v4_ideal]

end Final

/-- The same of the run's own proof data. -/
theorem pd_proj0 : (pd m d).arrAt 3 cfg1.N
    = Cert.Spec.P 0 (by decide) (m ((SparseCore.T d).loc main_arg1)) (m ((SparseCore.T d).loc main_arg3)) (m ((SparseCore.T d).loc main_arg4)) :=
  proj0_final m d (Btc (F := Ideal) d)
theorem pd_proj1 : (pd m d).arrAt 4 cfg1.N
    = Cert.Spec.P 128 (by decide) (m ((SparseCore.T d).loc main_arg1)) (m ((SparseCore.T d).loc main_arg3)) (m ((SparseCore.T d).loc main_arg4)) :=
  proj1_final m d (Btc (F := Ideal) d)
theorem pd_proj2 : (pd m d).arrAt 5 cfg1.N
    = Cert.Spec.P 256 (by decide) (m ((SparseCore.T d).loc main_arg1)) (m ((SparseCore.T d).loc main_arg3)) (m ((SparseCore.T d).loc main_arg4)) :=
  proj2_final m d (Btc (F := Ideal) d)

end Cert.KernelIdeal.Run

end
-- ==== Proof.RefRead.lean ====
/-
  The reference's four results as terms of its argument arrays, and each term read at an index.

  The embedding lookup is a gather of table rows at the indices (atomic number - 1), wrapped (a negative index has 100
  added) and guarded (an index outside [0, 99] yields a not-a-number row). For atomic numbers between 1 and 99 the index
  lies in [0, 98]: the wrap leaves it alone, the guard passes, and the gather's clamp is the identity, so row n of the
  result is row (number - 1) of the table. The three projections are column bands of (rb * W + b).
-/
import proofs.«206544_g7275674599721_cont_sun_c4_423_43_alg».proof.ReferenceIdeal
import proofs.«206544_g7275674599721_cont_sun_c4_423_43_alg».proof.Proof.Spec
import Idealize.ShloMosaic.Lib.ValueIdx
import Idealize.ShloMosaic.Lib.Affine
import Idealize.ShloMosaic.Lib.StackMember
import Idealize.ShloMosaic.Lib.ValueLayout
import Idealize.ShloMosaic.Lib.KernelVsHost
import Idealize.ShloMosaic.Lib.Pipeline.Value
import Idealize.ShloMosaic.PureOps.Reduce

noncomputable section

namespace Cert.RefRead

open Idealize.ShloMosaic Idealize.ShloMosaic.ValueIdx Cert.ReferenceIdeal
open Cert.ReferenceIdeal.Facts₀

variable [Cert.ReferenceIdeal.Facts]

/-! ## The terms -/

/-- The lookup index: the atomic number less one. -/
def idxT (a0 : IVec S10000 32) : IVec S10000 32 :=
  subi a0 (broadcastInDim S10000 ![] bcast_S_S10000 (constantI S_ 32 1#32))

/-- The wrapped index: a negative index has the table's row count added. -/
def wrapT (i : IVec S10000 32) : IVec S10000 32 :=
  select (cmpi .slt i (broadcastInDim S10000 ![] bcast_S_S10000 (constantI S_ 32 0#32)))
    (addi i (broadcastInDim S10000 ![] bcast_S_S10000 (constantI S_ 32 100#32))) i

/-- The wrapped index as a column of start indices. -/
def colT (i : IVec S10000 32) : IVec S10000x1 32 :=
  broadcastInDim S10000x1 ![0] bcast_S10000_S10000x1_0 (wrapT i)

/-- The guard: the start index lies in [0, 99], reduced by "and" over the unit axis. -/
def okT (i : IVec S10000 32) : IVec S10000 1 :=
  Host.reduce IntOp.andi
    (andi (cmpi .sge (colT i) (broadcastInDim S10000x1 ![] bcast_S_S10000x1 (constantI S_ 32 0#32)))
      (cmpi .sle (colT i) (broadcastInDim S10000x1 ![0, 1] bcast_S1x1_S10000x1_0_1
        (broadcastInDim S1x1 ![1] bcast_S1_S1x1_1 (constantI S1 32 99#32)))))
    (constantI S_ 1 1#1) reducesTo_S10000x1_S10000_d1 h_S_

/-- The lookup: the gathered rows where the guard holds, a not-a-number row elsewhere. -/
def takeT {F : FTy → Type} [FloatOps F] (tab : FVec F S100x128 .f32) (i : IVec S10000 32) : FVec F S10000x128 .f32 :=
  select (broadcastInDim S10000x128 ![0] bcast_S10000_S10000x128_0 (okT i))
    (Host.gather gather_S100x128_S10000x1_S10000x128_1_0_n_n_0_1_1128 tab (colT i))
    (broadcastInDim S10000x128 ![] bcast_S_S10000x128 (constant S_ .f32 0x7FC00000#32))

/-- All 384 projected columns: rb * W + b. -/
def projT {F : FTy → Type} [FloatOps F] (rb : FVec F S320000x16 .f32) (W : FVec F S16x384 .f32) (b : FVec F S384 .f32) :
    FVec F S320000x384 .f32 :=
  addf (Host.dotGeneral dot_S320000x16_S16x384_S320000x384_1_0_0_1_n_n none rb W)
    (broadcastInDim S320000x384 ![0, 1] bcast_S1x384_S320000x384_0_1 (broadcastInDim S1x384 ![1] bcast_S384_S1x384_1 b))

/-! ## The projections read at an index -/

/-- The reference's product is the plain one: rows by contraction times contraction by columns. -/
theorem dot_eq : dot_S320000x16_S16x384_S320000x384_1_0_0_1_n_n = DotDims.plain 320000 16 384 := rfl

/-- Entry (e, c) of rb * W + b is the sum over k of rb(e, k) * W(k, c), plus b(c). -/
theorem projT_apply (rb : FVec Ideal S320000x16 .f32) (W : FVec Ideal S16x384 .f32) (b : FVec Ideal S384 .f32)
    (e : Fin 320000) (c : Fin 384) :
    projT rb W b (ix2 e c) = (∑ k : Fin 16, rb (ix2 e k) * W (ix2 k c)) + b (ix1 c) := by
  unfold projT
  rw [addf_apply, dot_eq, StackMember.dotGeneral_plain_apply, broadcastInDim_oneRow_apply]
  congr 1
  refine broadcastInDim_apply ![1] _ b (ix2 (0 : Fin 1) c) (ix1 c) (fun a => ?_)
  match a with
  | ⟨0, _⟩ => rfl

/-- The band of 128 columns from column off of rb * W + b is the specification's projection at that offset. -/
theorem band_eq_P (off : Nat) (hoff : off + 128 ≤ 384) (h : S320000x384.Slices ![0, off] S320000x128)
    (rb : FVec Ideal S320000x16 .f32) (W : FVec Ideal S16x384 .f32) (b : FVec Ideal S384 .f32) :
    extractStridedSlice S320000x128 ![0, off] (projT rb W b) h = Cert.Spec.P off hoff rb W b := by
  funext j
  obtain ⟨e, c, rfl⟩ : ∃ (e : Fin 320000) (c : Fin 128), j = ix2 e c := ⟨j 0, j 1, eq_ix2 j⟩
  rw [slice2_axis1_apply off _ h e c (Cert.Spec.col off hoff c) rfl, projT_apply]
  rfl

/-! ## The lookup read at an index -/

/-- For a number between 1 and 99 the word (number - 1), read signed, lies between 0 and 99. -/
theorem pred_range {w : BitVec 32} (h1 : 1 ≤ w.toInt) (h2 : w.toInt ≤ 99) :
    0 ≤ (w - 1#32).toInt ∧ (w - 1#32).toInt ≤ 99 := by
  obtain ⟨_, hlt⟩ := Cert.Spec.toNat_pred_of_range h1 h2
  rw [BitVec.toInt_eq_toNat_of_lt (by omega)]
  omega

/-- The index term at an atom is the atom's number less one. -/
theorem idxT_apply (a0 : IVec S10000 32) (j : S10000.Idx) : idxT a0 j = a0 j - 1#32 := rfl

/-- A nonnegative index is left alone by the wrap. -/
theorem wrapT_apply_of_nonneg (i : IVec S10000 32) (j : S10000.Idx) (h : 0 ≤ (i j).toInt) : wrapT i j = i j := by
  have hc : ¬ IntOp.cmpi .slt (i j) 0#32 = 1#1 := fun hc => by
    have h' := IntOp.cmpi_slt.1 hc
    rw [show (0#32 : BitVec 32).toInt = 0 from rfl] at h'
    omega
  exact if_neg hc

/-- The column of start indices at row n is the wrapped index at n. -/
theorem colT_apply (i : IVec S10000 32) (n : Fin 10000) (z : Fin 1) : colT i (ix2 n z) = wrapT i (ix1 n) := by
  unfold colT
  refine broadcastInDim_apply (s := S10000) (t := S10000x1) ![0] bcast_S10000_S10000x1_0 (wrapT i) (ix2 n z) (ix1 n) (fun a => ?_)
  match a with
  | ⟨0, _⟩ => rfl

/-- A left fold by "and" from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l (fun n hn => h n (List.mem_cons_of_mem _ hn))

/-- When every index lies in [0, 99] the guard is 1 at every atom. -/
theorem okT_apply (i : IVec S10000 32) (hi : ∀ n : Fin 10000, 0 ≤ (i (ix1 n)).toInt ∧ (i (ix1 n)).toInt ≤ 99)
    (j : S10000.Idx) : okT i j = 1#1 := by
  unfold okT
  rw [Host.reduce_eq_foldl]
  refine foldl_andi_one _ _ (fun k _ => ?_)
  obtain ⟨n, z, rfl⟩ : ∃ (n : Fin 10000) (z : Fin 1), k = ix2 n z := ⟨k 0, k 1, eq_ix2 k⟩
  obtain ⟨h0, h99⟩ := hi n
  show IntOp.andi (IntOp.cmpi .sge (colT i (ix2 n z)) 0#32) (IntOp.cmpi .sle (colT i (ix2 n z)) 99#32) = 1#1
  rw [colT_apply, wrapT_apply_of_nonneg i _ h0]
  refine IntOp.andi_eq_one.2 ⟨IntOp.cmpi_sge.2 ?_, IntOp.cmpi_sle.2 ?_⟩
  · rw [show (0#32 : BitVec 32).toInt = 0 from rfl]; exact h0
  · rw [show (99#32 : BitVec 32).toInt = 99 from by decide]; exact h99

/-- The gather at (n, l): the table at (the start index of row n, read signed and clamped into the table's rows, l). -/
theorem gather_apply {α : Type} (tab : S100x128.Idx → α) (idx : IVec S10000x1 32) (n : Fin 10000) (l : Fin 128) (r : Fin 100)
    (hr : min (idx (ix2 n (0 : Fin 1))).toInt.toNat 99 = r.val) :
    Host.gather gather_S100x128_S10000x1_S10000x128_1_0_n_n_0_1_1128 tab idx (ix2 n l) = tab (ix2 r l) := by
  unfold Host.gather
  congr 1
  funext a
  refine Fin.ext ?_
  match a with
  | ⟨0, _⟩ =>
    show gather_S100x128_S10000x1_S10000x128_1_0_n_n_0_1_1128.start (ix2 n l) idx 0
        + gather_S100x128_S10000x1_S10000x128_1_0_n_n_0_1_1128.batchCoord (ix2 n l) 0
        + gather_S100x128_S10000x1_S10000x128_1_0_n_n_0_1_1128.offCoord (ix2 n l) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100x128_S10000x1_S10000x128_1_0_n_n_0_1_1128.startIndexMap from List.mem_singleton.mpr rfl)]
    have hsi : gather_S100x128_S10000x1_S10000x128_1_0_n_n_0_1_1128.siIdx (ix2 n l)
        ⟨List.idxOf (0 : Fin 2) gather_S100x128_S10000x1_S10000x128_1_0_n_n_0_1_1128.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    exact hr
  | ⟨1, _⟩ =>
    show gather_S100x128_S10000x1_S10000x128_1_0_n_n_0_1_1128.start (ix2 n l) idx 1
        + gather_S100x128_S10000x1_S10000x128_1_0_n_n_0_1_1128.batchCoord (ix2 n l) 1
        + gather_S100x128_S10000x1_S10000x128_1_0_n_n_0_1_1128.offCoord (ix2 n l) 1 = l.val
    rw [GatherDims.batchCoord_eq_zero _ _ _ List.not_mem_nil]
    have hs : gather_S100x128_S10000x1_S10000x128_1_0_n_n_0_1_1128.start (ix2 n l) idx 1 = 0 := by
      unfold GatherDims.start
      exact dif_neg (fun h => absurd (List.mem_singleton.mp h) (by decide))
    rw [hs]
    simp only [Nat.add_zero, Nat.zero_add]
    unfold GatherDims.offCoord
    rw [dif_pos ((GatherDims.mem_sKept _ _).mpr ⟨fun h => absurd (List.mem_singleton.mp h) (by decide), List.not_mem_nil⟩)]
    rfl

/-- Under the range hypothesis the lookup term is the specification's lookup. -/
theorem takeT_eq_H (tab : FVec Ideal S100x128 .f32) (a0 : IVec S10000 32)
    (hr : ∀ n : S10000.Idx, 1 ≤ (a0 n).toInt ∧ (a0 n).toInt ≤ 99) :
    takeT tab (idxT a0) = Cert.Spec.H tab a0 := by
  funext j
  obtain ⟨n, l, rfl⟩ : ∃ (n : Fin 10000) (l : Fin 128), j = ix2 n l := ⟨j 0, j 1, eq_ix2 j⟩
  have hi : ∀ n : Fin 10000, 0 ≤ (idxT a0 (ix1 n)).toInt ∧ (idxT a0 (ix1 n)).toInt ≤ 99 := fun n => by
    rw [idxT_apply]; exact pred_range (hr _).1 (hr _).2
  unfold takeT
  rw [select_apply,
    broadcastInDim_apply (s := S10000) (t := S10000x128) ![0] bcast_S10000_S10000x128_0 (okT (idxT a0)) (ix2 n l) (ix1 n)
      (fun a => match a with | ⟨0, _⟩ => rfl),
    okT_apply _ hi, select_one,
    gather_apply tab (colT (idxT a0)) n l (Cert.Spec.rowOf (a0 (ix1 n))) (by
      rw [colT_apply, wrapT_apply_of_nonneg _ _ (hi n).1, idxT_apply]
      exact Cert.Spec.clamp_pred_of_range (hr _).1 (hr _).2)]
  rfl

end Cert.RefRead

end
-- ==== Proof.RefRun.lean ====
/-
  The reference's run. Its @main is a straight line of thirty-three host operations once the two outlined functions
  are unfolded at their calls: the index (three), the guarded lookup (twenty-three, one of them the inner select), the
  product, the bias broadcast twice, the sum and the three column bands. Every weakly fair execution terminates with
  each buffer at the fold of the operations over the launch contents; read at the four result buffers the fold is the
  composed term of the arguments, and under the range hypothesis on the atomic numbers those terms are the
  specification's lookup and projections.
-/
import proofs.«206544_g7275674599721_cont_sun_c4_423_43_alg».proof.Proof.Gen.ReferenceIdeal
import proofs.«206544_g7275674599721_cont_sun_c4_423_43_alg».proof.Proof.RefRead
import Idealize.ShloMosaic.Lib.StableHlo.Run

noncomputable section

namespace Cert.RefRun

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, the two calls unfolded over their buffer records. -/
abbrev ops : List (HloOp τ sig (Elt F)) :=
  [ nullary main_c (constantI S_ 32 1#32),
    unary main_c main_v0 (broadcastInDim S10000 ![] bcast_S_S10000 : (⟨S_, .i32⟩ : BufTy).Contents (Elt F) → (⟨S10000, .i32⟩ : BufTy).Contents (Elt F)),
    binary main_arg0 main_v0 main_v1 (subi : (⟨S10000, .i32⟩ : BufTy).Contents (Elt F) → (⟨S10000, .i32⟩ : BufTy).Contents (Elt F) → (⟨S10000, .i32⟩ : BufTy).Contents (Elt F)),
    TRef.nullary main_call0.c (constantI S_ 32 0#32),
    TRef.unary main_call0.c main_call0.v0 (broadcastInDim S10000 ![] bcast_S_S10000),
    TRef.binary (.of main_v1) main_call0.v0 main_call0.v1 (cmpi .slt),
    TRef.nullary main_call0.c_0 (constantI S_ 32 100#32),
    TRef.unary main_call0.c_0 main_call0.v2 (broadcastInDim S10000 ![] bcast_S_S10000),
    TRef.binary (.of main_v1) main_call0.v2 main_call0.v3 addi,
    TRef.ternary main_call0.v1 main_call0.v3 (.of main_v1) main_call0.call0.v0 select,
    TRef.unary main_call0.call0.v0 main_call0.v5 (broadcastInDim S10000x1 ![0] bcast_S10000_S10000x1_0),
    TRef.nullary main_call0.c_1 (constantI S1 32 99#32),
    TRef.nullary main_call0.c_2 (constantI S_ 32 0#32),
    TRef.unary main_call0.c_2 main_call0.v6 (broadcastInDim S10000x1 ![] bcast_S_S10000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S10000x1 ![0, 1] bcast_S1x1_S10000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S10000x1_S10000_d1 h_S_),
    TRef.binary (.of main_arg2) main_call0.v5 main_call0.v13 (fun x i => Host.gather gather_S100x128_S10000x1_S10000x128_1_0_n_n_0_1_1128 x i),
    TRef.unary main_call0.v12 main_call0.v14 (broadcastInDim S10000x128 ![0] bcast_S10000_S10000x128_0),
    TRef.nullary main_call0.cst (constant S_ .f32 0x7FC00000#32),
    TRef.unary main_call0.cst main_call0.v15 (broadcastInDim S10000x128 ![] bcast_S_S10000x128),
    TRef.ternary main_call0.v14 main_call0.v13 main_call0.v15 main_call0.v16 select,
    binary main_arg1 main_arg3 main_v3 ((fun l r => Host.dotGeneral dot_S320000x16_S16x384_S320000x384_1_0_0_1_n_n none l r) : (⟨S320000x16, .f32⟩ : BufTy).Contents (Elt F) → (⟨S16x384, .f32⟩ : BufTy).Contents (Elt F) → (⟨S320000x384, .f32⟩ : BufTy).Contents (Elt F)),
    unary main_arg4 main_v4 (broadcastInDim S1x384 ![1] bcast_S384_S1x384_1 : (⟨S384, .f32⟩ : BufTy).Contents (Elt F) → (⟨S1x384, .f32⟩ : BufTy).Contents (Elt F)),
    unary main_v4 main_v5 (broadcastInDim S320000x384 ![0, 1] bcast_S1x384_S320000x384_0_1 : (⟨S1x384, .f32⟩ : BufTy).Contents (Elt F) → (⟨S320000x384, .f32⟩ : BufTy).Contents (Elt F)),
    binary main_v3 main_v5 main_v6 (addf : (⟨S320000x384, .f32⟩ : BufTy).Contents (Elt F) → (⟨S320000x384, .f32⟩ : BufTy).Contents (Elt F) → (⟨S320000x384, .f32⟩ : BufTy).Contents (Elt F)),
    unary main_v6 main_v7 ((extractStridedSlice S320000x128 ![0, 0] · slices_S320000x384_S320000x128_0_0) : (⟨S320000x384, .f32⟩ : BufTy).Contents (Elt F) → (⟨S320000x128, .f32⟩ : BufTy).Contents (Elt F)),
    unary main_v6 main_v8 ((extractStridedSlice S320000x128 ![0, 128] · slices_S320000x384_S320000x128_0_128) : (⟨S320000x384, .f32⟩ : BufTy).Contents (Elt F) → (⟨S320000x128, .f32⟩ : BufTy).Contents (Elt F)),
    unary main_v6 main_v9 ((extractStridedSlice S320000x128 ![0, 256] · slices_S320000x384_S320000x128_0_256) : (⟨S320000x384, .f32⟩ : BufTy).Contents (Elt F) → (⟨S320000x128, .f32⟩ : BufTy).Contents (Elt F)) ]

-- thirty-three binds re-associated
set_option maxRecDepth 2048 in
/-- @main is that straight line: the two functions unfolded at their calls, sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub .., unary_bufs_sub .., unary_bufs_sub .., unary_bufs_sub ..⟩

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result and argument buffers -/

set_option maxRecDepth 8192 in
/-- The fold at the lookup's buffer is the lookup term of the table and the index term of the atomic numbers. -/
theorem v2_eq (V : Valuation τ sig (Elt F)) :
    after ops V (main_v2 : DevRef τ sig)
      = RefRead.takeT (F := F) (V (main_arg2 : DevRef τ sig)) (RefRead.idxT (V (main_arg0 : DevRef τ sig))) := by
  after_results_simp
  simp only [TRef.toBuf, TRef.ofBuf, cast_eq]
  rfl

set_option maxRecDepth 8192 in
/-- The fold at this projection's buffer is the band from column 0 of rb * W + b. -/
theorem v7_eq (V : Valuation τ sig (Elt F)) :
    after ops V (main_v7 : DevRef τ sig)
      = extractStridedSlice S320000x128 ![0, 0]
          (RefRead.projT (F := F) (V (main_arg1 : DevRef τ sig)) (V (main_arg3 : DevRef τ sig)) (V (main_arg4 : DevRef τ sig)))
          slices_S320000x384_S320000x128_0_0 := by
  after_results_simp
  rfl

set_option maxRecDepth 8192 in
/-- The fold at this projection's buffer is the band from column 128 of rb * W + b. -/
theorem v8_eq (V : Valuation τ sig (Elt F)) :
    after ops V (main_v8 : DevRef τ sig)
      = extractStridedSlice S320000x128 ![0, 128]
          (RefRead.projT (F := F) (V (main_arg1 : DevRef τ sig)) (V (main_arg3 : DevRef τ sig)) (V (main_arg4 : DevRef τ sig)))
          slices_S320000x384_S320000x128_0_128 := by
  after_results_simp
  rfl

set_option maxRecDepth 8192 in
/-- The fold at this projection's buffer is the band from column 256 of rb * W + b. -/
theorem v9_eq (V : Valuation τ sig (Elt F)) :
    after ops V (main_v9 : DevRef τ sig)
      = extractStridedSlice S320000x128 ![0, 256]
          (RefRead.projT (F := F) (V (main_arg1 : DevRef τ sig)) (V (main_arg3 : DevRef τ sig)) (V (main_arg4 : DevRef τ sig)))
          slices_S320000x384_S320000x128_0_256 := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

/-! ## The run, named by the specification -/

/-- At the ideal instance, from any memory with zero counters whose atomic numbers lie between 1 and 99: every weakly
    fair execution of @main terminates with the lookup's buffer at the specification's lookup, the three projections'
    buffers at the specification's projections from columns 256, 0 and 128, and the five arguments unchanged. -/
theorem run_gen (m : (ℓ : Loc nD τ sig) → Buf (Elt Ideal) ℓ) (g : Dev nD → PrngReg)
    (hr : ∀ (c : Dev nD) (n : S10000.Idx),
        1 ≤ (m ((c.tc : Thread nD τ).loc main_arg0) n).toInt ∧ (m ((c.tc : Thread nD τ).loc main_arg0) n).toInt ≤ 99) :
    θ_run (defs (F := Ideal)) (onTc (τ := τ) (main (F := Ideal))) ⟨m, fun _ => 0, g⟩
      (fun r => ∀ c : Dev nD,
          r.2.mem ((c.tc : Thread nD τ).loc main_v2) = Cert.Spec.H (m ((c.tc : Thread nD τ).loc main_arg2)) (m ((c.tc : Thread nD τ).loc main_arg0))
        ∧ r.2.mem ((c.tc : Thread nD τ).loc main_v9) = Cert.Spec.P 256 (by decide) (m ((c.tc : Thread nD τ).loc main_arg1)) (m ((c.tc : Thread nD τ).loc main_arg3)) (m ((c.tc : Thread nD τ).loc main_arg4))
        ∧ r.2.mem ((c.tc : Thread nD τ).loc main_v7) = Cert.Spec.P 0 (by decide) (m ((c.tc : Thread nD τ).loc main_arg1)) (m ((c.tc : Thread nD τ).loc main_arg3)) (m ((c.tc : Thread nD τ).loc main_arg4))
        ∧ r.2.mem ((c.tc : Thread nD τ).loc main_v8) = Cert.Spec.P 128 (by decide) (m ((c.tc : Thread nD τ).loc main_arg1)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun _ h c => ⟨
      (h c main_v2).trans ((v2_eq _).trans (RefRead.takeT_eq_H _ _ (hr c))),
      (h c main_v9).trans ((v9_eq _).trans (RefRead.band_eq_P 256 (by decide) _ _ _ _)),
      (h c main_v7).trans ((v7_eq _).trans (RefRead.band_eq_P 0 (by decide) _ _ _ _)),
      (h c main_v8).trans ((v8_eq _).trans (RefRead.band_eq_P 128 (by decide) _ _ _ _)),
      (h c main_arg0).trans (arg0_eq _), (h c main_arg1).trans (arg1_eq _), (h c main_arg2).trans (arg2_eq _),
      (h c main_arg3).trans (arg3_eq _), (h c main_arg4).trans (arg4_eq _)⟩)
    (run_main m g)

/-- The same for whichever proof of the reference's side conditions a claim binds: they are propositions. -/
theorem run [Cert.ReferenceIdeal.Facts]
    (m : (ℓ : Loc Cert.ReferenceIdeal.nD Cert.ReferenceIdeal.τ Cert.ReferenceIdeal.sig) → Buf (Elt Ideal) ℓ)
    (g : Dev Cert.ReferenceIdeal.nD → PrngReg)
    (hr : ∀ (c : Dev Cert.ReferenceIdeal.nD) (n : Cert.ReferenceIdeal.S10000.Idx),
        1 ≤ (m ((c.tc : Thread nD τ).loc main_arg0) n).toInt ∧ (m ((c.tc : Thread nD τ).loc main_arg0) n).toInt ≤ 99) :
    θ_run (Cert.ReferenceIdeal.defs (F := Ideal)) (onTc (τ := Cert.ReferenceIdeal.τ) (Cert.ReferenceIdeal.main (F := Ideal)))
      ⟨m, fun _ => 0, g⟩
      (fun r => ∀ c : Dev nD,
          r.2.mem ((c.tc : Thread nD τ).loc main_v2) = Cert.Spec.H (m ((c.tc : Thread nD τ).loc main_arg2)) (m ((c.tc : Thread nD τ).loc main_arg0))
        ∧ r.2.mem ((c.tc : Thread nD τ).loc main_v9) = Cert.Spec.P 256 (by decide) (m ((c.tc : Thread nD τ).loc main_arg1)) (m ((c.tc : Thread nD τ).loc main_arg3)) (m ((c.tc : Thread nD τ).loc main_arg4))
        ∧ r.2.mem ((c.tc : Thread nD τ).loc main_v7) = Cert.Spec.P 0 (by decide) (m ((c.tc : Thread nD τ).loc main_arg1)) (m ((c.tc : Thread nD τ).loc main_arg3)) (m ((c.tc : Thread nD τ).loc main_arg4))
        ∧ r.2.mem ((c.tc : Thread nD τ).loc main_v8) = Cert.Spec.P 128 (by decide) (m ((c.tc : Thread nD τ).loc main_arg1)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  run_gen m g hr

end Cert.RefRun

end
-- ==== Proof.PreRange.lean ====
/-
  The precondition, read back at one atom: the last conjunct of the printed predicate says that every atomic number,
  read as a signed integer, is at least 1 and at most 99. The predicate is a conjunction of one-bit words; its value 1
  forces each conjunct to be 1; the last conjunct is an "and" over all atoms of (number ≥ 1) and (number ≤ 99), so each
  atom's two comparisons are 1. The four float conjuncts are never opened. The statement holds for every float instance.
-/
import proofs.«206544_g7275674599721_cont_sun_c4_423_43_alg».proof.Pre_input_domain
import Idealize.ShloMosaic.Lib.ReduceAll
import Idealize.ShloMosaic.Lib.ValueIdx

noncomputable section

namespace Cert.PreRange

open Idealize.ShloMosaic Cert.Pre_input_domain

/-- The scalar shape has one index. -/
instance : Subsingleton S_.Idx := ⟨fun a b => funext fun d => d.elim0⟩

/-- Under the precondition every atomic number lies between 1 and 99. -/
theorem range_of_pre {F : FTy → Type} [FloatOps F] [Cert.Pre_input_domain.Facts]
    (a0 : IVec Cert.Pre_input_domain.S10000 32) (a1 : FVec F Cert.Pre_input_domain.S320000x16 .f32)
    (a2 : FVec F Cert.Pre_input_domain.S100x128 .f32) (a3 : FVec F Cert.Pre_input_domain.S16x384 .f32)
    (a4 : FVec F Cert.Pre_input_domain.S384 .f32)
    (h : Cert.Pre_input_domain.fn (F := F) a0 a1 a2 a3 a4 = fun _ => 1#1) :
    ∀ n : Cert.Pre_input_domain.S10000.Idx, 1 ≤ (a0 n).toInt ∧ (a0 n).toInt ≤ 99 := by
  intro n
  have e := congrFun h ValueIdx.ix0
  dsimp only [fn, fn_part1] at e
  -- the predicate is (float conjuncts) and (all atoms in range): keep the second half only
  have e2 := (IntOp.andi_eq_one.1 e).2
  -- "all" over the atoms: the conjunct at atom n is 1
  have e3 := Host.reduce_andi_all _ _ _ _ _ e2 n
  -- the conjunct at atom n is (number ≥ 1) and (number ≤ 99)
  obtain ⟨hge, hle⟩ := IntOp.andi_eq_one.1 e3
  have hge' := IntOp.cmpi_sge.1 hge
  have hle' := IntOp.cmpi_sle.1 hle
  exact ⟨hge', hle'⟩

end Cert.PreRange

end
-- ==== Proof.RefFrame.lean ====
/-
  The reference's frame claim, and the range hypothesis its run takes, out of the precondition: under the precondition
  every atomic number lies between 1 and 99, so the reference runs, and its five argument arrays end unchanged.
-/
import proofs.«206544_g7275674599721_cont_sun_c4_423_43_alg».proof.Defs
import proofs.«206544_g7275674599721_cont_sun_c4_423_43_alg».proof.Proof.RefRun
import proofs.«206544_g7275674599721_cont_sun_c4_423_43_alg».proof.Proof.PreRange
import proofs.«206544_g7275674599721_cont_sun_c4_423_43_alg».proof.Proof.Gen.Pre_input_domain

noncomputable section

namespace Cert.RefFrame

open Idealize.ShloMosaic Idealize.SL.Sem

/-- Under the reference's precondition every atomic number in its memory lies between 1 and 99. -/
theorem range_of_pre [Cert.Pre_input_domain.Facts]
    (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) (n : Cert.ReferenceIdeal.S10000.Idx) :
    1 ≤ (m ((c.tc : Thread Cert.ReferenceIdeal.nD Cert.ReferenceIdeal.τ).loc Cert.ReferenceIdeal.main_arg0) n).toInt ∧ (m ((c.tc : Thread Cert.ReferenceIdeal.nD Cert.ReferenceIdeal.τ).loc Cert.ReferenceIdeal.main_arg0) n).toInt ≤ 99 :=
  Cert.PreRange.range_of_pre (F := Ideal) _ _ _ _ _ (hpre c) n

/-- The reference runs and its argument arrays end unchanged. -/
theorem frame [hR : Cert.ReferenceIdeal.Facts] [hP : Cert.Pre_input_domain.Facts] :
    Cert.frame_ReferenceIdeal (hReferenceIdeal := hR) (hPre_input_domain := hP) := by
  intro m g hpre
  exact (θ_run _ _ _).mono (fun _ h c => ⟨(h c).2.2.2.2.1, (h c).2.2.2.2.2.1, (h c).2.2.2.2.2.2.1, (h c).2.2.2.2.2.2.2.1,
      (h c).2.2.2.2.2.2.2.2⟩)
    (Cert.RefRun.run m g (range_of_pre m hpre))

end Cert.RefFrame

end
-- ==== Proof.Assemble.lean ====
/-
  The claim's conjuncts, from the runs.

  Under the precondition every atomic number lies between 1 and 99.  The kernel's run then ends with its five
  arguments unchanged, the lookup's result at the gather of the table through (atomic number - 1), and the three
  projections at what the projection's windows end with; on the extended reals the gather is row (atomic number - 1) of
  the table and the windows end with the three bands of 128 columns of rb * W + b.  The reference's run ends with the
  same four arrays: the same table rows, the same sums of sixteen products plus bias.
-/
import proofs.«206544_g7275674599721_cont_sun_c4_423_43_alg».proof.Defs
import proofs.«206544_g7275674599721_cont_sun_c4_423_43_alg».proof.Proof.KI.Run
import proofs.«206544_g7275674599721_cont_sun_c4_423_43_alg».proof.Proof.KK.Run
import proofs.«206544_g7275674599721_cont_sun_c4_423_43_alg».proof.Proof.Gen.Kernel
import proofs.«206544_g7275674599721_cont_sun_c4_423_43_alg».proof.Proof.KI.HostValsIdeal
import proofs.«206544_g7275674599721_cont_sun_c4_423_43_alg».proof.Proof.RefFrame
import proofs.«206544_g7275674599721_cont_sun_c4_423_43_alg».proof.Proof.Gen.KernelIdeal
import proofs.«206544_g7275674599721_cont_sun_c4_423_43_alg».proof.Proof.Gen.ReferenceIdeal
import proofs.«206544_g7275674599721_cont_sun_c4_423_43_alg».proof.Proof.Gen.Pre_input_domain

noncomputable section

namespace Cert.Proof.Parts

open Idealize.ShloMosaic Idealize.SL.Sem

/-! ## The kernel as printed -/

/-- Under the kernel's precondition every atomic number in its memory lies between 1 and 99. -/
theorem rangeK (m : (ℓ : Loc Cert.Kernel.nD Cert.Kernel.τ Cert.Kernel.sig) → Buf (Elt Bits) ℓ)
    (hpre : Cert.Pre_Kernel (hPre_input_domain := Cert.Pre_input_domain.Gen.facts) m)
    (c : Dev Cert.Kernel.nD) (n : Cert.Kernel.S10000.Idx) :
    1 ≤ (Cert.Kernel.Run.atomNo m c n).toInt ∧ (Cert.Kernel.Run.atomNo m c n).toInt ≤ 99 :=
  Cert.PreRange.range_of_pre (F := Bits) _ _ _ _ _ (hpre c) n

/-- The kernel runs and its argument arrays end unchanged. -/
theorem frame_Kernel :
    Cert.frame_Kernel (hKernel := Cert.Kernel.Gen.facts) (hPre_input_domain := Cert.Pre_input_domain.Gen.facts) := by
  intro m g hpre
  exact (θ_run _ _ _).mono (fun _ h c => ⟨(h c).1, (h c).2.1, (h c).2.2.1, (h c).2.2.2.1, (h c).2.2.2.2.1⟩)
    (Cert.Kernel.Run.run_main (F := Bits) m g (rangeK m hpre))

/-! ## The idealized kernel -/

/-- Under the idealized kernel's precondition every atomic number in its memory lies between 1 and 99. -/
theorem rangeKI (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m)
    (c : Dev Cert.KernelIdeal.nD) (n : Cert.KernelIdeal.S10000.Idx) :
    1 ≤ (Cert.KernelIdeal.Run.atomNo m c n).toInt ∧ (Cert.KernelIdeal.Run.atomNo m c n).toInt ≤ 99 :=
  Cert.PreRange.range_of_pre (F := Ideal) _ _ _ _ _ (hpre c) n

/-- The idealized kernel runs and its argument arrays end unchanged. -/
theorem frame_KernelIdeal :
    Cert.frame_KernelIdeal (hKernelIdeal := Cert.KernelIdeal.Gen.facts) (hPre_input_domain := Cert.Pre_input_domain.Gen.facts) := by
  intro m g hpre
  exact (θ_run _ _ _).mono (fun _ h c => ⟨(h c).1, (h c).2.1, (h c).2.2.1, (h c).2.2.2.1, (h c).2.2.2.2.1⟩)
    (Cert.KernelIdeal.Run.run_main (F := Ideal) m g (rangeKI m hpre))

/-! ## The reference -/

/-- The reference runs and its argument arrays end unchanged. -/
theorem frame_ReferenceIdeal :
    Cert.frame_ReferenceIdeal (hReferenceIdeal := Cert.ReferenceIdeal.Gen.facts) (hPre_input_domain := Cert.Pre_input_domain.Gen.facts) :=
  Cert.RefFrame.frame

/-! ## The two agree on the extended reals -/

/-- From memories that agree on the arguments both programs end with the lookup at row (atomic number - 1) of the table
    and the three projections at the bands of rb * W + b from columns 256, 0 and 128, the arguments unchanged. -/
theorem algebraic :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  have hr := rangeKI m hpre
  have hr' : ∀ (c : Dev Cert.ReferenceIdeal.nD) (n : Cert.ReferenceIdeal.S10000.Idx),
      1 ≤ (m' ((c.tc : Thread Cert.ReferenceIdeal.nD Cert.ReferenceIdeal.τ).loc Cert.ReferenceIdeal.main_arg0) n).toInt ∧ (m' ((c.tc : Thread Cert.ReferenceIdeal.nD Cert.ReferenceIdeal.τ).loc Cert.ReferenceIdeal.main_arg0) n).toInt ≤ 99 := fun c n => by
    rw [(hagree c).1]; exact hr c n
  refine ⟨fun c => Cert.Spec.H (m ((c.tc : Thread Cert.KernelIdeal.nD Cert.KernelIdeal.τ).loc Cert.KernelIdeal.main_arg2)) (m ((c.tc : Thread Cert.KernelIdeal.nD Cert.KernelIdeal.τ).loc Cert.KernelIdeal.main_arg0)),
    fun c => Cert.Spec.P 256 (by decide) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.P 0 (by decide) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.P 128 (by decide) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run _ _ _).mono (fun _ h c => ⟨(h c).2.2.2.2.2.1.trans (Cert.KernelIdeal.Run.G_eq_H m c),
        (h c).2.2.2.2.2.2.2.2.trans (Cert.KernelIdeal.Run.pd_proj2 m c),
        (h c).2.2.2.2.2.2.1.trans (Cert.KernelIdeal.Run.pd_proj0 m c),
        (h c).2.2.2.2.2.2.2.1.trans (Cert.KernelIdeal.Run.pd_proj1 m c),
        (h c).1, (h c).2.1, (h c).2.2.1, (h c).2.2.2.1, (h c).2.2.2.2.1⟩)
      (Cert.KernelIdeal.Run.run_main (F := Ideal) m g hr)
  · refine (θ_run _ _ _).mono (fun _ h c => ⟨(h c).1.trans ?_, (h c).2.1.trans ?_, (h c).2.2.1.trans ?_, (h c).2.2.2.1.trans ?_,
        (h c).2.2.2.2⟩) (Cert.RefRun.run m' g' hr')
    · rw [(hagree c).2.2.1, (hagree c).1]
    · rw [(hagree c).2.1, (hagree c).2.2.2.1, (hagree c).2.2.2.2]
    · rw [(hagree c).2.1, (hagree c).2.2.2.1, (hagree c).2.2.2.2]
    · rw [(hagree c).2.1, (hagree c).2.2.2.1, (hagree c).2.2.2.2]

end Cert.Proof.Parts

end
-- ==== Proof.lean ====
/-
  The proof of the certificate's claim.

  The kernel looks up, for each of 10000 atoms, row (atomic number - 1) of a table of 100 rows of 128 entries, and
  computes the three bands of 128 columns of rb * W + b, where rb has 320000 rows of 16 entries, W has 16 rows of 384
  and b has 384 entries.  Under the precondition every atomic number lies between 1 and 99, so each lookup names a
  row of the table and neither program's guards or clamps act.  On the extended reals the two programs then end with
  the same four arrays: the same table rows, and, entry by entry, the same sums of sixteen products plus bias; and
  each program leaves its five arguments as it found them.
-/
import proofs.«206544_g7275674599721_cont_sun_c4_423_43_alg».proof.Defs
import proofs.«206544_g7275674599721_cont_sun_c4_423_43_alg».proof.Proof.Gen.Kernel
import proofs.«206544_g7275674599721_cont_sun_c4_423_43_alg».proof.Proof.Gen.KernelIdeal
import proofs.«206544_g7275674599721_cont_sun_c4_423_43_alg».proof.Proof.Gen.ReferenceIdeal
import proofs.«206544_g7275674599721_cont_sun_c4_423_43_alg».proof.Proof.Gen.Pre_input_domain
import proofs.«206544_g7275674599721_cont_sun_c4_423_43_alg».proof.Proof.Assemble

noncomputable section

namespace Cert.Proof

theorem claim : Cert.Claim :=
  ⟨Cert.Kernel.Gen.facts, Cert.KernelIdeal.Gen.facts, Cert.ReferenceIdeal.Gen.facts, Cert.Pre_input_domain.Gen.facts,
    Parts.frame_Kernel, Parts.frame_KernelIdeal, Parts.frame_ReferenceIdeal, trivial, Parts.algebraic⟩

end Cert.Proof

end
